-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v149)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v49)) (v3 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v175) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x64 : Shape := ⟨2, ![5000, 64]⟩
abbrev S20000x64 : Shape := ⟨2, ![20000, 64]⟩
abbrev S30000x64 : Shape := ⟨2, ![30000, 64]⟩
abbrev S100000x128 : Shape := ⟨2, ![100000, 128]⟩
abbrev S2x1000000 : Shape := ⟨2, ![2, 1000000]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S5000x64 : S_.BroadcastsInDim S5000x64 (![] : Fin 0 → Fin S5000x64.rank)
  reducesTo_S5000x64_S_d0_1 : S5000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S30000x64 : S_.BroadcastsInDim S30000x64 (![] : Fin 0 → Fin S30000x64.rank)
  reducesTo_S30000x64_S_d0_1 : S30000x64.ReducesTo [0, 1] S_
  bcast_S_S100000x128 : S_.BroadcastsInDim S100000x128 (![] : Fin 0 → Fin S100000x128.rank)
  reducesTo_S100000x128_S_d0_1 : S100000x128.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part6 {F : FTy → Type} [FloatOps F] (main_arg27 : FVec F S128x64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S128x64 .f32 := Host.absf main_arg27
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  main_v108

def fn_part5 {F : FTy → Type} [FloatOps F] (main_arg24 : FVec F S64x64 .f32) (main_arg25 : FVec F S64x64 .f32) (main_arg26 : FVec F S64 .f32) (main_arg27 : FVec F S128x64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg24
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64x64 .f32 := Host.absf main_arg25
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg26
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg27 main_v98 main_v101 main_c_39

def fn_part4 {F : FTy → Type} [FloatOps F] (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S128x64 .f32) (main_v63 : IVec S_ 1) (main_v67 : IVec S_ 1) : IVec S_ 1 :=
  let main_v68 : IVec S_ 1 := andi main_v63 main_v67
  let main_v69 : FVec F S64 .f32 := Host.absf main_arg20
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg21
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg22
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg23
  let main_cst_32 : FVec F S_ .f32 := constant S_ .f32 0x7F800000#32
  fn_part5 (F := F) main_arg24 main_arg25 main_arg26 main_arg27 main_v83 main_v84 main_cst_32

def fn_part3 {F : FTy → Type} [FloatOps F] (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S128x64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg17
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg18
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg19
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg20 main_arg21 main_arg22 main_arg23 main_arg24 main_arg25 main_arg26 main_arg27 main_v63 main_v67

def fn_part2 {F : FTy → Type} [FloatOps F] (main_arg13 : FVec F S64x64 .f32) (main_arg14 : FVec F S64 .f32) (main_arg15 : FVec F S64x64 .f32) (main_arg16 : FVec F S128x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S128x64 .f32) (main_v33 : IVec S_ 1) : IVec S_ 1 :=
  let main_v34 : FVec F S64x64 .f32 := Host.absf main_arg13
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg15
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S128x64 .f32 := Host.absf main_arg16
  let main_cst_18 : FVec F S_ .f32 := constant S_ .f32 0x7F800000#32
  let main_v50 : FVec F S128x64 .f32 := broadcastInDim S128x64 ![] bcast_S_S128x64 main_cst_18
  fn_part3 (F := F) main_arg17 main_arg18 main_arg19 main_arg20 main_arg21 main_arg22 main_arg23 main_arg24 main_arg25 main_arg26 main_arg27 main_v48 main_v49 main_v50

def fn_part1 {F : FTy → Type} [FloatOps F] (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S128x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S128x64 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S64x64 .f32 := Host.absf main_arg10
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg12
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S5000x64 .f32) (main_arg1 : FVec F S20000x64 .f32) (main_arg2 : FVec F S30000x64 .f32) (main_arg3 : FVec F S100000x128 .f32) (main_arg4 : IVec S2x1000000 32) (main_arg5 : IVec S2x1000000 32) (main_arg6 : IVec S2x1000000 32) (main_arg7 : IVec S2x1000000 32) (main_arg8 : IVec S2x1000000 32) (main_arg9 : IVec S2x1000000 32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S128x64 .f32) (main_arg17 : FVec F S64 .f32) (main_arg18 : FVec F S64x64 .f32) (main_arg19 : FVec F S64x64 .f32) (main_arg20 : FVec F S64 .f32) (main_arg21 : FVec F S64x64 .f32) (main_arg22 : FVec F S64x64 .f32) (main_arg23 : FVec F S64 .f32) (main_arg24 : FVec F S64x64 .f32) (main_arg25 : FVec F S64x64 .f32) (main_arg26 : FVec F S64 .f32) (main_arg27 : FVec F S128x64 .f32) : IVec S_ 1 :=
  let main_v0 : FVec F S5000x64 .f32 := Host.absf main_arg0
  let main_cst : FVec F S_ .f32 := constant S_ .f32 0x7F800000#32
  let main_v1 : FVec F S5000x64 .f32 := broadcastInDim S5000x64 ![] bcast_S_S5000x64 main_cst
  let main_v2 : IVec S5000x64 1 := cmpf .olt main_v0 main_v1
  let main_c : IVec S_ 1 := constantI S_ 1 1#1
  let main_v3 : IVec S_ 1 := (fun x v => Host.reduce IntOp.andi x v reducesTo_S5000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S30000x64 .f32 := Host.absf main_arg2
  let main_cst_2 : FVec F S_ .f32 := constant S_ .f32 0x7F800000#32
  let main_v10 : FVec F S30000x64 .f32 := broadcastInDim S30000x64 ![] bcast_S_S30000x64 main_cst_2
  let main_v11 : IVec S30000x64 1 := cmpf .olt main_v9 main_v10
  let main_c_3 : IVec S_ 1 := constantI S_ 1 1#1
  let main_v12 : IVec S_ 1 := (fun x v => Host.reduce IntOp.andi x v reducesTo_S30000x64_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S5000x64 : Shape := ⟨2, ![5000, 64]⟩
abbrev S20000x64 : Shape := ⟨2, ![20000, 64]⟩
abbrev S30000x64 : Shape := ⟨2, ![30000, 64]⟩
abbrev S100000x128 : Shape := ⟨2, ![100000, 128]⟩
abbrev S2x1000000 : Shape := ⟨2, ![2, 1000000]⟩
abbrev S64x64 : Shape := ⟨2, ![64, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S20000 : Shape := ⟨1, ![20000]⟩
abbrev S20000x1 : Shape := ⟨2, ![20000, 1]⟩
abbrev S1x64 : Shape := ⟨2, ![1, 64]⟩
abbrev S1000x64 : Shape := ⟨2, ![1000, 64]⟩
abbrev S30000 : Shape := ⟨1, ![30000]⟩
abbrev S30000x1 : Shape := ⟨2, ![30000, 1]⟩
abbrev S100000x64 : Shape := ⟨2, ![100000, 64]⟩
abbrev S100000 : Shape := ⟨1, ![100000]⟩
abbrev S100000x1 : Shape := ⟨2, ![100000, 1]⟩
abbrev S1000x128 : Shape := ⟨2, ![1000, 128]⟩
abbrev S1000000x128 : Shape := ⟨2, ![1000000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 214
  | .vmem => 42
  | .smem => 0
  | _ => 0

abbrev hbmTy0_0 (i : Nat) : BufTy := match i % 128 with
  | 0 => ⟨S5000x64, .f32⟩
  | 1 => ⟨S20000x64, .f32⟩
  | 2 => ⟨S30000x64, .f32⟩
  | 3 => ⟨S100000x128, .f32⟩
  | 4 => ⟨S2x1000000, .i32⟩
  | 5 => ⟨S2x1000000, .i32⟩
  | 6 => ⟨S2x1000000, .i32⟩
  | 7 => ⟨S2x1000000, .i32⟩
  | 8 => ⟨S2x1000000, .i32⟩
  | 9 => ⟨S2x1000000, .i32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S128x64, .f32⟩
  | 17 => ⟨S64, .f32⟩
  | 18 => ⟨S64x64, .f32⟩
  | 19 => ⟨S64x64, .f32⟩
  | 20 => ⟨S64, .f32⟩
  | 21 => ⟨S64x64, .f32⟩
  | 22 => ⟨S64x64, .f32⟩
  | 23 => ⟨S64, .f32⟩
  | 24 => ⟨S64x64, .f32⟩
  | 25 => ⟨S64x64, .f32⟩
  | 26 => ⟨S64, .f32⟩
  | 27 => ⟨S128x64, .f32⟩
  | 28 => ⟨S1x1000000, .i32⟩
  | 29 => ⟨S1000000, .i32⟩
  | 30 => ⟨S1x1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S_, .f32⟩
  | 42 => ⟨S20000x64, .f32⟩
  | 43 => ⟨S1000000x1, .i32⟩
  | 44 => ⟨S20000x64, .f32⟩
  | 45 => ⟨S_, .f32⟩
  | 46 => ⟨S1000000, .f32⟩
  | 47 => ⟨S_, .f32⟩
  | 48 => ⟨S20000, .f32⟩
  | 49 => ⟨S1000000x1, .i32⟩
  | 50 => ⟨S20000, .f32⟩
  | 51 => ⟨S_, .f32⟩
  | 52 => ⟨S20000, .f32⟩
  | 53 => ⟨S20000, .f32⟩
  | 54 => ⟨S20000x1, .f32⟩
  | 55 => ⟨S20000x64, .f32⟩
  | 56 => ⟨S20000x64, .f32⟩
  | 57 => ⟨S1x64, .f32⟩
  | 58 => ⟨S20000x64, .f32⟩
  | 59 => ⟨S1x1000000, .i32⟩
  | 60 => ⟨S1000000, .i32⟩
  | 61 => ⟨S1x1000000, .i32⟩
  | 62 => ⟨S1000000, .i32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x64, .f32⟩
  | 72 => ⟨S_, .f32⟩
  | 73 => ⟨S30000x64, .f32⟩
  | 74 => ⟨S1000000x1, .i32⟩
  | 75 => ⟨S30000x64, .f32⟩
  | 76 => ⟨S_, .f32⟩
  | 77 => ⟨S1000000, .f32⟩
  | 78 => ⟨S_, .f32⟩
  | 79 => ⟨S30000, .f32⟩
  | 80 => ⟨S1000000x1, .i32⟩
  | 81 => ⟨S30000, .f32⟩
  | 82 => ⟨S_, .f32⟩
  | 83 => ⟨S30000, .f32⟩
  | 84 => ⟨S30000, .f32⟩
  | 85 => ⟨S30000x1, .f32⟩
  | 86 => ⟨S30000x64, .f32⟩
  | 87 => ⟨S30000x64, .f32⟩
  | 88 => ⟨S1x64, .f32⟩
  | 89 => ⟨S30000x64, .f32⟩
  | 90 => ⟨S1x1000000, .i32⟩
  | 91 => ⟨S1000000, .i32⟩
  | 92 => ⟨S1x1000000, .i32⟩
  | 93 => ⟨S1000000, .i32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x64, .f32⟩
  | 103 => ⟨S_, .f32⟩
  | 104 => ⟨S100000x64, .f32⟩
  | 105 => ⟨S1000000x1, .i32⟩
  | 106 => ⟨S100000x64, .f32⟩
  | 107 => ⟨S_, .f32⟩
  | 108 => ⟨S1000000, .f32⟩
  | 109 => ⟨S_, .f32⟩
  | 110 => ⟨S100000, .f32⟩
  | 111 => ⟨S1000000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x64, .f32⟩
  | 118 => ⟨S100000x64, .f32⟩
  | 119 => ⟨S1x64, .f32⟩
  | 120 => ⟨S100000x64, .f32⟩
  | 121 => ⟨S1x1000000, .i32⟩
  | 122 => ⟨S1000000, .i32⟩
  | 123 => ⟨S1x1000000, .i32⟩
  | 124 => ⟨S1000000, .i32⟩
  | 125 => ⟨S_, .i32⟩
  | 126 => ⟨S1000000, .i32⟩
  | 127 => ⟨S1000000, .i1⟩
  | _ => ⟨S5000x64, .f32⟩

abbrev hbmTy0_1 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S1000000x128, .f32⟩
  | 6 => ⟨S_, .f32⟩
  | 7 => ⟨S5000x128, .f32⟩
  | 8 => ⟨S1000000x1, .i32⟩
  | 9 => ⟨S5000x128, .f32⟩
  | 10 => ⟨S_, .f32⟩
  | 11 => ⟨S1000000, .f32⟩
  | 12 => ⟨S_, .f32⟩
  | 13 => ⟨S5000, .f32⟩
  | 14 => ⟨S1000000x1, .i32⟩
  | 15 => ⟨S5000, .f32⟩
  | 16 => ⟨S_, .f32⟩
  | 17 => ⟨S5000, .f32⟩
  | 18 => ⟨S5000, .f32⟩
  | 19 => ⟨S5000x1, .f32⟩
  | 20 => ⟨S5000x128, .f32⟩
  | 21 => ⟨S5000x128, .f32⟩
  | 22 => ⟨S1x1000000, .i32⟩
  | 23 => ⟨S1000000, .i32⟩
  | 24 => ⟨S1x1000000, .i32⟩
  | 25 => ⟨S1000000, .i32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S_, .f32⟩
  | 36 => ⟨S5000x64, .f32⟩
  | 37 => ⟨S1000000x1, .i32⟩
  | 38 => ⟨S5000x64, .f32⟩
  | 39 => ⟨S_, .f32⟩
  | 40 => ⟨S1000000, .f32⟩
  | 41 => ⟨S_, .f32⟩
  | 42 => ⟨S5000, .f32⟩
  | 43 => ⟨S1000000x1, .i32⟩
  | 44 => ⟨S5000, .f32⟩
  | 45 => ⟨S_, .f32⟩
  | 46 => ⟨S5000, .f32⟩
  | 47 => ⟨S5000, .f32⟩
  | 48 => ⟨S5000x1, .f32⟩
  | 49 => ⟨S5000x64, .f32⟩
  | 50 => ⟨S5000x64, .f32⟩
  | 51 => ⟨S1x1000000, .i32⟩
  | 52 => ⟨S1000000, .i32⟩
  | 53 => ⟨S1x1000000, .i32⟩
  | 54 => ⟨S1000000, .i32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S_, .f32⟩
  | 65 => ⟨S5000x64, .f32⟩
  | 66 => ⟨S1000000x1, .i32⟩
  | 67 => ⟨S5000x64, .f32⟩
  | 68 => ⟨S_, .f32⟩
  | 69 => ⟨S1000000, .f32⟩
  | 70 => ⟨S_, .f32⟩
  | 71 => ⟨S5000, .f32⟩
  | 72 => ⟨S1000000x1, .i32⟩
  | 73 => ⟨S5000, .f32⟩
  | 74 => ⟨S_, .f32⟩
  | 75 => ⟨S5000, .f32⟩
  | 76 => ⟨S5000, .f32⟩
  | 77 => ⟨S5000x1, .f32⟩
  | 78 => ⟨S5000x64, .f32⟩
  | 79 => ⟨S5000x64, .f32⟩
  | 80 => ⟨S64x64, .f32⟩
  | 81 => ⟨S64x64, .f32⟩
  | 82 => ⟨S64, .f32⟩
  | 83 => ⟨S64, .f32⟩
  | 84 => ⟨S1x64, .f32⟩
  | 85 => ⟨S5000x64, .f32⟩
  | _ => ⟨S5000x64, .f32⟩

abbrev hbmTy (i : Nat) : BufTy := match i / 128 with
  | 0 => hbmTy0_0 i
  | 1 => hbmTy0_1 i
  | _ => ⟨S5000x64, .f32⟩

abbrev bufTy : (tb : Table) → Fin (tcTables nBuf tb) → BufTy
  | .hbm, ⟨i, _⟩ => hbmTy i
  | .local _ .vmem, ⟨0, _⟩ => ⟨S1000x64, .f32⟩
  | .local _ .vmem, ⟨1, _⟩ => ⟨S1000x64, .f32⟩
  | .local _ .vmem, ⟨2, _⟩ => ⟨S1000x64, .f32⟩
  | .local _ .vmem, ⟨3, _⟩ => ⟨S1000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S1000x64, .f32⟩
  | .local _ .vmem, ⟨17, _⟩ => ⟨S1000x64, .f32⟩
  | .local _ .vmem, ⟨18, _⟩ => ⟨S1000x64, .f32⟩
  | .local _ .vmem, ⟨19, _⟩ => ⟨S1000x64, .f32⟩
  | .local _ .vmem, ⟨20, _⟩ => ⟨S1000x128, .f32⟩
  | .local _ .vmem, ⟨21, _⟩ => ⟨S1000x128, .f32⟩
  | .local _ .vmem, ⟨22, _⟩ => ⟨S64x64, .f32⟩
  | .local _ .vmem, ⟨23, _⟩ => ⟨S128x64, .f32⟩
  | .local _ .vmem, ⟨24, _⟩ => ⟨S1x64, .f32⟩
  | .local _ .vmem, ⟨25, _⟩ => ⟨S1000x64, .f32⟩
  | .local _ .vmem, ⟨26, _⟩ => ⟨S1000x64, .f32⟩
  | .local _ .vmem, ⟨27, _⟩ => ⟨S1000x128, .f32⟩
  | .local _ .vmem, ⟨28, _⟩ => ⟨S1000x128, .f32⟩
  | .local _ .vmem, ⟨29, _⟩ => ⟨S1000x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S1000x64, .f32⟩
  | .local _ .vmem, ⟨34, _⟩ => ⟨S1000x64, .f32⟩
  | .local _ .vmem, ⟨35, _⟩ => ⟨S128x64, .f32⟩
  | .local _ .vmem, ⟨36, _⟩ => ⟨S64x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S1000x64, .f32⟩
  | .local _ .vmem, ⟨41, _⟩ => ⟨S1000x64, .f32⟩
  | _, _ => ⟨S5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_cst_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_4 : Ref sig .tc := ⟨.hbm, 63, rfl⟩
abbrev main_v29 : Ref sig .tc := ⟨.hbm, 64, rfl⟩
abbrev main_v30 : Ref sig .tc := ⟨.hbm, 65, rfl⟩
abbrev main_c_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_7 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_9 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_10 : Ref sig .tc := ⟨.hbm, 94, rfl⟩
abbrev main_v54 : Ref sig .tc := ⟨.hbm, 95, rfl⟩
abbrev main_v55 : Ref sig .tc := ⟨.hbm, 96, rfl⟩
abbrev main_c_11 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_12 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_13 : Ref sig .tc := ⟨.hbm, 107, rfl⟩
abbrev main_v64 : Ref sig .tc := ⟨.hbm, 108, rfl⟩
abbrev main_cst_14 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_15 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_16 : Ref sig .tc := ⟨.hbm, 125, rfl⟩
abbrev main_v79 : Ref sig .tc := ⟨.hbm, 126, rfl⟩
abbrev main_v80 : Ref sig .tc := ⟨.hbm, 127, rfl⟩
abbrev main_c_17 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_18 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_19 : Ref sig .tc := ⟨.hbm, 138, rfl⟩
abbrev main_v89 : Ref sig .tc := ⟨.hbm, 139, rfl⟩
abbrev main_cst_20 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_21 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_22 : Ref sig .tc := ⟨.hbm, 154, rfl⟩
abbrev main_v102 : Ref sig .tc := ⟨.hbm, 155, rfl⟩
abbrev main_v103 : Ref sig .tc := ⟨.hbm, 156, rfl⟩
abbrev main_c_23 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_24 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_25 : Ref sig .tc := ⟨.hbm, 167, rfl⟩
abbrev main_v112 : Ref sig .tc := ⟨.hbm, 168, rfl⟩
abbrev main_cst_26 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_27 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_c_28 : Ref sig .tc := ⟨.hbm, 183, rfl⟩
abbrev main_v125 : Ref sig .tc := ⟨.hbm, 184, rfl⟩
abbrev main_v126 : Ref sig .tc := ⟨.hbm, 185, rfl⟩
abbrev main_c_29 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_30 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_31 : Ref sig .tc := ⟨.hbm, 196, rfl⟩
abbrev main_v135 : Ref sig .tc := ⟨.hbm, 197, rfl⟩
abbrev main_cst_32 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_33 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  shapeCasts_S64_S1x64 : S64.ShapeCasts S1x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  bcast_S_S30000x64 : S_.BroadcastsInDim S30000x64 (![] : Fin 0 → Fin S30000x64.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x64_0_1 : S30000x1.BroadcastsInDim S30000x64 (![0, 1] : Fin 2 → Fin S30000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S1000x128_S1000x128_0_0 : ∀ a, (![0, 0] : Fin 2 → Nat) a + S1000x128.size a ≤ S1000x128.size a
  h_S1000x128 : 0 < S1000x128.numel
  inb_S128x64_S128x64_0_0 : ∀ a, (![0, 0] : Fin 2 → Nat) a + S128x64.size a ≤ S128x64.size a
  h_S128x64 : 0 < S128x64.numel
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S_S5000x64 : S_.BroadcastsInDim S5000x64 (![] : Fin 0 → Fin S5000x64.rank)
  bcast_S5000x1_S5000x64_0_1 : S5000x1.BroadcastsInDim S5000x64 (![0, 1] : Fin 2 → Fin S5000x64.rank)
  shapeCasts_S1000x128_S1000x128 : S1000x128.ShapeCasts S1000x128
  shapeCasts_S64x64_S64x64 : S64x64.ShapeCasts S64x64
  gather_S5000x64_S1000000x1_S1000000x64_1_0_n_n_0_1_164_wf : GatherDims.WF S5000x64 S1000000x1 S1000000x64 [1] [0] [] [0] [] 1 ![1, 64]
  scatter_S20000x64_S1000000x1_S1000000x64_1_0_0_1_wf : ScatterDims.WF S20000x64 S1000000x1 S1000000x64 [1] [0] [0] 1
  scatter_S20000_S1000000x1_S1000000_n_0_0_1_wf : ScatterDims.WF S20000 S1000000x1 S1000000 [] [0] [0] 1
  dot_S1000x64_S64x64_S1000x64_1_0_0_1_n_n_wf : DotDims.WF S1000x64 S64x64 S1000x64 [1] [0] [0] [1] [] []
  scatter_S30000x64_S1000000x1_S1000000x64_1_0_0_1_wf : ScatterDims.WF S30000x64 S1000000x1 S1000000x64 [1] [0] [0] 1
  scatter_S30000_S1000000x1_S1000000_n_0_0_1_wf : ScatterDims.WF S30000 S1000000x1 S1000000 [] [0] [0] 1
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S1000x128_S128x64_S1000x64_1_0_0_1_n_n_wf : DotDims.WF S1000x128 S128x64 S1000x64 [1] [0] [0] [1] [] []
  gather_S100000x128_S1000000x1_S1000000x128_1_0_n_n_0_1_1128_wf : GatherDims.WF S100000x128 S1000000x1 S1000000x128 [1] [0] [] [0] [] 1 ![1, 128]
  scatter_S5000x128_S1000000x1_S1000000x128_1_0_0_1_wf : ScatterDims.WF S5000x128 S1000000x1 S1000000x128 [1] [0] [0] 1
  scatter_S5000_S1000000x1_S1000000_n_0_0_1_wf : ScatterDims.WF S5000 S1000000x1 S1000000 [] [0] [0] 1
  gather_S30000x64_S1000000x1_S1000000x64_1_0_n_n_0_1_164_wf : GatherDims.WF S30000x64 S1000000x1 S1000000x64 [1] [0] [] [0] [] 1 ![1, 64]
  scatter_S5000x64_S1000000x1_S1000000x64_1_0_0_1_wf : ScatterDims.WF S5000x64 S1000000x1 S1000000x64 [1] [0] [0] 1
  gather_S20000x64_S1000000x1_S1000000x64_1_0_n_n_0_1_164_wf : GatherDims.WF S20000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S20000x64.size a
  hwx0_0 : ∀ i : grid0.Coords, EltTy.bits .f32 = 32 ∨ (Rect.block (s := S20000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S20000x64.size a
  hwx0_1 : ∀ i : grid0.Coords, EltTy.bits .f32 = 32 ∨ (Rect.block (s := S20000x64) S1000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x64.size a ≤ S20000x64.size a
  hwx0_5 : ∀ i : grid0.Coords, EltTy.bits .f32 = 32 ∨ (Rect.block (s := S20000x64) S1000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S30000x64.size a
  hwx1_0 : ∀ i : grid1.Coords, EltTy.bits .f32 = 32 ∨ (Rect.block (s := S30000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S30000x64.size a
  hwx1_1 : ∀ i : grid1.Coords, EltTy.bits .f32 = 32 ∨ (Rect.block (s := S30000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x64.size a ≤ S30000x64.size a
  hwx1_5 : ∀ i : grid1.Coords, EltTy.bits .f32 = 32 ∨ (Rect.block (s := S30000x64) S1000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S100000x64.size a
  hwx2_0 : ∀ i : grid2.Coords, EltTy.bits .f32 = 32 ∨ (Rect.block (s := S100000x64) S1000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S100000x128.size a
  hwx2_1 : ∀ i : grid2.Coords, EltTy.bits .f32 = 32 ∨ (Rect.block (s := S100000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S100000x64.size a
  hwx2_5 : ∀ i : grid2.Coords, EltTy.bits .f32 = 32 ∨ (Rect.block (s := S100000x64) S1000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S5000x128.size a
  hwx3_0 : ∀ i : grid3.Coords, EltTy.bits .f32 = 32 ∨ (Rect.block (s := S5000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S5000x64.size a
  hwx3_1 : ∀ i : grid3.Coords, EltTy.bits .f32 = 32 ∨ (Rect.block (s := S5000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S5000x64.size a
  hwx3_2 : ∀ i : grid3.Coords, EltTy.bits .f32 = 32 ∨ (Rect.block (s := S5000x64) S1000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x64.size a ≤ S5000x64.size a
  hwx3_3 : ∀ i : grid3.Coords, EltTy.bits .f32 = 32 ∨ (Rect.block (s := S5000x64) S1000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x64.size a ≤ S5000x64.size a
  hwx3_9 : ∀ i : grid3.Coords, EltTy.bits .f32 = 32 ∨ (Rect.block (s := S5000x64) S1000x64.size (cc3_transform_9 i) (hinb3_9 i)).WholeWords (EltTy.packing .f32)

variable [Facts₀]

def gather_S5000x64_S1000000x1_S1000000x64_1_0_n_n_0_1_164 : GatherDims S5000x64 S1000000x1 S1000000x64 where
  offsetDims := [1]
  collapsedSliceDims := [0]
  operandBatchingDims := []
  startIndicesBatchingDims := []
  startIndexMap := [0]
  indexVectorDim := 1
  sliceSizes := ![1, 64]
  wf := gather_S5000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def scatter_S30000_S1000000x1_S1000000_n_0_0_1 : ScatterDims S30000 S1000000x1 S1000000 where
  updateWindowDims := []
  insertedWindowDims := [0]
  scatterDimsToOperandDims := [0]
  indexVectorDim := 1
  wf := scatter_S30000_S1000000x1_S1000000_n_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S5000x128_S1000000x1_S1000000x128_1_0_0_1 : ScatterDims S5000x128 S1000000x1 S1000000x128 where
  updateWindowDims := [1]
  insertedWindowDims := [0]
  scatterDimsToOperandDims := [0]
  indexVectorDim := 1
  wf := scatter_S5000x128_S1000000x1_S1000000x128_1_0_0_1_wf
def scatter_S5000_S1000000x1_S1000000_n_0_0_1 : ScatterDims S5000 S1000000x1 S1000000 where
  updateWindowDims := []
  insertedWindowDims := [0]
  scatterDimsToOperandDims := [0]
  indexVectorDim := 1
  wf := scatter_S5000_S1000000x1_S1000000_n_0_0_1_wf
def gather_S30000x64_S1000000x1_S1000000x64_1_0_n_n_0_1_164 : GatherDims S30000x64 S1000000x1 S1000000x64 where
  offsetDims := [1]
  collapsedSliceDims := [0]
  operandBatchingDims := []
  startIndicesBatchingDims := []
  startIndexMap := [0]
  indexVectorDim := 1
  sliceSizes := ![1, 64]
  wf := gather_S30000x64_S1000000x1_S1000000x64_1_0_n_n_0_1_164_wf
def scatter_S5000x64_S1000000x1_S1000000x64_1_0_0_1 : ScatterDims S5000x64 S1000000x1 S1000000x64 where
  updateWindowDims := [1]
  insertedWindowDims := [0]
  scatterDimsToOperandDims := [0]
  indexVectorDim := 1
  wf := scatter_S5000x64_S1000000x1_S1000000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf

abbrev win0_0 : Pipeline.Window sig grid0 :=
  Pipeline.Window.ofSpec (Memref.whole main_v22) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg25) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg27) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v97) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v120) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v143) S1000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S1000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg19) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg22) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v145) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v148) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v149) S1000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S5000x64 : Shape := ⟨2, ![5000, 64]⟩
abbrev S20000x64 : Shape := ⟨2, ![20000, 64]⟩
abbrev S30000x64 : Shape := ⟨2, ![30000, 64]⟩
abbrev S100000x128 : Shape := ⟨2, ![100000, 128]⟩
abbrev S2x1000000 : Shape := ⟨2, ![2, 1000000]⟩
abbrev S64x64 : Shape := ⟨2, ![64, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S20000 : Shape := ⟨1, ![20000]⟩
abbrev S20000x1 : Shape := ⟨2, ![20000, 1]⟩
abbrev S1x64 : Shape := ⟨2, ![1, 64]⟩
abbrev S30000 : Shape := ⟨1, ![30000]⟩
abbrev S30000x1 : Shape := ⟨2, ![30000, 1]⟩
abbrev S1000000x128 : Shape := ⟨2, ![1000000, 128]⟩
abbrev S5000x128 : Shape := ⟨2, ![5000, 128]⟩
abbrev S5000 : Shape := ⟨1, ![5000]⟩
abbrev S5000x1 : Shape := ⟨2, ![5000, 1]⟩
abbrev S100000x64 : Shape := ⟨2, ![100000, 64]⟩
abbrev S100000 : Shape := ⟨1, ![100000]⟩
abbrev S100000x1 : Shape := ⟨2, ![100000, 1]⟩

abbrev nBuf : Space → Nat
  | .hbm => 240
  | .vmem => 0
  | .smem => 0
  | _ => 0

abbrev hbmTy0_0 (i : Nat) : BufTy := match i % 128 with
  | 0 => ⟨S5000x64, .f32⟩
  | 1 => ⟨S20000x64, .f32⟩
  | 2 => ⟨S30000x64, .f32⟩
  | 3 => ⟨S100000x128, .f32⟩
  | 4 => ⟨S2x1000000, .i32⟩
  | 5 => ⟨S2x1000000, .i32⟩
  | 6 => ⟨S2x1000000, .i32⟩
  | 7 => ⟨S2x1000000, .i32⟩
  | 8 => ⟨S2x1000000, .i32⟩
  | 9 => ⟨S2x1000000, .i32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S128x64, .f32⟩
  | 17 => ⟨S64, .f32⟩
  | 18 => ⟨S64x64, .f32⟩
  | 19 => ⟨S64x64, .f32⟩
  | 20 => ⟨S64, .f32⟩
  | 21 => ⟨S64x64, .f32⟩
  | 22 => ⟨S64x64, .f32⟩
  | 23 => ⟨S64, .f32⟩
  | 24 => ⟨S64x64, .f32⟩
  | 25 => ⟨S64x64, .f32⟩
  | 26 => ⟨S64, .f32⟩
  | 27 => ⟨S128x64, .f32⟩
  | 28 => ⟨S1x1000000, .i32⟩
  | 29 => ⟨S1000000, .i32⟩
  | 30 => ⟨S1x1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S_, .f32⟩
  | 42 => ⟨S20000x64, .f32⟩
  | 43 => ⟨S1000000x1, .i32⟩
  | 44 => ⟨S20000x64, .f32⟩
  | 45 => ⟨S_, .f32⟩
  | 46 => ⟨S1000000, .f32⟩
  | 47 => ⟨S_, .f32⟩
  | 48 => ⟨S20000, .f32⟩
  | 49 => ⟨S1000000x1, .i32⟩
  | 50 => ⟨S20000, .f32⟩
  | 51 => ⟨S_, .f32⟩
  | 52 => ⟨S20000, .f32⟩
  | 53 => ⟨S20000, .f32⟩
  | 54 => ⟨S20000x1, .f32⟩
  | 55 => ⟨S20000x64, .f32⟩
  | 56 => ⟨S20000x64, .f32⟩
  | 57 => ⟨S20000x64, .f32⟩
  | 58 => ⟨S1x64, .f32⟩
  | 59 => ⟨S20000x64, .f32⟩
  | 60 => ⟨S20000x64, .f32⟩
  | 61 => ⟨S20000x64, .f32⟩
  | 62 => ⟨S20000x64, .f32⟩
  | 63 => ⟨S1x1000000, .i32⟩
  | 64 => ⟨S1000000, .i32⟩
  | 65 => ⟨S1x1000000, .i32⟩
  | 66 => ⟨S1000000, .i32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x64, .f32⟩
  | 76 => ⟨S_, .f32⟩
  | 77 => ⟨S30000x64, .f32⟩
  | 78 => ⟨S1000000x1, .i32⟩
  | 79 => ⟨S30000x64, .f32⟩
  | 80 => ⟨S_, .f32⟩
  | 81 => ⟨S1000000, .f32⟩
  | 82 => ⟨S_, .f32⟩
  | 83 => ⟨S30000, .f32⟩
  | 84 => ⟨S1000000x1, .i32⟩
  | 85 => ⟨S30000, .f32⟩
  | 86 => ⟨S_, .f32⟩
  | 87 => ⟨S30000, .f32⟩
  | 88 => ⟨S30000, .f32⟩
  | 89 => ⟨S30000x1, .f32⟩
  | 90 => ⟨S30000x64, .f32⟩
  | 91 => ⟨S30000x64, .f32⟩
  | 92 => ⟨S30000x64, .f32⟩
  | 93 => ⟨S1x64, .f32⟩
  | 94 => ⟨S30000x64, .f32⟩
  | 95 => ⟨S30000x64, .f32⟩
  | 96 => ⟨S30000x64, .f32⟩
  | 97 => ⟨S30000x64, .f32⟩
  | 98 => ⟨S1x1000000, .i32⟩
  | 99 => ⟨S1000000, .i32⟩
  | 100 => ⟨S1x1000000, .i32⟩
  | 101 => ⟨S1000000, .i32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .f32⟩
  | 111 => ⟨S_, .f32⟩
  | 112 => ⟨S5000x128, .f32⟩
  | 113 => ⟨S1000000x1, .i32⟩
  | 114 => ⟨S5000x128, .f32⟩
  | 115 => ⟨S_, .f32⟩
  | 116 => ⟨S1000000, .f32⟩
  | 117 => ⟨S_, .f32⟩
  | 118 => ⟨S5000, .f32⟩
  | 119 => ⟨S1000000x1, .i32⟩
  | 120 => ⟨S5000, .f32⟩
  | 121 => ⟨S_, .f32⟩
  | 122 => ⟨S5000, .f32⟩
  | 123 => ⟨S5000, .f32⟩
  | 124 => ⟨S5000x1, .f32⟩
  | 125 => ⟨S5000x128, .f32⟩
  | 126 => ⟨S5000x128, .f32⟩
  | 127 => ⟨S5000x64, .f32⟩
  | _ => ⟨S5000x64, .f32⟩

abbrev hbmTy0_1 (i : Nat) : BufTy := match i % 128 with
  | 0 => ⟨S1x64, .f32⟩
  | 1 => ⟨S5000x64, .f32⟩
  | 2 => ⟨S5000x64, .f32⟩
  | 3 => ⟨S5000x64, .f32⟩
  | 4 => ⟨S5000x64, .f32⟩
  | 5 => ⟨S1x1000000, .i32⟩
  | 6 => ⟨S1000000, .i32⟩
  | 7 => ⟨S1x1000000, .i32⟩
  | 8 => ⟨S1000000, .i32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x64, .f32⟩
  | 18 => ⟨S_, .f32⟩
  | 19 => ⟨S5000x64, .f32⟩
  | 20 => ⟨S1000000x1, .i32⟩
  | 21 => ⟨S5000x64, .f32⟩
  | 22 => ⟨S_, .f32⟩
  | 23 => ⟨S1000000, .f32⟩
  | 24 => ⟨S_, .f32⟩
  | 25 => ⟨S5000, .f32⟩
  | 26 => ⟨S1000000x1, .i32⟩
  | 27 => ⟨S5000, .f32⟩
  | 28 => ⟨S_, .f32⟩
  | 29 => ⟨S5000, .f32⟩
  | 30 => ⟨S5000, .f32⟩
  | 31 => ⟨S5000x1, .f32⟩
  | 32 => ⟨S5000x64, .f32⟩
  | 33 => ⟨S5000x64, .f32⟩
  | 34 => ⟨S5000x64, .f32⟩
  | 35 => ⟨S1x64, .f32⟩
  | 36 => ⟨S5000x64, .f32⟩
  | 37 => ⟨S5000x64, .f32⟩
  | 38 => ⟨S5000x64, .f32⟩
  | 39 => ⟨S5000x64, .f32⟩
  | 40 => ⟨S5000x64, .f32⟩
  | 41 => ⟨S1x1000000, .i32⟩
  | 42 => ⟨S1000000, .i32⟩
  | 43 => ⟨S1x1000000, .i32⟩
  | 44 => ⟨S1000000, .i32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S_, .f32⟩
  | 55 => ⟨S5000x64, .f32⟩
  | 56 => ⟨S1000000x1, .i32⟩
  | 57 => ⟨S5000x64, .f32⟩
  | 58 => ⟨S_, .f32⟩
  | 59 => ⟨S1000000, .f32⟩
  | 60 => ⟨S_, .f32⟩
  | 61 => ⟨S5000, .f32⟩
  | 62 => ⟨S1000000x1, .i32⟩
  | 63 => ⟨S5000, .f32⟩
  | 64 => ⟨S_, .f32⟩
  | 65 => ⟨S5000, .f32⟩
  | 66 => ⟨S5000, .f32⟩
  | 67 => ⟨S5000x1, .f32⟩
  | 68 => ⟨S5000x64, .f32⟩
  | 69 => ⟨S5000x64, .f32⟩
  | 70 => ⟨S5000x64, .f32⟩
  | 71 => ⟨S1x64, .f32⟩
  | 72 => ⟨S5000x64, .f32⟩
  | 73 => ⟨S5000x64, .f32⟩
  | 74 => ⟨S5000x64, .f32⟩
  | 75 => ⟨S5000x64, .f32⟩
  | 76 => ⟨S5000x64, .f32⟩
  | 77 => ⟨S1x1000000, .i32⟩
  | 78 => ⟨S1000000, .i32⟩
  | 79 => ⟨S1x1000000, .i32⟩
  | 80 => ⟨S1000000, .i32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x64, .f32⟩
  | 90 => ⟨S_, .f32⟩
  | 91 => ⟨S100000x64, .f32⟩
  | 92 => ⟨S1000000x1, .i32⟩
  | 93 => ⟨S100000x64, .f32⟩
  | 94 => ⟨S_, .f32⟩
  | 95 => ⟨S1000000, .f32⟩
  | 96 => ⟨S_, .f32⟩
  | 97 => ⟨S100000, .f32⟩
  | 98 => ⟨S1000000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S100000x64, .f32⟩
  | 111 => ⟨S100000x64, .f32⟩
  | _ => ⟨S5000x64, .f32⟩

abbrev hbmTy (i : Nat) : BufTy := match i / 128 with
  | 0 => hbmTy0_0 i
  | 1 => hbmTy0_1 i
  | _ => ⟨S5000x64, .f32⟩

abbrev bufTy : (tb : Table) → Fin (tcTables nBuf tb) → BufTy
  | .hbm, ⟨i, _⟩ => hbmTy i
  | _, _ => ⟨S5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_cst_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_4 : Ref sig .tc := ⟨.hbm, 67, rfl⟩
abbrev main_v33 : Ref sig .tc := ⟨.hbm, 68, rfl⟩
abbrev main_v34 : Ref sig .tc := ⟨.hbm, 69, rfl⟩
abbrev main_c_5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_7 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_10 : Ref sig .tc := ⟨.hbm, 102, rfl⟩
abbrev main_v62 : Ref sig .tc := ⟨.hbm, 103, rfl⟩
abbrev main_v63 : Ref sig .tc := ⟨.hbm, 104, rfl⟩
abbrev main_c_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_12 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_13 : Ref sig .tc := ⟨.hbm, 115, rfl⟩
abbrev main_v72 : Ref sig .tc := ⟨.hbm, 116, rfl⟩
abbrev main_cst_14 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_15 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_16 : Ref sig .tc := ⟨.hbm, 137, rfl⟩
abbrev main_v91 : Ref sig .tc := ⟨.hbm, 138, rfl⟩
abbrev main_v92 : Ref sig .tc := ⟨.hbm, 139, rfl⟩
abbrev main_c_17 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_18 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_19 : Ref sig .tc := ⟨.hbm, 150, rfl⟩
abbrev main_v101 : Ref sig .tc := ⟨.hbm, 151, rfl⟩
abbrev main_cst_20 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_21 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_22 : Ref sig .tc := ⟨.hbm, 173, rfl⟩
abbrev main_v121 : Ref sig .tc := ⟨.hbm, 174, rfl⟩
abbrev main_v122 : Ref sig .tc := ⟨.hbm, 175, rfl⟩
abbrev main_c_23 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_24 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_25 : Ref sig .tc := ⟨.hbm, 186, rfl⟩
abbrev main_v131 : Ref sig .tc := ⟨.hbm, 187, rfl⟩
abbrev main_cst_26 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_27 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_c_28 : Ref sig .tc := ⟨.hbm, 209, rfl⟩
abbrev main_v151 : Ref sig .tc := ⟨.hbm, 210, rfl⟩
abbrev main_v152 : Ref sig .tc := ⟨.hbm, 211, rfl⟩
abbrev main_c_29 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_30 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_cst_31 : Ref sig .tc := ⟨.hbm, 222, rfl⟩
abbrev main_v161 : Ref sig .tc := ⟨.hbm, 223, rfl⟩
abbrev main_cst_32 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_33 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S30000x64 : S_.BroadcastsInDim S30000x64 (![] : Fin 0 → Fin S30000x64.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x64_0_1 : S30000x1.BroadcastsInDim S30000x64 (![0, 1] : Fin 2 → Fin S30000x64.rank)
  bcast_S1x64_S30000x64_0_1 : S1x64.BroadcastsInDim S30000x64 (![0, 1] : Fin 2 → Fin S30000x64.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x64_S5000x64_0_1 : S1x64.BroadcastsInDim S5000x64 (![0, 1] : Fin 2 → Fin S5000x64.rank)
  bcast_S_S5000x64 : S_.BroadcastsInDim S5000x64 (![] : Fin 0 → Fin S5000x64.rank)
  bcast_S5000x1_S5000x64_0_1 : S5000x1.BroadcastsInDim S5000x64 (![0, 1] : Fin 2 → Fin S5000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  gather_S5000x64_S1000000x1_S1000000x64_1_0_n_n_0_1_164_wf : GatherDims.WF S5000x64 S1000000x1 S1000000x64 [1] [0] [] [0] [] 1 ![1, 64]
  scatter_S20000x64_S1000000x1_S1000000x64_1_0_0_1_wf : ScatterDims.WF S20000x64 S1000000x1 S1000000x64 [1] [0] [0] 1
  scatter_S20000_S1000000x1_S1000000_n_0_0_1_wf : ScatterDims.WF S20000 S1000000x1 S1000000 [] [0] [0] 1
  dot_S20000x64_S64x64_S20000x64_1_0_0_1_n_n_wf : DotDims.WF S20000x64 S64x64 S20000x64 [1] [0] [0] [1] [] []
  scatter_S30000x64_S1000000x1_S1000000x64_1_0_0_1_wf : ScatterDims.WF S30000x64 S1000000x1 S1000000x64 [1] [0] [0] 1
  scatter_S30000_S1000000x1_S1000000_n_0_0_1_wf : ScatterDims.WF S30000 S1000000x1 S1000000 [] [0] [0] 1
  dot_S30000x64_S64x64_S30000x64_1_0_0_1_n_n_wf : DotDims.WF S30000x64 S64x64 S30000x64 [1] [0] [0] [1] [] []
  gather_S100000x128_S1000000x1_S1000000x128_1_0_n_n_0_1_1128_wf : GatherDims.WF S100000x128 S1000000x1 S1000000x128 [1] [0] [] [0] [] 1 ![1, 128]
  scatter_S5000x128_S1000000x1_S1000000x128_1_0_0_1_wf : ScatterDims.WF S5000x128 S1000000x1 S1000000x128 [1] [0] [0] 1
  scatter_S5000_S1000000x1_S1000000_n_0_0_1_wf : ScatterDims.WF S5000 S1000000x1 S1000000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S30000x64_S1000000x1_S1000000x64_1_0_n_n_0_1_164_wf : GatherDims.WF S30000x64 S1000000x1 S1000000x64 [1] [0] [] [0] [] 1 ![1, 64]
  scatter_S5000x64_S1000000x1_S1000000x64_1_0_0_1_wf : ScatterDims.WF S5000x64 S1000000x1 S1000000x64 [1] [0] [0] 1
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x128_S128x64_S100000x64_1_0_0_1_n_n_wf : DotDims.WF S100000x128 S128x64 S100000x64 [1] [0] [0] [1] [] []

variable [Facts₀]

def gather_S5000x64_S1000000x1_S1000000x64_1_0_n_n_0_1_164 : GatherDims S5000x64 S1000000x1 S1000000x64 where
  offsetDims := [1]
  collapsedSliceDims := [0]
  operandBatchingDims := []
  startIndicesBatchingDims := []
  startIndexMap := [0]
  indexVectorDim := 1
  sliceSizes := ![1, 64]
  wf := gather_S5000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def scatter_S30000_S1000000x1_S1000000_n_0_0_1 : ScatterDims S30000 S1000000x1 S1000000 where
  updateWindowDims := []
  insertedWindowDims := [0]
  scatterDimsToOperandDims := [0]
  indexVectorDim := 1
  wf := scatter_S30000_S1000000x1_S1000000_n_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S5000x128_S1000000x1_S1000000x128_1_0_0_1 : ScatterDims S5000x128 S1000000x1 S1000000x128 where
  updateWindowDims := [1]
  insertedWindowDims := [0]
  scatterDimsToOperandDims := [0]
  indexVectorDim := 1
  wf := scatter_S5000x128_S1000000x1_S1000000x128_1_0_0_1_wf
def scatter_S5000_S1000000x1_S1000000_n_0_0_1 : ScatterDims S5000 S1000000x1 S1000000 where
  updateWindowDims := []
  insertedWindowDims := [0]
  scatterDimsToOperandDims := [0]
  indexVectorDim := 1
  wf := scatter_S5000_S1000000x1_S1000000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S30000x64_S1000000x1_S1000000x64_1_0_n_n_0_1_164 : GatherDims S30000x64 S1000000x1 S1000000x64 where
  offsetDims := [1]
  collapsedSliceDims := [0]
  operandBatchingDims := []
  startIndicesBatchingDims := []
  startIndexMap := [0]
  indexVectorDim := 1
  sliceSizes := ![1, 64]
  wf := gather_S30000x64_S1000000x1_S1000000x64_1_0_n_n_0_1_164_wf
def scatter_S5000x64_S1000000x1_S1000000x64_1_0_0_1 : ScatterDims S5000x64 S1000000x1 S1000000x64 where
  updateWindowDims := [1]
  insertedWindowDims := [0]
  scatterDimsToOperandDims := [0]
  indexVectorDim := 1
  wf := scatter_S5000x64_S1000000x1_S1000000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The run of the idealized kernel program with its four result arrays kept.

  The program is four tiled regions among stretches of host operations. Its generated frame certificate follows the
  contents of every buffer from the launch through each stretch and each region, ending at the valuation Gen.W8,
  and then keeps only the argument arrays. Here the same run is stated with every unscoped buffer read against Gen.W8
  in the final state, so that the result arrays can be read off it.
-/
import proofs.«137150_j26774826123587_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every buffer that
    outlives the regions holds what the fold through the stretches and regions leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- A reference that is not scoped to a region is among the buffers the run accounts for. -/
theorem mem_ucRefs (b : Ref sig .tc) (h : ¬ (Proc.devRef .tc b : DevRef τ sig).isScoped) :
    Proc.devRef .tc b ∈ Pipeline.ucRefs τ sig := mem_uc b h

end Cert.KernelIdeal.Whole

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«137150_j26774826123587_1_alg».proof.Proof.LibPlainMatmul
import proofs.«137150_j26774826123587_1_alg».proof.Proof.LibHostReads
import proofs.«137150_j26774826123587_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«137150_j26774826123587_1_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibSageStages.lean ====
/-
  The two dense stages of a heterogeneous graph layer, as whole-array functions, and what a block of rows computes.

  A destination node type with one incoming edge type gets, row by row,
      out = mean · Wl + x · Wr + b
  (mean: the neighbour mean of the row's node, x: the node's own features, b one bias row). The node type with three
  incoming edge types gets the sum of three such terms; the program forms it as
      out = mean₁ · W₁ + mean₂ · W₂ + mean₃ · W₃ + x · R + b
  with R and b already summed over the three edge types.

  The program computes either expression on a block of TM rows picked out of the M rows of the tables (the weights
  and the bias row are read whole), on the matrix unit with operands narrowed to a 16-bit format, which changes
  nothing on the extended reals. The lemmas here say that the block's result is the same picked rows of the
  expression on the whole tables. The last lemma compares the one-edge-type stage with the order in which a plain
  array program adds the same three terms: (mean · Wl + b) + x · Wr. Only commutativity and associativity of the
  sum are used, so it holds for every extended real, infinite ones included.
-/
import Idealize.ShloMosaic.PureOps.Ideal.Laws
import Idealize.ShloMosaic.Lib.Pipeline.Value
import Idealize.ShloMosaic.Lib.ValueIdx
import Idealize.ShloMosaic.Lib.ValueLayout
import proofs.«137150_j26774826123587_1_alg».proof.Proof.LibBlockRows
import proofs.«137150_j26774826123587_1_alg».proof.Proof.LibRowLayers

noncomputable section

namespace Cert.SageLayers

open Idealize.ShloMosaic Idealize.ShloMosaic.ValueIdx Cert.BlockRows Cert.RowLayers

variable {TM M K1 K2 K3 K N : Nat}

/-- One incoming edge type: (A · Wl + X · Wr) + the bias row laid down all M rows. -/
def single (h2 : (⟨2, ![1, N]⟩ : Shape).BroadcastsInDim ⟨2, ![M, N]⟩ ![0, 1])
    (A : FVec Ideal ⟨2, ![M, K1]⟩ .f32) (X : FVec Ideal ⟨2, ![M, K2]⟩ .f32)
    (Wl : FVec Ideal ⟨2, ![K1, N]⟩ .f32) (Wr : FVec Ideal ⟨2, ![K2, N]⟩ .f32) (B : FVec Ideal ⟨2, ![1, N]⟩ .f32) :
    FVec Ideal ⟨2, ![M, N]⟩ .f32 :=
  addf (addf (propagate A Wl) (propagate X Wr)) (rowBias h2 B)

/-- Three incoming edge types: (((A₁ · W₁ + A₂ · W₂) + A₃ · W₃) + X · R) + the bias row laid down all M rows. -/
def triple (h2 : (⟨2, ![1, N]⟩ : Shape).BroadcastsInDim ⟨2, ![M, N]⟩ ![0, 1])
    (A1 : FVec Ideal ⟨2, ![M, K1]⟩ .f32) (A2 : FVec Ideal ⟨2, ![M, K2]⟩ .f32) (A3 : FVec Ideal ⟨2, ![M, K3]⟩ .f32)
    (X : FVec Ideal ⟨2, ![M, K]⟩ .f32)
    (W1 : FVec Ideal ⟨2, ![K1, N]⟩ .f32) (W2 : FVec Ideal ⟨2, ![K2, N]⟩ .f32) (W3 : FVec Ideal ⟨2, ![K3, N]⟩ .f32)
    (R : FVec Ideal ⟨2, ![K, N]⟩ .f32) (B : FVec Ideal ⟨2, ![1, N]⟩ .f32) : FVec Ideal ⟨2, ![M, N]⟩ .f32 :=
  addf (addf (addf (addf (propagate A1 W1) (propagate A2 W2)) (propagate A3 W3)) (propagate X R)) (rowBias h2 B)

/-- A block of the one-edge-type stage: with a the picked rows of A, x the picked rows of X, and the weights and
    the bias row read whole, the matrix unit's two products into zeros, their sum and the bias row broadcast down
    the block are the picked rows of the stage on the whole tables. -/
theorem single_rows (ρ : Fin TM → Fin M) (hlt : FTy.bf16.bits < FTy.f32.bits)
    (hsA : (⟨2, ![TM, K1]⟩ : Shape).ShapeCasts ⟨2, ![TM, K1]⟩)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (A : FVec Ideal ⟨2, ![M, K1]⟩ .f32) (X : FVec Ideal ⟨2, ![M, K2]⟩ .f32)
    (Wl : FVec Ideal ⟨2, ![K1, N]⟩ .f32) (Wr : FVec Ideal ⟨2, ![K2, N]⟩ .f32) (B : FVec Ideal ⟨2, ![1, N]⟩ .f32)
    (a : FVec Ideal ⟨2, ![TM, K1]⟩ .f32) (x : FVec Ideal ⟨2, ![TM, K2]⟩ .f32)
    (wl : FVec Ideal ⟨2, ![K1, N]⟩ .f32) (wr : FVec Ideal ⟨2, ![K2, N]⟩ .f32) (b : FVec Ideal ⟨2, ![1, N]⟩ .f32)
    (ha : a = rowsOf ρ A) (hx : x = rowsOf ρ X) (hwl : wl = Wl) (hwr : wr = Wr) (hbB : b = B) :
    addf (addf (matmul (DotDims.plain TM K1 N) none (truncf .bf16 (shapeCast ⟨2, ![TM, K1]⟩ a hsA) hlt) (truncf .bf16 wl hlt)
                  (constant ⟨2, ![TM, N]⟩ .f32 0x00000000#32))
               (matmul (DotDims.plain TM K2 N) none (truncf .bf16 x hlt) (truncf .bf16 wr hlt)
                  (constant ⟨2, ![TM, N]⟩ .f32 0x00000000#32)))
         (broadcastTo ⟨2, ![TM, N]⟩ (shapeCast ⟨2, ![1, N]⟩ b hs) hb)
      = rowsOf ρ (single h2 A X Wl Wr B) := by
  subst hbB
  exact addBias_of_rows ρ _ _ (addf_of_rows ρ _ _ _ _
    (matmul_of_rows ρ _ _ A Wl (trunc_of_rows ρ hlt _ A (cast_of_rows ρ a A ha hsA)) (trunc_whole hlt wl Wl hwl))
    (matmul_of_rows ρ _ _ X Wr (trunc_of_rows ρ hlt x X hx) (trunc_whole hlt wr Wr hwr))) b hs hb h2

/-- A block of the three-edge-type stage, in the order the program forms it. -/
theorem triple_rows (ρ : Fin TM → Fin M) (hlt : FTy.bf16.bits < FTy.f32.bits)
    (hs1 : (⟨2, ![TM, K1]⟩ : Shape).ShapeCasts ⟨2, ![TM, K1]⟩) (hs2 : (⟨2, ![TM, K2]⟩ : Shape).ShapeCasts ⟨2, ![TM, K2]⟩)
    (hs3 : (⟨2, ![TM, K3]⟩ : Shape).ShapeCasts ⟨2, ![TM, K3]⟩) (hsR : (⟨2, ![K, N]⟩ : Shape).ShapeCasts ⟨2, ![K, N]⟩)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (A1 : FVec Ideal ⟨2, ![M, K1]⟩ .f32) (A2 : FVec Ideal ⟨2, ![M, K2]⟩ .f32) (A3 : FVec Ideal ⟨2, ![M, K3]⟩ .f32)
    (X : FVec Ideal ⟨2, ![M, K]⟩ .f32)
    (W1 : FVec Ideal ⟨2, ![K1, N]⟩ .f32) (W2 : FVec Ideal ⟨2, ![K2, N]⟩ .f32) (W3 : FVec Ideal ⟨2, ![K3, N]⟩ .f32)
    (R : FVec Ideal ⟨2, ![K, N]⟩ .f32) (B : FVec Ideal ⟨2, ![1, N]⟩ .f32)
    (a1 : FVec Ideal ⟨2, ![TM, K1]⟩ .f32) (a2 : FVec Ideal ⟨2, ![TM, K2]⟩ .f32) (a3 : FVec Ideal ⟨2, ![TM, K3]⟩ .f32)
    (x : FVec Ideal ⟨2, ![TM, K]⟩ .f32)
    (w1 : FVec Ideal ⟨2, ![K1, N]⟩ .f32) (w2 : FVec Ideal ⟨2, ![K2, N]⟩ .f32) (w3 : FVec Ideal ⟨2, ![K3, N]⟩ .f32)
    (r : FVec Ideal ⟨2, ![K, N]⟩ .f32) (b : FVec Ideal ⟨2, ![1, N]⟩ .f32)
    (h1 : a1 = rowsOf ρ A1) (h2' : a2 = rowsOf ρ A2) (h3 : a3 = rowsOf ρ A3) (hx : x = rowsOf ρ X)
    (hw1 : w1 = W1) (hw2 : w2 = W2) (hw3 : w3 = W3) (hr : r = R) (hbB : b = B) :
    addf (addf (addf (addf
        (matmul (DotDims.plain TM K1 N) none (truncf .bf16 (shapeCast ⟨2, ![TM, K1]⟩ a1 hs1) hlt) (truncf .bf16 w1 hlt)
          (constant ⟨2, ![TM, N]⟩ .f32 0x00000000#32))
        (matmul (DotDims.plain TM K2 N) none (truncf .bf16 (shapeCast ⟨2, ![TM, K2]⟩ a2 hs2) hlt) (truncf .bf16 w2 hlt)
          (constant ⟨2, ![TM, N]⟩ .f32 0x00000000#32)))
        (matmul (DotDims.plain TM K3 N) none (truncf .bf16 (shapeCast ⟨2, ![TM, K3]⟩ a3 hs3) hlt) (truncf .bf16 w3 hlt)
          (constant ⟨2, ![TM, N]⟩ .f32 0x00000000#32)))
        (matmul (DotDims.plain TM K N) none (truncf .bf16 x hlt) (truncf .bf16 (shapeCast ⟨2, ![K, N]⟩ r hsR) hlt)
          (constant ⟨2, ![TM, N]⟩ .f32 0x00000000#32)))
      (broadcastTo ⟨2, ![TM, N]⟩ (shapeCast ⟨2, ![1, N]⟩ b hs) hb)
      = rowsOf ρ (triple h2 A1 A2 A3 X W1 W2 W3 R B) := by
  subst hbB
  have hrR : (truncf .bf16 (shapeCast ⟨2, ![K, N]⟩ r hsR) hlt : (⟨2, ![K, N]⟩ : Shape).Idx → EReal) = R := by
    refine trunc_whole hlt _ R ?_
    rw [shapeCast_self]; exact hr
  exact addBias_of_rows ρ _ _ (addf_of_rows ρ _ _ _ _ (addf_of_rows ρ _ _ _ _ (addf_of_rows ρ _ _ _ _
    (matmul_of_rows ρ _ _ A1 W1 (trunc_of_rows ρ hlt _ A1 (cast_of_rows ρ a1 A1 h1 hs1)) (trunc_whole hlt w1 W1 hw1))
    (matmul_of_rows ρ _ _ A2 W2 (trunc_of_rows ρ hlt _ A2 (cast_of_rows ρ a2 A2 h2' hs2)) (trunc_whole hlt w2 W2 hw2)))
    (matmul_of_rows ρ _ _ A3 W3 (trunc_of_rows ρ hlt _ A3 (cast_of_rows ρ a3 A3 h3 hs3)) (trunc_whole hlt w3 W3 hw3)))
    (matmul_of_rows ρ _ _ X R (trunc_of_rows ρ hlt x X hx) hrR)) b hs hb h2

/-- The one-edge-type stage with its bias given as a vector reshaped to one row equals the plain array program's
    (A · Wl + bias matrix) + X · Wr, the bias matrix laid out from the vector by two broadcasts. -/
theorem single_eq_plain (h2 : (⟨2, ![1, N]⟩ : Shape).BroadcastsInDim ⟨2, ![M, N]⟩ ![0, 1])
    (hs : (⟨1, ![N]⟩ : Shape).ShapeCasts ⟨2, ![1, N]⟩) (h1 : (⟨1, ![N]⟩ : Shape).BroadcastsInDim ⟨2, ![1, N]⟩ ![1])
    (A : FVec Ideal ⟨2, ![M, K1]⟩ .f32) (X : FVec Ideal ⟨2, ![M, K2]⟩ .f32)
    (Wl : FVec Ideal ⟨2, ![K1, N]⟩ .f32) (Wr : FVec Ideal ⟨2, ![K2, N]⟩ .f32) (v : FVec Ideal ⟨1, ![N]⟩ .f32) :
    single h2 A X Wl Wr (shapeCast ⟨2, ![1, N]⟩ v hs)
      = addf (addf (propagate A Wl) (broadcastInDim ⟨2, ![M, N]⟩ ![0, 1] h2 (broadcastInDim ⟨2, ![1, N]⟩ ![1] h1 v)))
          (propagate X Wr) := by
  unfold single rowBias
  rw [reshape_row v hs h1]
  funext i
  show (_ + _) + _ = (_ + _) + _
  exact add_right_comm _ _ _

end Cert.SageLayers

end
-- ==== Proof.Region0.lean ====
/-
  Region 0 of the program: the dense stage for the institution nodes, one incoming edge type.

  The grid has 20 points. Point t stages rows 1000·t … 1000·t + 999 of the neighbour-mean table and of the node
  features, the two weight tables and the bias row whole, and writes back the same rows of the output. The body's
  stored value is therefore the picked rows of the whole-array stage (Cert.SageLayers.single) of the five arrays as
  the region finds them; the 20 row blocks tile the output, so after the region the output array is that stage.
-/
import proofs.«137150_j26774826123587_1_alg».proof.Proof.Gen.KernelIdeal.Frame
import proofs.«137150_j26774826123587_1_alg».proof.Proof.LibSageStages

set_option maxRecDepth 16384

noncomputable section

namespace Cert.KernelIdeal.Whole

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)
open Cert.BlockRows Cert.RowLayers Cert.SageLayers

variable (V : (c : Dev nD) → (b : Ref sig .tc) → Buf (Elt Ideal) ((c : Thread nD τ).loc b))

theorem zeros0 : (![0, 0] : Fin 2 → Nat) = fun _ => 0 := funext fun a => by fin_cases a <;> rfl

/-- The bias row laid down all 20000 rows: the broadcast the whole-array stage uses. -/
theorem lay0 : (⟨2, ![1, 64]⟩ : Shape).BroadcastsInDim ⟨2, ![20000, 64]⟩ ![0, 1] := by decide

/-- The rows point t works on. -/
def rows0 (t : Fin cfg0.N) : Fin 1000 → Fin 20000 := blockRow 1000 20 20000 (by decide) (t.cast N_0)

/-- The whole-array stage of the region's five input arrays as it finds them. -/
def stage0 (c : Dev nD) : FVec Ideal S20000x64 .f32 :=
  single lay0 (V c (Pipeline.arrRef spec0 0) : FVec Ideal S20000x64 .f32) (V c (Pipeline.arrRef spec0 1) : FVec Ideal S20000x64 .f32)
    (V c (Pipeline.arrRef spec0 2) : FVec Ideal S64x64 .f32) (V c (Pipeline.arrRef spec0 3) : FVec Ideal S64x64 .f32)
    (V c (Pipeline.arrRef spec0 4) : FVec Ideal S1x64 .f32)

/-- The printed index maps over the grid: the row-tiled windows sit at block (t, 0), the whole-array windows at (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-mean block at point t is the point's rows of the table. -/
theorem blk0_0 (c : Dev nD) (t : Fin cfg0.N) :
    (iblk0 V c 0 t : Vec Ideal S1000x64 .f32) = rowsOf (rows0 t) (V c (Pipeline.arrRef spec0 0) : FVec Ideal S20000x64 .f32) := by
  funext y
  obtain ⟨p, q, rfl⟩ : ∃ (p : Fin 1000) (q : Fin 64), y = ix2 p q := ⟨y 0, y 1, eq_ix2 y⟩
  rw [rowsOf_apply]
  show V c (Pipeline.arrRef spec0 0) (((cfg0.win 0).blk t).view.emb (ix2 p q)) = _
  refine congrArg (V c (Pipeline.arrRef spec0 0)) ?_
  obtain ⟨e0, e1, -⟩ := idx0 t
  funext a; apply Fin.ext
  match a with
  | ⟨0, _⟩ => show win0_0.index t (0 : Fin 2) * 1000 + 1 * p.val = 1000 * t.val + p.val; omega
  | ⟨1, _⟩ => show win0_0.index t (1 : Fin 2) * 64 + 1 * q.val = q.val; omega

/-- The feature block at point t is the point's rows of the node features. -/
theorem blk0_1 (c : Dev nD) (t : Fin cfg0.N) :
    (iblk0 V c 1 t : Vec Ideal S1000x64 .f32) = rowsOf (rows0 t) (V c (Pipeline.arrRef spec0 1) : FVec Ideal S20000x64 .f32) := by
  funext y
  obtain ⟨p, q, rfl⟩ : ∃ (p : Fin 1000) (q : Fin 64), y = ix2 p q := ⟨y 0, y 1, eq_ix2 y⟩
  rw [rowsOf_apply]
  show V c (Pipeline.arrRef spec0 1) (((cfg0.win 1).blk t).view.emb (ix2 p q)) = _
  refine congrArg (V c (Pipeline.arrRef spec0 1)) ?_
  obtain ⟨-, -, e0, e1, -⟩ := idx0 t
  funext a; apply Fin.ext
  match a with
  | ⟨0, _⟩ => show win0_1.index t (0 : Fin 2) * 1000 + 1 * p.val = 1000 * t.val + p.val; omega
  | ⟨1, _⟩ => show win0_1.index t (1 : Fin 2) * 64 + 1 * q.val = q.val; omega

/-- The first weight table is staged whole. -/
theorem blk0_2 (c : Dev nD) (t : Fin cfg0.N) :
    (iblk0 V c 2 t : Vec Ideal S64x64 .f32) = (V c (Pipeline.arrRef spec0 2) : FVec Ideal S64x64 .f32) := by
  funext y
  show V c (Pipeline.arrRef spec0 2) (((cfg0.win 2).blk t).view.emb y) = _
  refine congrArg (V c (Pipeline.arrRef spec0 2)) ?_
  obtain ⟨-, -, -, -, e0, e1, -⟩ := idx0 t
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The second weight table is staged whole. -/
theorem blk0_3 (c : Dev nD) (t : Fin cfg0.N) :
    (iblk0 V c 3 t : Vec Ideal S64x64 .f32) = (V c (Pipeline.arrRef spec0 3) : FVec Ideal S64x64 .f32) := by
  funext y
  show V c (Pipeline.arrRef spec0 3) (((cfg0.win 3).blk t).view.emb y) = _
  refine congrArg (V c (Pipeline.arrRef spec0 3)) ?_
  obtain ⟨-, -, -, -, -, -, e0, e1, -⟩ := idx0 t
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The bias row is staged whole. -/
theorem blk0_4 (c : Dev nD) (t : Fin cfg0.N) :
    (iblk0 V c 4 t : Vec Ideal S1x64 .f32) = (V c (Pipeline.arrRef spec0 4) : FVec Ideal S1x64 .f32) := by
  funext y
  show V c (Pipeline.arrRef spec0 4) (((cfg0.win 4).blk t).view.emb y) = _
  refine congrArg (V c (Pipeline.arrRef spec0 4)) ?_
  obtain ⟨-, -, -, -, -, -, -, -, e0, e1, -⟩ := idx0 t
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The body's stored value on blocks that are picked rows (and whole weights) is the picked rows of the stage. -/
theorem pay0_rows (ρ : Fin 1000 → Fin 20000)
    (A : FVec Ideal S20000x64 .f32) (X : FVec Ideal S20000x64 .f32) (Wl : FVec Ideal S64x64 .f32) (Wr : FVec Ideal S64x64 .f32)
    (B : FVec Ideal S1x64 .f32)
    (a : Vec Ideal S1000x64 .f32) (x : Vec Ideal S1000x64 .f32) (wl : Vec Ideal S64x64 .f32) (wr : Vec Ideal S64x64 .f32)
    (b : Vec Ideal S1x64 .f32)
    (ha : a = rowsOf ρ A) (hx : x = rowsOf ρ X) (hwl : wl = Wl) (hwr : wr = Wr) (hb : b = B) :
    k0_pay1 (F := Ideal) a x wl wr b = rowsOf ρ (single lay0 A X Wl Wr B) := by
  unfold k0_pay1
  exact single_rows ρ Facts₀.bitsLt_bf16_f32 Facts₀.shapeCasts_S1000x64_S1000x64 Facts₀.shapeCasts_S1x64_S1x64 Facts₀.broadcasts_S1x64_S1000x64 lay0
    A X Wl Wr B a x wl wr b ha hx hwl hwr hb

/-- What point t writes back is block t of the whole-array stage. -/
theorem flushed0 (c : Dev nD) (t : Fin cfg0.N) :
    (dat0 V c).flushed 5 t = ((cfg0.win 5).blk t).view.read (Elt Ideal) (stage0 V c) := by
  show (cfg0.win 5).cut (grid0.coords t) ((dat0 V c).after 5 t) = _
  rw [after0_5]
  unfold out0_5
  rw [View.canon_unit_zero zeros0]
  simp only [View.ld_unit_zero (S := S1000x64) zeros0, View.ld_unit_zero (S := S1000x64) zeros0,
    View.ld_unit_zero (S := S64x64) zeros0, View.ld_unit_zero (S := S64x64) zeros0, View.ld_unit_zero (S := S1x64) zeros0]
  rw [pay0_rows (rows0 t) _ _ _ _ _ _ _ _ _ _ (blk0_0 V c t) (blk0_1 V c t) (blk0_2 V c t) (blk0_3 V c t) (blk0_4 V c t)]
  funext j
  obtain ⟨p, q, rfl⟩ : ∃ (p : Fin 1000) (q : Fin 64), j = ix2 p q := ⟨j 0, j 1, eq_ix2 j⟩
  show rowsOf (rows0 t) (stage0 V c) (ix2 p q) = stage0 V c (((cfg0.win 5).blk t).view.emb (ix2 p q))
  rw [rowsOf_apply]
  refine congrArg (stage0 V c) ?_
  obtain ⟨-, -, -, -, -, -, -, -, -, -, e0, e1⟩ := idx0 t
  funext a; apply Fin.ext
  match a with
  | ⟨0, _⟩ => show 1000 * t.val + p.val = win0_5.index t (0 : Fin 2) * 1000 + 1 * p.val; omega
  | ⟨1, _⟩ => show q.val = win0_5.index t (1 : Fin 2) * 64 + 1 * q.val; omega

/-- An index of the output array lies in point t's block iff each coordinate is in the block's range. -/
theorem mem_blk0 (t : Fin cfg0.N) (i : S20000x64.Idx) :
    i ∈ ((cfg0.win 5).blk t).view.set ↔ ∀ a : Fin 2, win0_5.index t a * S1000x64.size a ≤ (i a).val
      ∧ (i a).val < win0_5.index t a * S1000x64.size a + S1000x64.size a := by
  show i ∈ ((View.whole main_v24).slice (win0_5.rect t)).set ↔ _
  rw [View.set_slice_whole, Rect.mem_set_unit]
  exact Iff.rfl

/-- Every row of the output lies in the block of the point numbered row / 1000. -/
theorem cover0 (i : S20000x64.Idx) : ∃ t : Fin cfg0.N, (cfg0.win 5).flush t = true ∧ i ∈ ((cfg0.win 5).blk t).view.set := by
  have hi0 : (i 0).val < 20000 := (i 0).isLt
  have hi1 : (i 1).val < 64 := (i 1).isLt
  let t : Fin cfg0.N := (⟨(i 0).val / 1000, by omega⟩ : Fin 20).cast N_0.symm
  have ht : t.val = (i 0).val / 1000 := rfl
  refine ⟨t, flush0_5 t, ?_⟩
  rw [mem_blk0]
  obtain ⟨-, -, -, -, -, -, -, -, -, -, e0, e1⟩ := idx0 t
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 64 ≤ (i 1).val ∧ (i 1).val < win0_5.index t (1 : Fin 2) * 64 + 64; omega

/-- After the region its output array is the whole-array stage of the input arrays as the region found them. -/
theorem final0 (c : Dev nD) : (dat0 V c).arrAt 5 cfg0.N = stage0 V c :=
  (dat0 V c).arrAt_eq_of_cover 5 (stage0 V c) (fun t _ => flushed0 V c t) (cover0)

end Cert.KernelIdeal.Whole

end
-- ==== Proof.Region1.lean ====
/-
  Region 1 of the program: the dense stage for the mutual-fund nodes, one incoming edge type.

  The grid has 30 points. Point t stages rows 1000·t … 1000·t + 999 of the neighbour-mean table and of the node
  features, the two weight tables and the bias row whole, and writes back the same rows of the output. The body's
  stored value is therefore the picked rows of the whole-array stage (Cert.SageLayers.single) of the five arrays as
  the region finds them; the 30 row blocks tile the output, so after the region the output array is that stage.
-/
import proofs.«137150_j26774826123587_1_alg».proof.Proof.Gen.KernelIdeal.Frame
import proofs.«137150_j26774826123587_1_alg».proof.Proof.LibSageStages

set_option maxRecDepth 16384

noncomputable section

namespace Cert.KernelIdeal.Whole

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)
open Cert.BlockRows Cert.RowLayers Cert.SageLayers

variable (V : (c : Dev nD) → (b : Ref sig .tc) → Buf (Elt Ideal) ((c : Thread nD τ).loc b))

theorem zeros1 : (![0, 0] : Fin 2 → Nat) = fun _ => 0 := funext fun a => by fin_cases a <;> rfl

/-- The bias row laid down all 30000 rows: the broadcast the whole-array stage uses. -/
theorem lay1 : (⟨2, ![1, 64]⟩ : Shape).BroadcastsInDim ⟨2, ![30000, 64]⟩ ![0, 1] := by decide

/-- The rows point t works on. -/
def rows1 (t : Fin cfg1.N) : Fin 1000 → Fin 30000 := blockRow 1000 30 30000 (by decide) (t.cast N_1)

/-- The whole-array stage of the region's five input arrays as it finds them. -/
def stage1 (c : Dev nD) : FVec Ideal S30000x64 .f32 :=
  single lay1 (V c (Pipeline.arrRef spec1 0) : FVec Ideal S30000x64 .f32) (V c (Pipeline.arrRef spec1 1) : FVec Ideal S30000x64 .f32)
    (V c (Pipeline.arrRef spec1 2) : FVec Ideal S64x64 .f32) (V c (Pipeline.arrRef spec1 3) : FVec Ideal S64x64 .f32)
    (V c (Pipeline.arrRef spec1 4) : FVec Ideal S1x64 .f32)

/-- The printed index maps over the grid: the row-tiled windows sit at block (t, 0), the whole-array windows at (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour-mean block at point t is the point's rows of the table. -/
theorem blk1_0 (c : Dev nD) (t : Fin cfg1.N) :
    (iblk1 V c 0 t : Vec Ideal S1000x64 .f32) = rowsOf (rows1 t) (V c (Pipeline.arrRef spec1 0) : FVec Ideal S30000x64 .f32) := by
  funext y
  obtain ⟨p, q, rfl⟩ : ∃ (p : Fin 1000) (q : Fin 64), y = ix2 p q := ⟨y 0, y 1, eq_ix2 y⟩
  rw [rowsOf_apply]
  show V c (Pipeline.arrRef spec1 0) (((cfg1.win 0).blk t).view.emb (ix2 p q)) = _
  refine congrArg (V c (Pipeline.arrRef spec1 0)) ?_
  obtain ⟨e0, e1, -⟩ := idx1 t
  funext a; apply Fin.ext
  match a with
  | ⟨0, _⟩ => show win1_0.index t (0 : Fin 2) * 1000 + 1 * p.val = 1000 * t.val + p.val; omega
  | ⟨1, _⟩ => show win1_0.index t (1 : Fin 2) * 64 + 1 * q.val = q.val; omega

/-- The feature block at point t is the point's rows of the node features. -/
theorem blk1_1 (c : Dev nD) (t : Fin cfg1.N) :
    (iblk1 V c 1 t : Vec Ideal S1000x64 .f32) = rowsOf (rows1 t) (V c (Pipeline.arrRef spec1 1) : FVec Ideal S30000x64 .f32) := by
  funext y
  obtain ⟨p, q, rfl⟩ : ∃ (p : Fin 1000) (q : Fin 64), y = ix2 p q := ⟨y 0, y 1, eq_ix2 y⟩
  rw [rowsOf_apply]
  show V c (Pipeline.arrRef spec1 1) (((cfg1.win 1).blk t).view.emb (ix2 p q)) = _
  refine congrArg (V c (Pipeline.arrRef spec1 1)) ?_
  obtain ⟨-, -, e0, e1, -⟩ := idx1 t
  funext a; apply Fin.ext
  match a with
  | ⟨0, _⟩ => show win1_1.index t (0 : Fin 2) * 1000 + 1 * p.val = 1000 * t.val + p.val; omega
  | ⟨1, _⟩ => show win1_1.index t (1 : Fin 2) * 64 + 1 * q.val = q.val; omega

/-- The first weight table is staged whole. -/
theorem blk1_2 (c : Dev nD) (t : Fin cfg1.N) :
    (iblk1 V c 2 t : Vec Ideal S64x64 .f32) = (V c (Pipeline.arrRef spec1 2) : FVec Ideal S64x64 .f32) := by
  funext y
  show V c (Pipeline.arrRef spec1 2) (((cfg1.win 2).blk t).view.emb y) = _
  refine congrArg (V c (Pipeline.arrRef spec1 2)) ?_
  obtain ⟨-, -, -, -, e0, e1, -⟩ := idx1 t
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The second weight table is staged whole. -/
theorem blk1_3 (c : Dev nD) (t : Fin cfg1.N) :
    (iblk1 V c 3 t : Vec Ideal S64x64 .f32) = (V c (Pipeline.arrRef spec1 3) : FVec Ideal S64x64 .f32) := by
  funext y
  show V c (Pipeline.arrRef spec1 3) (((cfg1.win 3).blk t).view.emb y) = _
  refine congrArg (V c (Pipeline.arrRef spec1 3)) ?_
  obtain ⟨-, -, -, -, -, -, e0, e1, -⟩ := idx1 t
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias row is staged whole. -/
theorem blk1_4 (c : Dev nD) (t : Fin cfg1.N) :
    (iblk1 V c 4 t : Vec Ideal S1x64 .f32) = (V c (Pipeline.arrRef spec1 4) : FVec Ideal S1x64 .f32) := by
  funext y
  show V c (Pipeline.arrRef spec1 4) (((cfg1.win 4).blk t).view.emb y) = _
  refine congrArg (V c (Pipeline.arrRef spec1 4)) ?_
  obtain ⟨-, -, -, -, -, -, -, -, e0, e1, -⟩ := idx1 t
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The body's stored value on blocks that are picked rows (and whole weights) is the picked rows of the stage. -/
theorem pay1_rows (ρ : Fin 1000 → Fin 30000)
    (A : FVec Ideal S30000x64 .f32) (X : FVec Ideal S30000x64 .f32) (Wl : FVec Ideal S64x64 .f32) (Wr : FVec Ideal S64x64 .f32)
    (B : FVec Ideal S1x64 .f32)
    (a : Vec Ideal S1000x64 .f32) (x : Vec Ideal S1000x64 .f32) (wl : Vec Ideal S64x64 .f32) (wr : Vec Ideal S64x64 .f32)
    (b : Vec Ideal S1x64 .f32)
    (ha : a = rowsOf ρ A) (hx : x = rowsOf ρ X) (hwl : wl = Wl) (hwr : wr = Wr) (hb : b = B) :
    k1_pay1 (F := Ideal) a x wl wr b = rowsOf ρ (single lay1 A X Wl Wr B) := by
  unfold k1_pay1
  exact single_rows ρ Facts₀.bitsLt_bf16_f32 Facts₀.shapeCasts_S1000x64_S1000x64 Facts₀.shapeCasts_S1x64_S1x64 Facts₀.broadcasts_S1x64_S1000x64 lay1
    A X Wl Wr B a x wl wr b ha hx hwl hwr hb

/-- What point t writes back is block t of the whole-array stage. -/
theorem flushed1 (c : Dev nD) (t : Fin cfg1.N) :
    (dat1 V c).flushed 5 t = ((cfg1.win 5).blk t).view.read (Elt Ideal) (stage1 V c) := by
  show (cfg1.win 5).cut (grid1.coords t) ((dat1 V c).after 5 t) = _
  rw [after1_5]
  unfold out1_5
  rw [View.canon_unit_zero zeros1]
  simp only [View.ld_unit_zero (S := S1000x64) zeros1, View.ld_unit_zero (S := S1000x64) zeros1,
    View.ld_unit_zero (S := S64x64) zeros1, View.ld_unit_zero (S := S64x64) zeros1, View.ld_unit_zero (S := S1x64) zeros1]
  rw [pay1_rows (rows1 t) _ _ _ _ _ _ _ _ _ _ (blk1_0 V c t) (blk1_1 V c t) (blk1_2 V c t) (blk1_3 V c t) (blk1_4 V c t)]
  funext j
  obtain ⟨p, q, rfl⟩ : ∃ (p : Fin 1000) (q : Fin 64), j = ix2 p q := ⟨j 0, j 1, eq_ix2 j⟩
  show rowsOf (rows1 t) (stage1 V c) (ix2 p q) = stage1 V c (((cfg1.win 5).blk t).view.emb (ix2 p q))
  rw [rowsOf_apply]
  refine congrArg (stage1 V c) ?_
  obtain ⟨-, -, -, -, -, -, -, -, -, -, e0, e1⟩ := idx1 t
  funext a; apply Fin.ext
  match a with
  | ⟨0, _⟩ => show 1000 * t.val + p.val = win1_5.index t (0 : Fin 2) * 1000 + 1 * p.val; omega
  | ⟨1, _⟩ => show q.val = win1_5.index t (1 : Fin 2) * 64 + 1 * q.val; omega

/-- An index of the output array lies in point t's block iff each coordinate is in the block's range. -/
theorem mem_blk1 (t : Fin cfg1.N) (i : S30000x64.Idx) :
    i ∈ ((cfg1.win 5).blk t).view.set ↔ ∀ a : Fin 2, win1_5.index t a * S1000x64.size a ≤ (i a).val
      ∧ (i a).val < win1_5.index t a * S1000x64.size a + S1000x64.size a := by
  show i ∈ ((View.whole main_v49).slice (win1_5.rect t)).set ↔ _
  rw [View.set_slice_whole, Rect.mem_set_unit]
  exact Iff.rfl

/-- Every row of the output lies in the block of the point numbered row / 1000. -/
theorem cover1 (i : S30000x64.Idx) : ∃ t : Fin cfg1.N, (cfg1.win 5).flush t = true ∧ i ∈ ((cfg1.win 5).blk t).view.set := by
  have hi0 : (i 0).val < 30000 := (i 0).isLt
  have hi1 : (i 1).val < 64 := (i 1).isLt
  let t : Fin cfg1.N := (⟨(i 0).val / 1000, by omega⟩ : Fin 30).cast N_1.symm
  have ht : t.val = (i 0).val / 1000 := rfl
  refine ⟨t, flush1_5 t, ?_⟩
  rw [mem_blk1]
  obtain ⟨-, -, -, -, -, -, -, -, -, -, e0, e1⟩ := idx1 t
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 64 ≤ (i 1).val ∧ (i 1).val < win1_5.index t (1 : Fin 2) * 64 + 64; omega

/-- After the region its output array is the whole-array stage of the input arrays as the region found them. -/
theorem final1 (c : Dev nD) : (dat1 V c).arrAt 5 cfg1.N = stage1 V c :=
  (dat1 V c).arrAt_eq_of_cover 5 (stage1 V c) (fun t _ => flushed1 V c t) (cover1)

end Cert.KernelIdeal.Whole

end
-- ==== Proof.Region2.lean ====
/-
  Region 2 of the program: the dense stage for the news nodes, one incoming edge type.

  The grid has 100 points. Point t stages rows 1000·t … 1000·t + 999 of the neighbour-mean table and of the node
  features, the two weight tables and the bias row whole, and writes back the same rows of the output. The body's
  stored value is therefore the picked rows of the whole-array stage (Cert.SageLayers.single) of the five arrays as
  the region finds them; the 100 row blocks tile the output, so after the region the output array is that stage.
-/
import proofs.«137150_j26774826123587_1_alg».proof.Proof.Gen.KernelIdeal.Frame
import proofs.«137150_j26774826123587_1_alg».proof.Proof.LibSageStages

set_option maxRecDepth 16384

noncomputable section

namespace Cert.KernelIdeal.Whole

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)
open Cert.BlockRows Cert.RowLayers Cert.SageLayers

variable (V : (c : Dev nD) → (b : Ref sig .tc) → Buf (Elt Ideal) ((c : Thread nD τ).loc b))

theorem zeros2 : (![0, 0] : Fin 2 → Nat) = fun _ => 0 := funext fun a => by fin_cases a <;> rfl

/-- The bias row laid down all 100000 rows: the broadcast the whole-array stage uses. -/
theorem lay2 : (⟨2, ![1, 64]⟩ : Shape).BroadcastsInDim ⟨2, ![100000, 64]⟩ ![0, 1] := by decide

/-- The rows point t works on. -/
def rows2 (t : Fin cfg2.N) : Fin 1000 → Fin 100000 := blockRow 1000 100 100000 (by decide) (t.cast N_2)

/-- The whole-array stage of the region's five input arrays as it finds them. -/
def stage2 (c : Dev nD) : FVec Ideal S100000x64 .f32 :=
  single lay2 (V c (Pipeline.arrRef spec2 0) : FVec Ideal S100000x64 .f32) (V c (Pipeline.arrRef spec2 1) : FVec Ideal S100000x128 .f32)
    (V c (Pipeline.arrRef spec2 2) : FVec Ideal S64x64 .f32) (V c (Pipeline.arrRef spec2 3) : FVec Ideal S128x64 .f32)
    (V c (Pipeline.arrRef spec2 4) : FVec Ideal S1x64 .f32)

/-- The printed index maps over the grid: the row-tiled windows sit at block (t, 0), the whole-array windows at (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour-mean block at point t is the point's rows of the table. -/
theorem blk2_0 (c : Dev nD) (t : Fin cfg2.N) :
    (iblk2 V c 0 t : Vec Ideal S1000x64 .f32) = rowsOf (rows2 t) (V c (Pipeline.arrRef spec2 0) : FVec Ideal S100000x64 .f32) := by
  funext y
  obtain ⟨p, q, rfl⟩ : ∃ (p : Fin 1000) (q : Fin 64), y = ix2 p q := ⟨y 0, y 1, eq_ix2 y⟩
  rw [rowsOf_apply]
  show V c (Pipeline.arrRef spec2 0) (((cfg2.win 0).blk t).view.emb (ix2 p q)) = _
  refine congrArg (V c (Pipeline.arrRef spec2 0)) ?_
  obtain ⟨e0, e1, -⟩ := idx2 t
  funext a; apply Fin.ext
  match a with
  | ⟨0, _⟩ => show win2_0.index t (0 : Fin 2) * 1000 + 1 * p.val = 1000 * t.val + p.val; omega
  | ⟨1, _⟩ => show win2_0.index t (1 : Fin 2) * 64 + 1 * q.val = q.val; omega

/-- The feature block at point t is the point's rows of the node features. -/
theorem blk2_1 (c : Dev nD) (t : Fin cfg2.N) :
    (iblk2 V c 1 t : Vec Ideal S1000x128 .f32) = rowsOf (rows2 t) (V c (Pipeline.arrRef spec2 1) : FVec Ideal S100000x128 .f32) := by
  funext y
  obtain ⟨p, q, rfl⟩ : ∃ (p : Fin 1000) (q : Fin 128), y = ix2 p q := ⟨y 0, y 1, eq_ix2 y⟩
  rw [rowsOf_apply]
  show V c (Pipeline.arrRef spec2 1) (((cfg2.win 1).blk t).view.emb (ix2 p q)) = _
  refine congrArg (V c (Pipeline.arrRef spec2 1)) ?_
  obtain ⟨-, -, e0, e1, -⟩ := idx2 t
  funext a; apply Fin.ext
  match a with
  | ⟨0, _⟩ => show win2_1.index t (0 : Fin 2) * 1000 + 1 * p.val = 1000 * t.val + p.val; omega
  | ⟨1, _⟩ => show win2_1.index t (1 : Fin 2) * 128 + 1 * q.val = q.val; omega

/-- The first weight table is staged whole. -/
theorem blk2_2 (c : Dev nD) (t : Fin cfg2.N) :
    (iblk2 V c 2 t : Vec Ideal S64x64 .f32) = (V c (Pipeline.arrRef spec2 2) : FVec Ideal S64x64 .f32) := by
  funext y
  show V c (Pipeline.arrRef spec2 2) (((cfg2.win 2).blk t).view.emb y) = _
  refine congrArg (V c (Pipeline.arrRef spec2 2)) ?_
  obtain ⟨-, -, -, -, e0, e1, -⟩ := idx2 t
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The second weight table is staged whole. -/
theorem blk2_3 (c : Dev nD) (t : Fin cfg2.N) :
    (iblk2 V c 3 t : Vec Ideal S128x64 .f32) = (V c (Pipeline.arrRef spec2 3) : FVec Ideal S128x64 .f32) := by
  funext y
  show V c (Pipeline.arrRef spec2 3) (((cfg2.win 3).blk t).view.emb y) = _
  refine congrArg (V c (Pipeline.arrRef spec2 3)) ?_
  obtain ⟨-, -, -, -, -, -, e0, e1, -⟩ := idx2 t
  funext a; apply Fin.ext
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- The bias row is staged whole. -/
theorem blk2_4 (c : Dev nD) (t : Fin cfg2.N) :
    (iblk2 V c 4 t : Vec Ideal S1x64 .f32) = (V c (Pipeline.arrRef spec2 4) : FVec Ideal S1x64 .f32) := by
  funext y
  show V c (Pipeline.arrRef spec2 4) (((cfg2.win 4).blk t).view.emb y) = _
  refine congrArg (V c (Pipeline.arrRef spec2 4)) ?_
  obtain ⟨-, -, -, -, -, -, -, -, e0, e1, -⟩ := idx2 t
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The body's stored value on blocks that are picked rows (and whole weights) is the picked rows of the stage. -/
theorem pay2_rows (ρ : Fin 1000 → Fin 100000)
    (A : FVec Ideal S100000x64 .f32) (X : FVec Ideal S100000x128 .f32) (Wl : FVec Ideal S64x64 .f32) (Wr : FVec Ideal S128x64 .f32)
    (B : FVec Ideal S1x64 .f32)
    (a : Vec Ideal S1000x64 .f32) (x : Vec Ideal S1000x128 .f32) (wl : Vec Ideal S64x64 .f32) (wr : Vec Ideal S128x64 .f32)
    (b : Vec Ideal S1x64 .f32)
    (ha : a = rowsOf ρ A) (hx : x = rowsOf ρ X) (hwl : wl = Wl) (hwr : wr = Wr) (hb : b = B) :
    k2_pay1 (F := Ideal) a x wl wr b = rowsOf ρ (single lay2 A X Wl Wr B) := by
  unfold k2_pay1
  exact single_rows ρ Facts₀.bitsLt_bf16_f32 Facts₀.shapeCasts_S1000x64_S1000x64 Facts₀.shapeCasts_S1x64_S1x64 Facts₀.broadcasts_S1x64_S1000x64 lay2
    A X Wl Wr B a x wl wr b ha hx hwl hwr hb

/-- What point t writes back is block t of the whole-array stage. -/
theorem flushed2 (c : Dev nD) (t : Fin cfg2.N) :
    (dat2 V c).flushed 5 t = ((cfg2.win 5).blk t).view.read (Elt Ideal) (stage2 V c) := by
  show (cfg2.win 5).cut (grid2.coords t) ((dat2 V c).after 5 t) = _
  rw [after2_5]
  unfold out2_5
  rw [View.canon_unit_zero zeros2]
  simp only [View.ld_unit_zero (S := S1000x64) zeros2, View.ld_unit_zero (S := S1000x128) zeros2,
    View.ld_unit_zero (S := S64x64) zeros2, View.ld_unit_zero (S := S128x64) zeros2, View.ld_unit_zero (S := S1x64) zeros2]
  rw [pay2_rows (rows2 t) _ _ _ _ _ _ _ _ _ _ (blk2_0 V c t) (blk2_1 V c t) (blk2_2 V c t) (blk2_3 V c t) (blk2_4 V c t)]
  funext j
  obtain ⟨p, q, rfl⟩ : ∃ (p : Fin 1000) (q : Fin 64), j = ix2 p q := ⟨j 0, j 1, eq_ix2 j⟩
  show rowsOf (rows2 t) (stage2 V c) (ix2 p q) = stage2 V c (((cfg2.win 5).blk t).view.emb (ix2 p q))
  rw [rowsOf_apply]
  refine congrArg (stage2 V c) ?_
  obtain ⟨-, -, -, -, -, -, -, -, -, -, e0, e1⟩ := idx2 t
  funext a; apply Fin.ext
  match a with
  | ⟨0, _⟩ => show 1000 * t.val + p.val = win2_5.index t (0 : Fin 2) * 1000 + 1 * p.val; omega
  | ⟨1, _⟩ => show q.val = win2_5.index t (1 : Fin 2) * 64 + 1 * q.val; omega

/-- An index of the output array lies in point t's block iff each coordinate is in the block's range. -/
theorem mem_blk2 (t : Fin cfg2.N) (i : S100000x64.Idx) :
    i ∈ ((cfg2.win 5).blk t).view.set ↔ ∀ a : Fin 2, win2_5.index t a * S1000x64.size a ≤ (i a).val
      ∧ (i a).val < win2_5.index t a * S1000x64.size a + S1000x64.size a := by
  show i ∈ ((View.whole main_v74).slice (win2_5.rect t)).set ↔ _
  rw [View.set_slice_whole, Rect.mem_set_unit]
  exact Iff.rfl

/-- Every row of the output lies in the block of the point numbered row / 1000. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := (⟨(i 0).val / 1000, by omega⟩ : Fin 100).cast N_2.symm
  have ht : t.val = (i 0).val / 1000 := rfl
  refine ⟨t, flush2_5 t, ?_⟩
  rw [mem_blk2]
  obtain ⟨-, -, -, -, -, -, -, -, -, -, e0, e1⟩ := idx2 t
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 64 ≤ (i 1).val ∧ (i 1).val < win2_5.index t (1 : Fin 2) * 64 + 64; omega

/-- After the region its output array is the whole-array stage of the input arrays as the region found them. -/
theorem final2 (c : Dev nD) : (dat2 V c).arrAt 5 cfg2.N = stage2 V c :=
  (dat2 V c).arrAt_eq_of_cover 5 (stage2 V c) (fun t _ => flushed2 V c t) (cover2)

end Cert.KernelIdeal.Whole

end
-- ==== Proof.Region3.lean ====
/-
  Region 3 of the program: the dense stage for the ticker nodes, three incoming edge types.

  The grid has 5 points. Point t stages rows 1000·t … 1000·t + 999 of the three neighbour-mean tables and of the
  ticker features, the four weight tables and the bias row whole, and writes back the same rows of the output. The
  body's stored value is the picked rows of the whole-array stage (Cert.SageLayers.triple) of the nine arrays as the
  region finds them; the five row blocks tile the output, so after the region the output array is that stage.
-/
import proofs.«137150_j26774826123587_1_alg».proof.Proof.Gen.KernelIdeal.Frame
import proofs.«137150_j26774826123587_1_alg».proof.Proof.LibSageStages

set_option maxRecDepth 16384

noncomputable section

namespace Cert.KernelIdeal.Whole

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)
open Cert.BlockRows Cert.RowLayers Cert.SageLayers

variable (V : (c : Dev nD) → (b : Ref sig .tc) → Buf (Elt Ideal) ((c : Thread nD τ).loc b))

theorem zeros3 : (![0, 0] : Fin 2 → Nat) = fun _ => 0 := funext fun a => by fin_cases a <;> rfl

/-- The bias row laid down all 5000 rows: the broadcast the whole-array stage uses. -/
theorem lay3 : (⟨2, ![1, 64]⟩ : Shape).BroadcastsInDim ⟨2, ![5000, 64]⟩ ![0, 1] := by decide

/-- The rows point t works on. -/
def rows3 (t : Fin cfg3.N) : Fin 1000 → Fin 5000 := blockRow 1000 5 5000 (by decide) (t.cast N_3)

/-- The whole-array stage of the region's nine input arrays as it finds them. -/
def stage3 (c : Dev nD) : FVec Ideal S5000x64 .f32 :=
  triple lay3 (V c (Pipeline.arrRef spec3 0) : FVec Ideal S5000x128 .f32) (V c (Pipeline.arrRef spec3 1) : FVec Ideal S5000x64 .f32)
    (V c (Pipeline.arrRef spec3 2) : FVec Ideal S5000x64 .f32) (V c (Pipeline.arrRef spec3 3) : FVec Ideal S5000x64 .f32)
    (V c (Pipeline.arrRef spec3 4) : FVec Ideal S128x64 .f32) (V c (Pipeline.arrRef spec3 5) : FVec Ideal S64x64 .f32)
    (V c (Pipeline.arrRef spec3 6) : FVec Ideal S64x64 .f32) (V c (Pipeline.arrRef spec3 7) : FVec Ideal S64x64 .f32)
    (V c (Pipeline.arrRef spec3 8) : FVec Ideal S1x64 .f32)

/-- The printed index maps over the grid: the row-tiled windows sit at block (t, 0), the whole-array windows at (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- Window 0's block at point t is the point's rows of its table. -/
theorem blk3_0 (c : Dev nD) (t : Fin cfg3.N) :
    (iblk3 V c 0 t : Vec Ideal S1000x128 .f32) = rowsOf (rows3 t) (V c (Pipeline.arrRef spec3 0) : FVec Ideal S5000x128 .f32) := by
  funext y
  obtain ⟨p, q, rfl⟩ : ∃ (p : Fin 1000) (q : Fin 128), y = ix2 p q := ⟨y 0, y 1, eq_ix2 y⟩
  rw [rowsOf_apply]
  show V c (Pipeline.arrRef spec3 0) (((cfg3.win 0).blk t).view.emb (ix2 p q)) = _
  refine congrArg (V c (Pipeline.arrRef spec3 0)) ?_
  obtain ⟨e0, e1, -⟩ := idx3 t
  funext a; apply Fin.ext
  match a with
  | ⟨0, _⟩ => show win3_0.index t (0 : Fin 2) * 1000 + 1 * p.val = 1000 * t.val + p.val; omega
  | ⟨1, _⟩ => show win3_0.index t (1 : Fin 2) * 128 + 1 * q.val = q.val; omega

/-- Window 1's block at point t is the point's rows of its table. -/
theorem blk3_1 (c : Dev nD) (t : Fin cfg3.N) :
    (iblk3 V c 1 t : Vec Ideal S1000x64 .f32) = rowsOf (rows3 t) (V c (Pipeline.arrRef spec3 1) : FVec Ideal S5000x64 .f32) := by
  funext y
  obtain ⟨p, q, rfl⟩ : ∃ (p : Fin 1000) (q : Fin 64), y = ix2 p q := ⟨y 0, y 1, eq_ix2 y⟩
  rw [rowsOf_apply]
  show V c (Pipeline.arrRef spec3 1) (((cfg3.win 1).blk t).view.emb (ix2 p q)) = _
  refine congrArg (V c (Pipeline.arrRef spec3 1)) ?_
  obtain ⟨-, -, e0, e1, -⟩ := idx3 t
  funext a; apply Fin.ext
  match a with
  | ⟨0, _⟩ => show win3_1.index t (0 : Fin 2) * 1000 + 1 * p.val = 1000 * t.val + p.val; omega
  | ⟨1, _⟩ => show win3_1.index t (1 : Fin 2) * 64 + 1 * q.val = q.val; omega

/-- Window 2's block at point t is the point's rows of its table. -/
theorem blk3_2 (c : Dev nD) (t : Fin cfg3.N) :
    (iblk3 V c 2 t : Vec Ideal S1000x64 .f32) = rowsOf (rows3 t) (V c (Pipeline.arrRef spec3 2) : FVec Ideal S5000x64 .f32) := by
  funext y
  obtain ⟨p, q, rfl⟩ : ∃ (p : Fin 1000) (q : Fin 64), y = ix2 p q := ⟨y 0, y 1, eq_ix2 y⟩
  rw [rowsOf_apply]
  show V c (Pipeline.arrRef spec3 2) (((cfg3.win 2).blk t).view.emb (ix2 p q)) = _
  refine congrArg (V c (Pipeline.arrRef spec3 2)) ?_
  obtain ⟨-, -, -, -, e0, e1, -⟩ := idx3 t
  funext a; apply Fin.ext
  match a with
  | ⟨0, _⟩ => show win3_2.index t (0 : Fin 2) * 1000 + 1 * p.val = 1000 * t.val + p.val; omega
  | ⟨1, _⟩ => show win3_2.index t (1 : Fin 2) * 64 + 1 * q.val = q.val; omega

/-- Window 3's block at point t is the point's rows of its table. -/
theorem blk3_3 (c : Dev nD) (t : Fin cfg3.N) :
    (iblk3 V c 3 t : Vec Ideal S1000x64 .f32) = rowsOf (rows3 t) (V c (Pipeline.arrRef spec3 3) : FVec Ideal S5000x64 .f32) := by
  funext y
  obtain ⟨p, q, rfl⟩ : ∃ (p : Fin 1000) (q : Fin 64), y = ix2 p q := ⟨y 0, y 1, eq_ix2 y⟩
  rw [rowsOf_apply]
  show V c (Pipeline.arrRef spec3 3) (((cfg3.win 3).blk t).view.emb (ix2 p q)) = _
  refine congrArg (V c (Pipeline.arrRef spec3 3)) ?_
  obtain ⟨-, -, -, -, -, -, e0, e1, -⟩ := idx3 t
  funext a; apply Fin.ext
  match a with
  | ⟨0, _⟩ => show win3_3.index t (0 : Fin 2) * 1000 + 1 * p.val = 1000 * t.val + p.val; omega
  | ⟨1, _⟩ => show win3_3.index t (1 : Fin 2) * 64 + 1 * q.val = q.val; omega

/-- Window 4's array is staged whole. -/
theorem blk3_4 (c : Dev nD) (t : Fin cfg3.N) :
    (iblk3 V c 4 t : Vec Ideal S128x64 .f32) = (V c (Pipeline.arrRef spec3 4) : FVec Ideal S128x64 .f32) := by
  funext y
  show V c (Pipeline.arrRef spec3 4) (((cfg3.win 4).blk t).view.emb y) = _
  refine congrArg (V c (Pipeline.arrRef spec3 4)) ?_
  obtain ⟨-, -, -, -, -, -, -, -, e0, e1, -⟩ := idx3 t
  funext a; apply Fin.ext
  match a with
  | ⟨0, _⟩ => show win3_4.index t (0 : Fin 2) * 128 + 1 * (y 0).val = (y 0).val; omega
  | ⟨1, _⟩ => show win3_4.index t (1 : Fin 2) * 64 + 1 * (y 1).val = (y 1).val; omega

/-- Window 5's array is staged whole. -/
theorem blk3_5 (c : Dev nD) (t : Fin cfg3.N) :
    (iblk3 V c 5 t : Vec Ideal S64x64 .f32) = (V c (Pipeline.arrRef spec3 5) : FVec Ideal S64x64 .f32) := by
  funext y
  show V c (Pipeline.arrRef spec3 5) (((cfg3.win 5).blk t).view.emb y) = _
  refine congrArg (V c (Pipeline.arrRef spec3 5)) ?_
  obtain ⟨-, -, -, -, -, -, -, -, -, -, e0, e1, -⟩ := idx3 t
  funext a; apply Fin.ext
  match a with
  | ⟨0, _⟩ => show win3_5.index t (0 : Fin 2) * 64 + 1 * (y 0).val = (y 0).val; omega
  | ⟨1, _⟩ => show win3_5.index t (1 : Fin 2) * 64 + 1 * (y 1).val = (y 1).val; omega

/-- Window 6's array is staged whole. -/
theorem blk3_6 (c : Dev nD) (t : Fin cfg3.N) :
    (iblk3 V c 6 t : Vec Ideal S64x64 .f32) = (V c (Pipeline.arrRef spec3 6) : FVec Ideal S64x64 .f32) := by
  funext y
  show V c (Pipeline.arrRef spec3 6) (((cfg3.win 6).blk t).view.emb y) = _
  refine congrArg (V c (Pipeline.arrRef spec3 6)) ?_
  obtain ⟨-, -, -, -, -, -, -, -, -, -, -, -, e0, e1, -⟩ := idx3 t
  funext a; apply Fin.ext
  match a with
  | ⟨0, _⟩ => show win3_6.index t (0 : Fin 2) * 64 + 1 * (y 0).val = (y 0).val; omega
  | ⟨1, _⟩ => show win3_6.index t (1 : Fin 2) * 64 + 1 * (y 1).val = (y 1).val; omega

/-- Window 7's array is staged whole. -/
theorem blk3_7 (c : Dev nD) (t : Fin cfg3.N) :
    (iblk3 V c 7 t : Vec Ideal S64x64 .f32) = (V c (Pipeline.arrRef spec3 7) : FVec Ideal S64x64 .f32) := by
  funext y
  show V c (Pipeline.arrRef spec3 7) (((cfg3.win 7).blk t).view.emb y) = _
  refine congrArg (V c (Pipeline.arrRef spec3 7)) ?_
  obtain ⟨-, -, -, -, -, -, -, -, -, -, -, -, -, -, e0, e1, -⟩ := idx3 t
  funext a; apply Fin.ext
  match a with
  | ⟨0, _⟩ => show win3_7.index t (0 : Fin 2) * 64 + 1 * (y 0).val = (y 0).val; omega
  | ⟨1, _⟩ => show win3_7.index t (1 : Fin 2) * 64 + 1 * (y 1).val = (y 1).val; omega

/-- Window 8's array is staged whole. -/
theorem blk3_8 (c : Dev nD) (t : Fin cfg3.N) :
    (iblk3 V c 8 t : Vec Ideal S1x64 .f32) = (V c (Pipeline.arrRef spec3 8) : FVec Ideal S1x64 .f32) := by
  funext y
  show V c (Pipeline.arrRef spec3 8) (((cfg3.win 8).blk t).view.emb y) = _
  refine congrArg (V c (Pipeline.arrRef spec3 8)) ?_
  obtain ⟨-, -, -, -, -, -, -, -, -, -, -, -, -, -, -, -, e0, e1, -⟩ := idx3 t
  funext a; apply Fin.ext
  match a with
  | ⟨0, _⟩ => show win3_8.index t (0 : Fin 2) * 1 + 1 * (y 0).val = (y 0).val; omega
  | ⟨1, _⟩ => show win3_8.index t (1 : Fin 2) * 64 + 1 * (y 1).val = (y 1).val; omega

/-- The body's stored value on blocks that are picked rows (and whole weights) is the picked rows of the stage. -/
theorem pay3_rows (ρ : Fin 1000 → Fin 5000)
    (A1 : FVec Ideal S5000x128 .f32) (A2 A3 X : FVec Ideal S5000x64 .f32)
    (W1 : FVec Ideal S128x64 .f32) (W2 W3 R : FVec Ideal S64x64 .f32) (B : FVec Ideal S1x64 .f32)
    (a1 : Vec Ideal S1000x128 .f32) (a2 a3 x : Vec Ideal S1000x64 .f32)
    (w1 : Vec Ideal S128x64 .f32) (w2 w3 r : Vec Ideal S64x64 .f32) (b : Vec Ideal S1x64 .f32)
    (h1 : a1 = rowsOf ρ A1) (h2 : a2 = rowsOf ρ A2) (h3 : a3 = rowsOf ρ A3) (hx : x = rowsOf ρ X)
    (hw1 : w1 = W1) (hw2 : w2 = W2) (hw3 : w3 = W3) (hr : r = R) (hb : b = B) :
    k3_pay1 (F := Ideal) a1 a2 a3 x w1 w2 w3 r b = rowsOf ρ (triple lay3 A1 A2 A3 X W1 W2 W3 R B) := by
  unfold k3_pay1
  exact triple_rows ρ Facts₀.bitsLt_bf16_f32 Facts₀.shapeCasts_S1000x128_S1000x128 Facts₀.shapeCasts_S1000x64_S1000x64 Facts₀.shapeCasts_S1000x64_S1000x64
    Facts₀.shapeCasts_S64x64_S64x64 Facts₀.shapeCasts_S1x64_S1x64 Facts₀.broadcasts_S1x64_S1000x64 lay3
    A1 A2 A3 X W1 W2 W3 R B a1 a2 a3 x w1 w2 w3 r b h1 h2 h3 hx hw1 hw2 hw3 hr hb

/-- What point t writes back is block t of the whole-array stage. -/
theorem flushed3 (c : Dev nD) (t : Fin cfg3.N) :
    (dat3 V c).flushed 9 t = ((cfg3.win 9).blk t).view.read (Elt Ideal) (stage3 V c) := by
  show (cfg3.win 9).cut (grid3.coords t) ((dat3 V c).after 9 t) = _
  rw [after3_9]
  unfold out3_9
  rw [View.canon_unit_zero zeros3]
  simp only [View.ld_unit_zero (S := S1000x128) zeros3, View.ld_unit_zero (S := S1000x64) zeros3,
    View.ld_unit_zero (S := S128x64) zeros3, View.ld_unit_zero (S := S64x64) zeros3, View.ld_unit_zero (S := S1x64) zeros3]
  rw [pay3_rows (rows3 t) _ _ _ _ _ _ _ _ _ _ _ _ _ _ _ _ _ _ (blk3_0 V c t) (blk3_1 V c t) (blk3_2 V c t) (blk3_3 V c t)
    (blk3_4 V c t) (blk3_5 V c t) (blk3_6 V c t) (blk3_7 V c t) (blk3_8 V c t)]
  funext j
  obtain ⟨p, q, rfl⟩ : ∃ (p : Fin 1000) (q : Fin 64), j = ix2 p q := ⟨j 0, j 1, eq_ix2 j⟩
  show rowsOf (rows3 t) (stage3 V c) (ix2 p q) = stage3 V c (((cfg3.win 9).blk t).view.emb (ix2 p q))
  rw [rowsOf_apply]
  refine congrArg (stage3 V c) ?_
  obtain ⟨-, -, -, -, -, -, -, -, -, -, -, -, -, -, -, -, -, -, e0, e1⟩ := idx3 t
  funext a; apply Fin.ext
  match a with
  | ⟨0, _⟩ => show 1000 * t.val + p.val = win3_9.index t (0 : Fin 2) * 1000 + 1 * p.val; omega
  | ⟨1, _⟩ => show q.val = win3_9.index t (1 : Fin 2) * 64 + 1 * q.val; omega

/-- An index of the output array lies in point t's block iff each coordinate is in the block's range. -/
theorem mem_blk3 (t : Fin cfg3.N) (i : S5000x64.Idx) :
    i ∈ ((cfg3.win 9).blk t).view.set ↔ ∀ a : Fin 2, win3_9.index t a * S1000x64.size a ≤ (i a).val
      ∧ (i a).val < win3_9.index t a * S1000x64.size a + S1000x64.size a := by
  show i ∈ ((View.whole main_v149).slice (win3_9.rect t)).set ↔ _
  rw [View.set_slice_whole, Rect.mem_set_unit]
  exact Iff.rfl

/-- Every row of the output lies in the block of the point numbered row / 1000. -/
theorem cover3 (i : S5000x64.Idx) : ∃ t : Fin cfg3.N, (cfg3.win 9).flush t = true ∧ i ∈ ((cfg3.win 9).blk t).view.set := by
  have hi0 : (i 0).val < 5000 := (i 0).isLt
  have hi1 : (i 1).val < 64 := (i 1).isLt
  let t : Fin cfg3.N := (⟨(i 0).val / 1000, by omega⟩ : Fin 5).cast N_3.symm
  have ht : t.val = (i 0).val / 1000 := rfl
  refine ⟨t, flush3_9 t, ?_⟩
  rw [mem_blk3]
  obtain ⟨-, -, -, -, -, -, -, -, -, -, -, -, -, -, -, -, -, -, e0, e1⟩ := idx3 t
  intro a
  match a with
  | ⟨0, _⟩ => show win3_9.index t (0 : Fin 2) * 1000 ≤ (i 0).val ∧ (i 0).val < win3_9.index t (0 : Fin 2) * 1000 + 1000; omega
  | ⟨1, _⟩ => show win3_9.index t (1 : Fin 2) * 64 ≤ (i 1).val ∧ (i 1).val < win3_9.index t (1 : Fin 2) * 64 + 64; omega

/-- After the region its output array is the whole-array stage of the input arrays as the region found them. -/
theorem final3 (c : Dev nD) : (dat3 V c).arrAt 9 cfg3.N = stage3 V c :=
  (dat3 V c).arrAt_eq_of_cover 9 (stage3 V c) (fun t _ => flushed3 V c t) (cover3)

end Cert.KernelIdeal.Whole

end
-- ==== Proof.AggTerms.lean ====
/-
  The six neighbour means of the heterogeneous graph layer, each as one function of a feature table and an edge list.

  An edge list is a 2 x E table of words: row 0 the source node of each edge, row 1 its destination. The mean at a
  destination node d is the sum of the source rows x[src e] over the edges e with dst e = d (a gather, then an
  accumulating scatter into zeros), divided by max(count of such edges, 1). A negative source word is first wrapped
  by adding the number of source nodes, as the host's indexing does. Both programs spell these operations the same
  way, so the certificate carries each mean as one function and never looks inside the gather or the scatter.
-/
import proofs.«137150_j26774826123587_1_alg».proof.KernelIdeal
import proofs.«137150_j26774826123587_1_alg».proof.Proof.Gen.KernelIdeal

set_option maxRecDepth 8192

noncomputable section

namespace Cert.KernelIdeal.Whole

open Cert.KernelIdeal Cert.KernelIdeal.Facts₀ Cert.KernelIdeal.Facts Idealize.ShloMosaic

variable {F : FTy → Type} [FloatOps F]

/-- Row 0 of an edge list: the source node of each edge. -/
def srcOf (ei : IVec S2x1000000 32) : IVec S1000000 32 :=
  shapeCast S1000000 (extractStridedSlice S1x1000000 ![0, 0] ei slices_S2x1000000_S1x1000000_0_0) shapeCasts_S1x1000000_S1000000

/-- Row 1 of an edge list: the destination node of each edge. -/
def dstOf (ei : IVec S2x1000000 32) : IVec S1000000 32 :=
  shapeCast S1000000 (extractStridedSlice S1x1000000 ![1, 0] ei slices_S2x1000000_S1x1000000_1_0) shapeCasts_S1x1000000_S1000000

/-- The ticker rows gathered by the edges of type hit and averaged per institution. -/
def aggHit (x : FVec F S5000x64 .f32) (ei : IVec S2x1000000 32) : FVec F S20000x64 .f32 :=
  Host.divf (Host.scatterAdd scatter_S20000x64_S1000000x1_S1000000x64_1_0_0_1 (broadcastInDim S20000x64 ![] bcast_S_S20000x64 (constant S_ .f32 0x00000000#32)) (broadcastInDim S1000000x1 ![0] bcast_S1000000_S1000000x1_0 (dstOf ei)) (Host.gather gather_S5000x64_S1000000x1_S1000000x64_1_0_n_n_0_1_164 x (broadcastInDim S1000000x1 ![0] bcast_S1000000_S1000000x1_0 (select (cmpi .slt (srcOf ei) (broadcastInDim S1000000 ![] bcast_S_S1000000 (constantI S_ 32 0#32))) (addi (srcOf ei) (broadcastInDim S1000000 ![] bcast_S_S1000000 (constantI S_ 32 5000#32))) (srcOf ei))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant S_ .f32 0x00000000#32)) (broadcastInDim S1000000x1 ![0] bcast_S1000000_S1000000x1_0 (dstOf ei)) (broadcastInDim S1000000 ![] bcast_S_S1000000 (constant S_ .f32 0x3F800000#32))) (broadcastInDim S20000 ![] bcast_S_S20000 (constant S_ .f32 0x3F800000#32)))))

/-- The ticker rows gathered by the edges of type hmt and averaged per mutual fund. -/
def aggHmt (x : FVec F S5000x64 .f32) (ei : IVec S2x1000000 32) : FVec F S30000x64 .f32 :=
  Host.divf (Host.scatterAdd scatter_S30000x64_S1000000x1_S1000000x64_1_0_0_1 (broadcastInDim S30000x64 ![] bcast_S_S30000x64 (constant S_ .f32 0x00000000#32)) (broadcastInDim S1000000x1 ![0] bcast_S1000000_S1000000x1_0 (dstOf ei)) (Host.gather gather_S5000x64_S1000000x1_S1000000x64_1_0_n_n_0_1_164 x (broadcastInDim S1000000x1 ![0] bcast_S1000000_S1000000x1_0 (select (cmpi .slt (srcOf ei) (broadcastInDim S1000000 ![] bcast_S_S1000000 (constantI S_ 32 0#32))) (addi (srcOf ei) (broadcastInDim S1000000 ![] bcast_S_S1000000 (constantI S_ 32 5000#32))) (srcOf ei))))) (broadcastInDim S30000x64 ![0, 1] bcast_S30000x1_S30000x64_0_1 (broadcastInDim S30000x1 ![0] bcast_S30000_S30000x1_0 (maximumf (Host.scatterAdd scatter_S30000_S1000000x1_S1000000_n_0_0_1 (broadcastInDim S30000 ![] bcast_S_S30000 (constant S_ .f32 0x00000000#32)) (broadcastInDim S1000000x1 ![0] bcast_S1000000_S1000000x1_0 (dstOf ei)) (broadcastInDim S1000000 ![] bcast_S_S1000000 (constant S_ .f32 0x3F800000#32))) (broadcastInDim S30000 ![] bcast_S_S30000 (constant S_ .f32 0x3F800000#32)))))

/-- The ticker rows gathered by the edges of type ran and averaged per news item. -/
def aggRan (x : FVec F S5000x64 .f32) (ei : IVec S2x1000000 32) : FVec F S100000x64 .f32 :=
  Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (dstOf ei)) (Host.gather gather_S5000x64_S1000000x1_S1000000x64_1_0_n_n_0_1_164 x (broadcastInDim S1000000x1 ![0] bcast_S1000000_S1000000x1_0 (select (cmpi .slt (srcOf ei) (broadcastInDim S1000000 ![] bcast_S_S1000000 (constantI S_ 32 0#32))) (addi (srcOf ei) (broadcastInDim S1000000 ![] bcast_S_S1000000 (constantI S_ 32 5000#32))) (srcOf ei))))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (dstOf ei)) (broadcastInDim S1000000 ![] bcast_S_S1000000 (constant S_ .f32 0x3F800000#32))) (broadcastInDim S100000 ![] bcast_S_S100000 (constant S_ .f32 0x3F800000#32)))))

/-- The news rows gathered by the edges of type ant and averaged per ticker. -/
def aggAnt (x : FVec F S100000x128 .f32) (ei : IVec S2x1000000 32) : FVec F S5000x128 .f32 :=
  Host.divf (Host.scatterAdd scatter_S5000x128_S1000000x1_S1000000x128_1_0_0_1 (broadcastInDim S5000x128 ![] bcast_S_S5000x128 (constant S_ .f32 0x00000000#32)) (broadcastInDim S1000000x1 ![0] bcast_S1000000_S1000000x1_0 (dstOf ei)) (Host.gather gather_S100000x128_S1000000x1_S1000000x128_1_0_n_n_0_1_1128 x (broadcastInDim S1000000x1 ![0] bcast_S1000000_S1000000x1_0 (select (cmpi .slt (srcOf ei) (broadcastInDim S1000000 ![] bcast_S_S1000000 (constantI S_ 32 0#32))) (addi (srcOf ei) (broadcastInDim S1000000 ![] bcast_S_S1000000 (constantI S_ 32 100000#32))) (srcOf ei))))) (broadcastInDim S5000x128 ![0, 1] bcast_S5000x1_S5000x128_0_1 (broadcastInDim S5000x1 ![0] bcast_S5000_S5000x1_0 (maximumf (Host.scatterAdd scatter_S5000_S1000000x1_S1000000_n_0_0_1 (broadcastInDim S5000 ![] bcast_S_S5000 (constant S_ .f32 0x00000000#32)) (broadcastInDim S1000000x1 ![0] bcast_S1000000_S1000000x1_0 (dstOf ei)) (broadcastInDim S1000000 ![] bcast_S_S1000000 (constant S_ .f32 0x3F800000#32))) (broadcastInDim S5000 ![] bcast_S_S5000 (constant S_ .f32 0x3F800000#32)))))

/-- The mutual-fund rows gathered by the edges of type rmt and averaged per ticker. -/
def aggRmt (x : FVec F S30000x64 .f32) (ei : IVec S2x1000000 32) : FVec F S5000x64 .f32 :=
  Host.divf (Host.scatterAdd scatter_S5000x64_S1000000x1_S1000000x64_1_0_0_1 (broadcastInDim S5000x64 ![] bcast_S_S5000x64 (constant S_ .f32 0x00000000#32)) (broadcastInDim S1000000x1 ![0] bcast_S1000000_S1000000x1_0 (dstOf ei)) (Host.gather gather_S30000x64_S1000000x1_S1000000x64_1_0_n_n_0_1_164 x (broadcastInDim S1000000x1 ![0] bcast_S1000000_S1000000x1_0 (select (cmpi .slt (srcOf ei) (broadcastInDim S1000000 ![] bcast_S_S1000000 (constantI S_ 32 0#32))) (addi (srcOf ei) (broadcastInDim S1000000 ![] bcast_S_S1000000 (constantI S_ 32 30000#32))) (srcOf ei))))) (broadcastInDim S5000x64 ![0, 1] bcast_S5000x1_S5000x64_0_1 (broadcastInDim S5000x1 ![0] bcast_S5000_S5000x1_0 (maximumf (Host.scatterAdd scatter_S5000_S1000000x1_S1000000_n_0_0_1 (broadcastInDim S5000 ![] bcast_S_S5000 (constant S_ .f32 0x00000000#32)) (broadcastInDim S1000000x1 ![0] bcast_S1000000_S1000000x1_0 (dstOf ei)) (broadcastInDim S1000000 ![] bcast_S_S1000000 (constant S_ .f32 0x3F800000#32))) (broadcastInDim S5000 ![] bcast_S_S5000 (constant S_ .f32 0x3F800000#32)))))

/-- The institution rows gathered by the edges of type rit and averaged per ticker. -/
def aggRit (x : FVec F S20000x64 .f32) (ei : IVec S2x1000000 32) : FVec F S5000x64 .f32 :=
  Host.divf (Host.scatterAdd scatter_S5000x64_S1000000x1_S1000000x64_1_0_0_1 (broadcastInDim S5000x64 ![] bcast_S_S5000x64 (constant S_ .f32 0x00000000#32)) (broadcastInDim S1000000x1 ![0] bcast_S1000000_S1000000x1_0 (dstOf ei)) (Host.gather gather_S20000x64_S1000000x1_S1000000x64_1_0_n_n_0_1_164 x (broadcastInDim S1000000x1 ![0] bcast_S1000000_S1000000x1_0 (select (cmpi .slt (srcOf ei) (broadcastInDim S1000000 ![] bcast_S_S1000000 (constantI S_ 32 0#32))) (addi (srcOf ei) (broadcastInDim S1000000 ![] bcast_S_S1000000 (constantI S_ 32 20000#32))) (srcOf ei))))) (broadcastInDim S5000x64 ![0, 1] bcast_S5000x1_S5000x64_0_1 (broadcastInDim S5000x1 ![0] bcast_S5000_S5000x1_0 (maximumf (Host.scatterAdd scatter_S5000_S1000000x1_S1000000_n_0_0_1 (broadcastInDim S5000 ![] bcast_S_S5000 (constant S_ .f32 0x00000000#32)) (broadcastInDim S1000000x1 ![0] bcast_S1000000_S1000000x1_0 (dstOf ei)) (broadcastInDim S1000000 ![] bcast_S_S1000000 (constant S_ .f32 0x3F800000#32))) (broadcastInDim S5000 ![] bcast_S_S5000 (constant S_ .f32 0x3F800000#32)))))

end Cert.KernelIdeal.Whole

end
-- ==== Proof.FoldReads.lean ====
/-
  Reading buffers back through the run.

  The program is four tiled regions among four stretches of host operations. The contents of every buffer at the
  boundaries of these eight segments are a fold from the launch memory: a stretch rewrites the buffers its operations
  write and keeps the rest; a region rewrites the array of its output window and keeps the rest, its input arrays
  included. Here that fold is read at the buffers the regions use:

  * each region's result array is written by its own region and by nothing after it, so at the end of the run it
    holds what the region's write-backs left;
  * each input array of a region, at the region's entry, is either an argument of the program, untouched since the
    launch, or the value of the host operations of the stretch just before the region applied to arguments: a
    neighbour mean over an edge list, a row vector reshaped to one row, a sum of three weight matrices or bias rows.
-/
import proofs.«137150_j26774826123587_1_alg».proof.Proof.Gen.KernelIdeal.Frame
import proofs.«137150_j26774826123587_1_alg».proof.Proof.AggTerms
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Keep
variable {F : FTy → Type} [FloatOps F]

/-- The references stretch 0 of host operations writes, in order. -/
def writes0 : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23]

theorem writes0_sub : (hostOps0 : List (HloOp τ sig (Elt F))).Forall fun op =>
    op.writes ⊆ (writes0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals (rw [Finset.singleton_subset_iff, List.mem_toFinset]; exact List.mem_map_of_mem (by decide))

/-- A reference stretch 0 does not write holds after it what it held before. -/
theorem keep0 (V : Valuation τ sig (Elt F)) (r : Ref sig .tc) (hr : r ∉ writes0) :
    StableHlo.after hostOps0 V (Proc.devRef .tc r) = V (Proc.devRef .tc r) :=
  StableHlo.after_of_writes_sub hostOps0 V writes0_sub hr

/-- The references stretch 1 of host operations writes, in order. -/
def writes1 : List (Ref sig .tc) := [main_v25, main_v26, main_v27, main_v28, main_c_4, main_v29, main_v30, main_c_5, main_v31, main_v32, main_v33, main_v34, main_v35, main_cst_6, main_v36, main_v37, main_v38, main_cst_7, main_v39, main_cst_8, main_v40, main_v41, main_v42, main_cst_9, main_v43, main_v44, main_v45, main_v46, main_v47, main_v48]

theorem writes1_sub : (hostOps1 : List (HloOp τ sig (Elt F))).Forall fun op =>
    op.writes ⊆ (writes1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals (rw [Finset.singleton_subset_iff, List.mem_toFinset]; exact List.mem_map_of_mem (by decide))

/-- A reference stretch 1 does not write holds after it what it held before. -/
theorem keep1 (V : Valuation τ sig (Elt F)) (r : Ref sig .tc) (hr : r ∉ writes1) :
    StableHlo.after hostOps1 V (Proc.devRef .tc r) = V (Proc.devRef .tc r) :=
  StableHlo.after_of_writes_sub hostOps1 V writes1_sub hr

/-- The references stretch 2 of host operations writes, in order. -/
def writes2 : List (Ref sig .tc) := [main_v50, main_v51, main_v52, main_v53, main_c_10, main_v54, main_v55, main_c_11, main_v56, main_v57, main_v58, main_v59, main_v60, main_cst_12, main_v61, main_v62, main_v63, main_cst_13, main_v64, main_cst_14, main_v65, main_v66, main_v67, main_cst_15, main_v68, main_v69, main_v70, main_v71, main_v72, main_v73]

theorem writes2_sub : (hostOps2 : List (HloOp τ sig (Elt F))).Forall fun op =>
    op.writes ⊆ (writes2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals (rw [Finset.singleton_subset_iff, List.mem_toFinset]; exact List.mem_map_of_mem (by decide))

/-- A reference stretch 2 does not write holds after it what it held before. -/
theorem keep2 (V : Valuation τ sig (Elt F)) (r : Ref sig .tc) (hr : r ∉ writes2) :
    StableHlo.after hostOps2 V (Proc.devRef .tc r) = V (Proc.devRef .tc r) :=
  StableHlo.after_of_writes_sub hostOps2 V writes2_sub hr

/-- The references stretch 3 of host operations writes, in order. -/
def writes3 : List (Ref sig .tc) := [main_v75, main_v76, main_v77, main_v78, main_c_16, main_v79, main_v80, main_c_17, main_v81, main_v82, main_v83, main_v84, main_v85, main_cst_18, main_v86, main_v87, main_v88, main_cst_19, main_v89, main_cst_20, main_v90, main_v91, main_v92, main_cst_21, main_v93, main_v94, main_v95, main_v96, main_v97, main_v98, main_v99, main_v100, main_v101, main_c_22, main_v102, main_v103, main_c_23, main_v104, main_v105, main_v106, main_v107, main_v108, main_cst_24, main_v109, main_v110, main_v111, main_cst_25, main_v112, main_cst_26, main_v113, main_v114, main_v115, main_cst_27, main_v116, main_v117, main_v118, main_v119, main_v120, main_v121, main_v122, main_v123, main_v124, main_c_28, main_v125, main_v126, main_c_29, main_v127, main_v128, main_v129, main_v130, main_v131, main_cst_30, main_v132, main_v133, main_v134, main_cst_31, main_v135, main_cst_32, main_v136, main_v137, main_v138, main_cst_33, main_v139, main_v140, main_v141, main_v142, main_v143, main_v144, main_v145, main_v146, main_v147, main_v148]

set_option maxHeartbeats 4000000 in
theorem writes3_sub : (hostOps3 : List (HloOp τ sig (Elt F))).Forall fun op =>
    op.writes ⊆ (writes3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals (rw [Finset.singleton_subset_iff, List.mem_toFinset]; exact List.mem_map_of_mem (by decide))

/-- A reference stretch 3 does not write holds after it what it held before. -/
theorem keep3 (V : Valuation τ sig (Elt F)) (r : Ref sig .tc) (hr : r ∉ writes3) :
    StableHlo.after hostOps3 V (Proc.devRef .tc r) = V (Proc.devRef .tc r) :=
  StableHlo.after_of_writes_sub hostOps3 V writes3_sub hr

end Keep

variable (m : (ℓ : Loc nD τ sig) → Buf (Elt Ideal) ℓ) (ρ : Dev nD → PrngReg)

/-! ## Region 0's input arrays at its entry -/

/-- Window 0: the mean of the ticker rows over the edges of type hit, per institution. -/
theorem in0_0 (c : Dev nD) : (V1 m ρ c (Pipeline.arrRef spec0 0) : FVec Ideal S20000x64 .f32)
    = aggHit (F := Ideal) (m ((c : Thread nD τ).loc main_arg0)) (m ((c : Thread nD τ).loc main_arg4)) := by
  show StableHlo.after hostOps0 (W0 m ρ c) (Proc.devRef .tc main_v22) = _
  dsimp only [hostOps0]
  after_results_simp
  unfold aggHit srcOf dstOf
  rfl

/-- Window 1: the institution rows, as launched. -/
theorem in0_1 (c : Dev nD) : V1 m ρ c (Pipeline.arrRef spec0 1) = m ((c : Thread nD τ).loc main_arg1) :=
  keep0 (W0 m ρ c) main_arg1 (by decide)

/-- Window 2: a weight matrix, as launched. -/
theorem in0_2 (c : Dev nD) : V1 m ρ c (Pipeline.arrRef spec0 2) = m ((c : Thread nD τ).loc main_arg10) :=
  keep0 (W0 m ρ c) main_arg10 (by decide)

/-- Window 3: a weight matrix, as launched. -/
theorem in0_3 (c : Dev nD) : V1 m ρ c (Pipeline.arrRef spec0 3) = m ((c : Thread nD τ).loc main_arg12) :=
  keep0 (W0 m ρ c) main_arg12 (by decide)

/-- Window 4: the bias vector as one row. -/
theorem in0_4 (c : Dev nD) : V1 m ρ c (Pipeline.arrRef spec0 4)
    = shapeCast S1x64 (m ((c : Thread nD τ).loc main_arg11)) shapeCasts_S64_S1x64 := by
  show StableHlo.after hostOps0 (W0 m ρ c) (Proc.devRef .tc main_v23) = _
  dsimp only [hostOps0]
  after_results_simp
  rfl

/-! ## The result arrays at the end of the run -/

/-- Region 0's result array is written by region 0 only. -/
theorem out_v24 (c : Dev nD) : W8 m ρ c (Proc.devRef .tc main_v24) = (dat0 (V1 m ρ) c).arrAt 5 cfg0.N :=
  calc W8 m ρ c (Proc.devRef .tc main_v24)
    _ = W7 m ρ c (Proc.devRef .tc main_v24) := W8_of_ne m ρ c main_v24 (by decide)
    _ = W6 m ρ c (Proc.devRef .tc main_v24) := keep3 (W6 m ρ c) main_v24 (by decide)
    _ = W5 m ρ c (Proc.devRef .tc main_v24) := W6_of_ne m ρ c main_v24 (by decide)
    _ = W4 m ρ c (Proc.devRef .tc main_v24) := keep2 (W4 m ρ c) main_v24 (by decide)
    _ = W3 m ρ c (Proc.devRef .tc main_v24) := W4_of_ne m ρ c main_v24 (by decide)
    _ = W2 m ρ c (Proc.devRef .tc main_v24) := keep1 (W2 m ρ c) main_v24 (by decide)
    _ = (dat0 (V1 m ρ) c).arrAt 5 cfg0.N := W2_arr m ρ c 5

/-- Region 1's result array is written by region 1 only. -/
theorem out_v49 (c : Dev nD) : W8 m ρ c (Proc.devRef .tc main_v49) = (dat1 (V3 m ρ) c).arrAt 5 cfg1.N :=
  calc W8 m ρ c (Proc.devRef .tc main_v49)
    _ = W7 m ρ c (Proc.devRef .tc main_v49) := W8_of_ne m ρ c main_v49 (by decide)
    _ = W6 m ρ c (Proc.devRef .tc main_v49) := keep3 (W6 m ρ c) main_v49 (by decide)
    _ = W5 m ρ c (Proc.devRef .tc main_v49) := W6_of_ne m ρ c main_v49 (by decide)
    _ = W4 m ρ c (Proc.devRef .tc main_v49) := keep2 (W4 m ρ c) main_v49 (by decide)
    _ = (dat1 (V3 m ρ) c).arrAt 5 cfg1.N := W4_arr m ρ c 5

/-- Region 2's result array is written by region 2 only. -/
theorem out_v74 (c : Dev nD) : W8 m ρ c (Proc.devRef .tc main_v74) = (dat2 (V5 m ρ) c).arrAt 5 cfg2.N :=
  calc W8 m ρ c (Proc.devRef .tc main_v74)
    _ = W7 m ρ c (Proc.devRef .tc main_v74) := W8_of_ne m ρ c main_v74 (by decide)
    _ = W6 m ρ c (Proc.devRef .tc main_v74) := keep3 (W6 m ρ c) main_v74 (by decide)
    _ = (dat2 (V5 m ρ) c).arrAt 5 cfg2.N := W6_arr m ρ c 5

/-- Region 3's result array is the last thing the run writes. -/
theorem out_v149 (c : Dev nD) : W8 m ρ c (Proc.devRef .tc main_v149) = (dat3 (V7 m ρ) c).arrAt 9 cfg3.N :=
  W8_arr m ρ c 9

/-! ## A region keeps every array but its result

An input window's array is never written back, so the region leaves it as it found it; a buffer that is no window's
array is not the region's to touch. Either way a buffer other than the region's result array holds after the region
what it held before. -/

theorem isIn0 : ∀ w : Fin 6, Pipeline.arrRef spec0 w ≠ main_v24 → (win0 w).isOut = false := by decide
theorem isIn1 : ∀ w : Fin 6, Pipeline.arrRef spec1 w ≠ main_v49 → (win1 w).isOut = false := by decide
theorem isIn2 : ∀ w : Fin 6, Pipeline.arrRef spec2 w ≠ main_v74 → (win2 w).isOut = false := by decide

theorem W2_keep (c : Dev nD) (r : Ref sig .tc) (h : r ≠ main_v24) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (isIn0 w h) _).trans (A_eq0 (V1 m ρ) c w))
  · exact W2_of_ne m ρ c r fun w e => hr ⟨w, e⟩

theorem W4_keep (c : Dev nD) (r : Ref sig .tc) (h : r ≠ main_v49) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (isIn1 w h) _).trans (A_eq1 (V3 m ρ) c w))
  · exact W4_of_ne m ρ c r fun w e => hr ⟨w, e⟩

theorem W6_keep (c : Dev nD) (r : Ref sig .tc) (h : r ≠ main_v74) :
    W6 m ρ c (Proc.devRef .tc r) = W5 m ρ c (Proc.devRef .tc r) := by
  by_cases hr : ∃ w, Pipeline.arrRef spec2 w = r
  · obtain ⟨w, rfl⟩ := hr
    exact (W6_arr m ρ c w).trans (((dat2 (V5 m ρ) c).arrAt_in w (isIn2 w h) _).trans (A_eq2 (V5 m ρ) c w))
  · exact W6_of_ne m ρ c r fun w e => hr ⟨w, e⟩

/-! ## A buffer nothing has touched yet holds its launch contents

The references touched before each boundary: what the stretches so far write and the result arrays of the regions so
far. A reference outside the list holds at that boundary what the launch memory holds. -/

def touched2 : List (Ref sig .tc) := main_v24 :: writes0
def touched3 : List (Ref sig .tc) := writes1 ++ touched2
def touched4 : List (Ref sig .tc) := main_v49 :: touched3
def touched5 : List (Ref sig .tc) := writes2 ++ touched4
def touched6 : List (Ref sig .tc) := main_v74 :: touched5
def touched7 : List (Ref sig .tc) := writes3 ++ touched6

theorem W1_of (c : Dev nD) (r : Ref sig .tc) (h : r ∉ writes0) :
    W1 m ρ c (Proc.devRef .tc r) = m ((c : Thread nD τ).loc r) := keep0 (W0 m ρ c) r h

theorem W2_of (c : Dev nD) (r : Ref sig .tc) (h : r ∉ touched2) :
    W2 m ρ c (Proc.devRef .tc r) = m ((c : Thread nD τ).loc r) :=
  (W2_keep m ρ c r fun e => h (List.mem_cons.mpr (Or.inl e))).trans
    (W1_of m ρ c r fun e => h (List.mem_cons.mpr (Or.inr e)))

theorem W3_of (c : Dev nD) (r : Ref sig .tc) (h : r ∉ touched3) :
    W3 m ρ c (Proc.devRef .tc r) = m ((c : Thread nD τ).loc r) :=
  (keep1 (W2 m ρ c) r fun e => h (List.mem_append_left _ e)).trans
    (W2_of m ρ c r fun e => h (List.mem_append_right _ e))

theorem W4_of (c : Dev nD) (r : Ref sig .tc) (h : r ∉ touched4) :
    W4 m ρ c (Proc.devRef .tc r) = m ((c : Thread nD τ).loc r) :=
  (W4_keep m ρ c r fun e => h (List.mem_cons.mpr (Or.inl e))).trans
    (W3_of m ρ c r fun e => h (List.mem_cons.mpr (Or.inr e)))

theorem W5_of (c : Dev nD) (r : Ref sig .tc) (h : r ∉ touched5) :
    W5 m ρ c (Proc.devRef .tc r) = m ((c : Thread nD τ).loc r) :=
  (keep2 (W4 m ρ c) r fun e => h (List.mem_append_left _ e)).trans
    (W4_of m ρ c r fun e => h (List.mem_append_right _ e))

theorem W6_of (c : Dev nD) (r : Ref sig .tc) (h : r ∉ touched6) :
    W6 m ρ c (Proc.devRef .tc r) = m ((c : Thread nD τ).loc r) :=
  (W6_keep m ρ c r fun e => h (List.mem_cons.mpr (Or.inl e))).trans
    (W5_of m ρ c r fun e => h (List.mem_cons.mpr (Or.inr e)))

theorem W7_of (c : Dev nD) (r : Ref sig .tc) (h : r ∉ touched7) :
    W7 m ρ c (Proc.devRef .tc r) = m ((c : Thread nD τ).loc r) :=
  (keep3 (W6 m ρ c) r fun e => h (List.mem_append_left _ e)).trans
    (W6_of m ρ c r fun e => h (List.mem_append_right _ e))

/-! ## Region 1's input arrays at its entry -/

/-- Window 0: the mean of the ticker rows over the edges of type hmt, per mutual fund. -/
theorem in1_0 (c : Dev nD) : (V3 m ρ c (Pipeline.arrRef spec1 0) : FVec Ideal S30000x64 .f32)
    = aggHmt (F := Ideal) (m ((c : Thread nD τ).loc main_arg0)) (m ((c : Thread nD τ).loc main_arg5)) := by
  show StableHlo.after hostOps1 (W2 m ρ c) (Proc.devRef .tc main_v47) = _
  dsimp only [hostOps1]
  after_results_simp
  rw [W2_of m ρ c main_arg0 (by decide), W2_of m ρ c main_arg5 (by decide)]
  unfold aggHmt srcOf dstOf
  rfl

/-- Window 1: the mutual-fund rows, as launched. -/
theorem in1_1 (c : Dev nD) : V3 m ρ c (Pipeline.arrRef spec1 1) = m ((c : Thread nD τ).loc main_arg2) :=
  W3_of m ρ c main_arg2 (by decide)

/-- Window 2: a weight matrix, as launched. -/
theorem in1_2 (c : Dev nD) : V3 m ρ c (Pipeline.arrRef spec1 2) = m ((c : Thread nD τ).loc main_arg13) :=
  W3_of m ρ c main_arg13 (by decide)

/-- Window 3: a weight matrix, as launched. -/
theorem in1_3 (c : Dev nD) : V3 m ρ c (Pipeline.arrRef spec1 3) = m ((c : Thread nD τ).loc main_arg15) :=
  W3_of m ρ c main_arg15 (by decide)

/-- Window 4: the bias vector as one row. -/
theorem in1_4 (c : Dev nD) : V3 m ρ c (Pipeline.arrRef spec1 4)
    = shapeCast S1x64 (m ((c : Thread nD τ).loc main_arg14)) shapeCasts_S64_S1x64 := by
  show StableHlo.after hostOps1 (W2 m ρ c) (Proc.devRef .tc main_v48) = _
  dsimp only [hostOps1]
  after_results_simp
  rw [W2_of m ρ c main_arg14 (by decide)]
  rfl

/-! ## Region 2's input arrays at its entry -/

/-- Window 0: the mean of the ticker rows over the edges of type ran, per news item. -/
theorem in2_0 (c : Dev nD) : (V5 m ρ c (Pipeline.arrRef spec2 0) : FVec Ideal S100000x64 .f32)
    = aggRan (F := Ideal) (m ((c : Thread nD τ).loc main_arg0)) (m ((c : Thread nD τ).loc main_arg9)) := by
  show StableHlo.after hostOps2 (W4 m ρ c) (Proc.devRef .tc main_v72) = _
  dsimp only [hostOps2]
  after_results_simp
  rw [W4_of m ρ c main_arg0 (by decide), W4_of m ρ c main_arg9 (by decide)]
  unfold aggRan srcOf dstOf
  rfl

/-- Window 1: the news rows, as launched. -/
theorem in2_1 (c : Dev nD) : V5 m ρ c (Pipeline.arrRef spec2 1) = m ((c : Thread nD τ).loc main_arg3) :=
  W5_of m ρ c main_arg3 (by decide)

/-- Window 2: a weight matrix, as launched. -/
theorem in2_2 (c : Dev nD) : V5 m ρ c (Pipeline.arrRef spec2 2) = m ((c : Thread nD τ).loc main_arg25) :=
  W5_of m ρ c main_arg25 (by decide)

/-- Window 3: a weight matrix, as launched. -/
theorem in2_3 (c : Dev nD) : V5 m ρ c (Pipeline.arrRef spec2 3) = m ((c : Thread nD τ).loc main_arg27) :=
  W5_of m ρ c main_arg27 (by decide)

/-- Window 4: the bias vector as one row. -/
theorem in2_4 (c : Dev nD) : V5 m ρ c (Pipeline.arrRef spec2 4)
    = shapeCast S1x64 (m ((c : Thread nD τ).loc main_arg26)) shapeCasts_S64_S1x64 := by
  show StableHlo.after hostOps2 (W4 m ρ c) (Proc.devRef .tc main_v73) = _
  dsimp only [hostOps2]
  after_results_simp
  rw [W4_of m ρ c main_arg26 (by decide)]
  rfl

/-! ## Region 3's input arrays at its entry -/

set_option maxHeartbeats 4000000 in
/-- Window 0: the mean of the news rows over the edges of type ant, per ticker. -/
theorem in3_0 (c : Dev nD) : (V7 m ρ c (Pipeline.arrRef spec3 0) : FVec Ideal S5000x128 .f32)
    = aggAnt (F := Ideal) (m ((c : Thread nD τ).loc main_arg3)) (m ((c : Thread nD τ).loc main_arg6)) := by
  show StableHlo.after hostOps3 (W6 m ρ c) (Proc.devRef .tc main_v97) = _
  dsimp only [hostOps3]
  after_results_simp
  rw [W6_of m ρ c main_arg3 (by decide), W6_of m ρ c main_arg6 (by decide)]
  unfold aggAnt srcOf dstOf
  rfl

set_option maxHeartbeats 4000000 in
/-- Window 1: the mean of the mutual-fund rows over the edges of type rmt, per ticker. -/
theorem in3_1 (c : Dev nD) : (V7 m ρ c (Pipeline.arrRef spec3 1) : FVec Ideal S5000x64 .f32)
    = aggRmt (F := Ideal) (m ((c : Thread nD τ).loc main_arg2)) (m ((c : Thread nD τ).loc main_arg7)) := by
  show StableHlo.after hostOps3 (W6 m ρ c) (Proc.devRef .tc main_v120) = _
  dsimp only [hostOps3]
  after_results_simp
  rw [W6_of m ρ c main_arg2 (by decide), W6_of m ρ c main_arg7 (by decide)]
  unfold aggRmt srcOf dstOf
  rfl

set_option maxHeartbeats 4000000 in
/-- Window 2: the mean of the institution rows over the edges of type rit, per ticker. -/
theorem in3_2 (c : Dev nD) : (V7 m ρ c (Pipeline.arrRef spec3 2) : FVec Ideal S5000x64 .f32)
    = aggRit (F := Ideal) (m ((c : Thread nD τ).loc main_arg1)) (m ((c : Thread nD τ).loc main_arg8)) := by
  show StableHlo.after hostOps3 (W6 m ρ c) (Proc.devRef .tc main_v143) = _
  dsimp only [hostOps3]
  after_results_simp
  rw [W6_of m ρ c main_arg1 (by decide), W6_of m ρ c main_arg8 (by decide)]
  unfold aggRit srcOf dstOf
  rfl

/-- Window 3: the ticker rows, as launched. -/
theorem in3_3 (c : Dev nD) : V7 m ρ c (Pipeline.arrRef spec3 3) = m ((c : Thread nD τ).loc main_arg0) :=
  W7_of m ρ c main_arg0 (by decide)

/-- Window 4: a weight matrix, as launched. -/
theorem in3_4 (c : Dev nD) : V7 m ρ c (Pipeline.arrRef spec3 4) = m ((c : Thread nD τ).loc main_arg16) :=
  W7_of m ρ c main_arg16 (by decide)

/-- Window 5: a weight matrix, as launched. -/
theorem in3_5 (c : Dev nD) : V7 m ρ c (Pipeline.arrRef spec3 5) = m ((c : Thread nD τ).loc main_arg19) :=
  W7_of m ρ c main_arg19 (by decide)

/-- Window 6: a weight matrix, as launched. -/
theorem in3_6 (c : Dev nD) : V7 m ρ c (Pipeline.arrRef spec3 6) = m ((c : Thread nD τ).loc main_arg22) :=
  W7_of m ρ c main_arg22 (by decide)

set_option maxHeartbeats 4000000 in
/-- Window 7: the sum of the three self-weight matrices. -/
theorem in3_7 (c : Dev nD) : V7 m ρ c (Pipeline.arrRef spec3 7)
    = addf (F := Ideal) (s := S64x64) (φ := .f32) (addf (m ((c : Thread nD τ).loc main_arg18)) (m ((c : Thread nD τ).loc main_arg21))) (m ((c : Thread nD τ).loc main_arg24)) := by
  show StableHlo.after hostOps3 (W6 m ρ c) (Proc.devRef .tc main_v145) = _
  dsimp only [hostOps3]
  after_results_simp
  rw [W6_of m ρ c main_arg18 (by decide), W6_of m ρ c main_arg21 (by decide), W6_of m ρ c main_arg24 (by decide)]

set_option maxHeartbeats 4000000 in
/-- Window 8: the sum of the three bias vectors as one row. -/
theorem in3_8 (c : Dev nD) : V7 m ρ c (Pipeline.arrRef spec3 8)
    = shapeCast S1x64 (addf (F := Ideal) (s := S64) (φ := .f32) (addf (m ((c : Thread nD τ).loc main_arg17)) (m ((c : Thread nD τ).loc main_arg20))) (m ((c : Thread nD τ).loc main_arg23))) shapeCasts_S64_S1x64 := by
  show StableHlo.after hostOps3 (W6 m ρ c) (Proc.devRef .tc main_v148) = _
  dsimp only [hostOps3]
  after_results_simp
  rw [W6_of m ρ c main_arg17 (by decide), W6_of m ρ c main_arg20 (by decide), W6_of m ρ c main_arg23 (by decide)]
  rfl

end Cert.KernelIdeal.Fold

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibSageTripleLaw.lean ====
/-
  The law that joins the three-edge-type stage with the sum of three one-edge-type stages.

  The program adds the three right-hand weight tables R₁ + R₂ + R₃ and the three bias vectors before its one product
  x · R; the plain array program computes x · R₁, x · R₂, x · R₃ separately, each inside its own stage
  (A · W + b) + x · R, and adds the three stages. Entry by entry the two agree by
      Σₖ x k · ((R₁ k + R₂ k) + R₃ k) = (Σₖ x k · R₁ k + Σₖ x k · R₂ k) + Σₖ x k · R₃ k,
  which is distributivity under the sum. On the extended reals distributivity fails at infinite values
  (∞ · (1 + (−1)) is 0 while ∞ · 1 + ∞ · (−1) is not), so this step takes x and the three tables to have real
  entries. Everything else is a regrouping of a sum, which holds for all extended reals: the neighbour means and the
  left weight tables are not assumed finite.
-/
import Idealize.ShloMosaic.PureOps.Ideal.Laws
import Idealize.ShloMosaic.Lib.Pipeline.Value
import Idealize.ShloMosaic.Lib.ValueIdx
import proofs.«137150_j26774826123587_1_alg».proof.Proof.LibSageStages
import proofs.«137150_j26774826123587_1_alg».proof.Proof.LibHostReads
import proofs.«137150_j26774826123587_1_alg».proof.Proof.LibHostLayout
import proofs.«137150_j26774826123587_1_alg».proof.Proof.LibRealEntries

noncomputable section

open scoped BigOperators

namespace Cert.SageLayers

open Idealize.ShloMosaic Idealize.ShloMosaic.ValueIdx Cert.BlockRows Cert.RowLayers Cert.LibRealEntries

variable {M K1 K2 K3 K N : Nat}

/-- One edge type as a plain array program spells it: (A · W + bias matrix) + X · R, the bias matrix laid out from a
    vector by two broadcasts. -/
def plainStage (h2 : (⟨2, ![1, N]⟩ : Shape).BroadcastsInDim ⟨2, ![M, N]⟩ ![0, 1])
    (h1 : (⟨1, ![N]⟩ : Shape).BroadcastsInDim ⟨2, ![1, N]⟩ ![1])
    (A : FVec Ideal ⟨2, ![M, K1]⟩ .f32) (X : FVec Ideal ⟨2, ![M, K]⟩ .f32)
    (W : FVec Ideal ⟨2, ![K1, N]⟩ .f32) (R : FVec Ideal ⟨2, ![K, N]⟩ .f32) (v : FVec Ideal ⟨1, ![N]⟩ .f32) :
    FVec Ideal ⟨2, ![M, N]⟩ .f32 :=
  addf (addf (propagate A W) (broadcastInDim ⟨2, ![M, N]⟩ ![0, 1] h2 (broadcastInDim ⟨2, ![1, N]⟩ ![1] h1 v))) (propagate X R)

/-- The program's one-edge-type stage, its bias a vector reshaped to a row, is the plain stage. -/
theorem single_eq_plainStage (h2 : (⟨2, ![1, N]⟩ : Shape).BroadcastsInDim ⟨2, ![M, N]⟩ ![0, 1])
    (hs : (⟨1, ![N]⟩ : Shape).ShapeCasts ⟨2, ![1, N]⟩) (h1 : (⟨1, ![N]⟩ : Shape).BroadcastsInDim ⟨2, ![1, N]⟩ ![1])
    (A : FVec Ideal ⟨2, ![M, K1]⟩ .f32) (X : FVec Ideal ⟨2, ![M, K]⟩ .f32)
    (W : FVec Ideal ⟨2, ![K1, N]⟩ .f32) (R : FVec Ideal ⟨2, ![K, N]⟩ .f32) (v : FVec Ideal ⟨1, ![N]⟩ .f32) :
    single h2 A X W R (shapeCast ⟨2, ![1, N]⟩ v hs) = plainStage h2 h1 A X W R v :=
  single_eq_plain h2 hs h1 A X W R v

/-- Entry (r, c) of the plain stage: (Σₖ A(r,k)·W(k,c) + v c) + Σₖ X(r,k)·R(k,c). -/
theorem plainStage_apply (h2 : (⟨2, ![1, N]⟩ : Shape).BroadcastsInDim ⟨2, ![M, N]⟩ ![0, 1])
    (h1 : (⟨1, ![N]⟩ : Shape).BroadcastsInDim ⟨2, ![1, N]⟩ ![1])
    (A : FVec Ideal ⟨2, ![M, K1]⟩ .f32) (X : FVec Ideal ⟨2, ![M, K]⟩ .f32)
    (W : FVec Ideal ⟨2, ![K1, N]⟩ .f32) (R : FVec Ideal ⟨2, ![K, N]⟩ .f32) (v : FVec Ideal ⟨1, ![N]⟩ .f32)
    (r : Fin M) (c : Fin N) :
    plainStage h2 h1 A X W R v (ix2 r c)
      = ((∑ k : Fin K1, A (ix2 r k) * W (ix2 k c)) + v (ix1 c)) + ∑ k : Fin K, X (ix2 r k) * R (ix2 k c) := by
  unfold plainStage propagate
  show (Host.dotGeneral (F := Ideal) (DotDims.plain M K1 N) none A W (ix2 r c) + _) + Host.dotGeneral (F := Ideal) (DotDims.plain M K N) none X R (ix2 r c) = _
  rw [Cert.LibHostReads.dotGeneral_plain_apply, Cert.LibHostReads.dotGeneral_plain_apply, Cert.HostLayout.biasRow_apply]

/-- Entry (r, c) of the three-edge-type stage whose bias is a vector reshaped to a row. -/
theorem triple_apply (h2 : (⟨2, ![1, N]⟩ : Shape).BroadcastsInDim ⟨2, ![M, N]⟩ ![0, 1])
    (hs : (⟨1, ![N]⟩ : Shape).ShapeCasts ⟨2, ![1, N]⟩) (h1 : (⟨1, ![N]⟩ : Shape).BroadcastsInDim ⟨2, ![1, N]⟩ ![1])
    (A1 : FVec Ideal ⟨2, ![M, K1]⟩ .f32) (A2 : FVec Ideal ⟨2, ![M, K2]⟩ .f32) (A3 : FVec Ideal ⟨2, ![M, K3]⟩ .f32)
    (X : FVec Ideal ⟨2, ![M, K]⟩ .f32)
    (W1 : FVec Ideal ⟨2, ![K1, N]⟩ .f32) (W2 : FVec Ideal ⟨2, ![K2, N]⟩ .f32) (W3 : FVec Ideal ⟨2, ![K3, N]⟩ .f32)
    (R : FVec Ideal ⟨2, ![K, N]⟩ .f32) (v : FVec Ideal ⟨1, ![N]⟩ .f32) (r : Fin M) (c : Fin N) :
    triple h2 A1 A2 A3 X W1 W2 W3 R (shapeCast ⟨2, ![1, N]⟩ v hs) (ix2 r c)
      = ((((∑ k : Fin K1, A1 (ix2 r k) * W1 (ix2 k c)) + ∑ k : Fin K2, A2 (ix2 r k) * W2 (ix2 k c))
          + ∑ k : Fin K3, A3 (ix2 r k) * W3 (ix2 k c)) + ∑ k : Fin K, X (ix2 r k) * R (ix2 k c)) + v (ix1 c) := by
  unfold triple propagate rowBias
  rw [reshape_row v hs h1]
  show ((((Host.dotGeneral (F := Ideal) (DotDims.plain M K1 N) none A1 W1 (ix2 r c)
      + Host.dotGeneral (F := Ideal) (DotDims.plain M K2 N) none A2 W2 (ix2 r c))
      + Host.dotGeneral (F := Ideal) (DotDims.plain M K3 N) none A3 W3 (ix2 r c))
      + Host.dotGeneral (F := Ideal) (DotDims.plain M K N) none X R (ix2 r c)) + _) = _
  rw [Cert.LibHostReads.dotGeneral_plain_apply, Cert.LibHostReads.dotGeneral_plain_apply,
    Cert.LibHostReads.dotGeneral_plain_apply, Cert.LibHostReads.dotGeneral_plain_apply, Cert.HostLayout.biasRow_apply]

/-- Distributivity under a sum, for real entries: Σ x·((a + b) + d) = (Σ x·a + Σ x·b) + Σ x·d. -/
theorem sum_mul_add3 {ι : Type} [Fintype ι] (x a b d : ι → EReal)
    (hx : ∀ k, IsReal (x k)) (ha : ∀ k, IsReal (a k)) (hb : ∀ k, IsReal (b k)) (hd : ∀ k, IsReal (d k)) :
    ∑ k, x k * ((a k + b k) + d k) = (∑ k, x k * a k + ∑ k, x k * b k) + ∑ k, x k * d k := by
  rw [← Finset.sum_add_distrib, ← Finset.sum_add_distrib]
  refine Finset.sum_congr rfl fun k _ => ?_
  obtain ⟨x', hx'⟩ := hx k
  obtain ⟨a', ha'⟩ := ha k
  obtain ⟨b', hb'⟩ := hb k
  obtain ⟨d', hd'⟩ := hd k
  rw [hx', ha', hb', hd']
  norm_cast
  ring

/-- THE LAW: the program's three-edge-type stage on summed tables and summed biases is the sum of the three plain
    stages, when the node features and the three right-hand tables have real entries. -/
theorem triple_eq_plain (h2 : (⟨2, ![1, N]⟩ : Shape).BroadcastsInDim ⟨2, ![M, N]⟩ ![0, 1])
    (hs : (⟨1, ![N]⟩ : Shape).ShapeCasts ⟨2, ![1, N]⟩) (h1 : (⟨1, ![N]⟩ : Shape).BroadcastsInDim ⟨2, ![1, N]⟩ ![1])
    (A1 : FVec Ideal ⟨2, ![M, K1]⟩ .f32) (A2 : FVec Ideal ⟨2, ![M, K2]⟩ .f32) (A3 : FVec Ideal ⟨2, ![M, K3]⟩ .f32)
    (X : FVec Ideal ⟨2, ![M, K]⟩ .f32)
    (W1 : FVec Ideal ⟨2, ![K1, N]⟩ .f32) (W2 : FVec Ideal ⟨2, ![K2, N]⟩ .f32) (W3 : FVec Ideal ⟨2, ![K3, N]⟩ .f32)
    (R1 R2 R3 : FVec Ideal ⟨2, ![K, N]⟩ .f32) (b1 b2 b3 : FVec Ideal ⟨1, ![N]⟩ .f32)
    (hX : ∀ i, IsReal (X i)) (hR1 : ∀ i, IsReal (R1 i)) (hR2 : ∀ i, IsReal (R2 i)) (hR3 : ∀ i, IsReal (R3 i)) :
    triple h2 A1 A2 A3 X W1 W2 W3 (addf (addf R1 R2) R3) (shapeCast ⟨2, ![1, N]⟩ (addf (addf b1 b2) b3) hs)
      = addf (addf (plainStage h2 h1 A1 X W1 R1 b1) (plainStage h2 h1 A2 X W2 R2 b2)) (plainStage h2 h1 A3 X W3 R3 b3) := by
  funext i
  obtain ⟨r, c, rfl⟩ : ∃ (r : Fin M) (c : Fin N), i = ix2 r c := ⟨i 0, i 1, eq_ix2 i⟩
  rw [triple_apply h2 hs h1]
  show _ = (plainStage h2 h1 A1 X W1 R1 b1 (ix2 r c) + plainStage h2 h1 A2 X W2 R2 b2 (ix2 r c))
    + plainStage h2 h1 A3 X W3 R3 b3 (ix2 r c)
  rw [plainStage_apply, plainStage_apply, plainStage_apply]
  have hsum : ∑ k : Fin K, X (ix2 r k) * (addf (addf R1 R2) R3) (ix2 k c)
      = (∑ k : Fin K, X (ix2 r k) * R1 (ix2 k c) + ∑ k : Fin K, X (ix2 r k) * R2 (ix2 k c))
        + ∑ k : Fin K, X (ix2 r k) * R3 (ix2 k c) :=
    sum_mul_add3 (fun k => X (ix2 r k)) (fun k => R1 (ix2 k c)) (fun k => R2 (ix2 k c)) (fun k => R3 (ix2 k c))
      (fun k => hX _) (fun k => hR1 _) (fun k => hR2 _) (fun k => hR3 _)
  rw [hsum]
  show _ + ((b1 (ix1 c) + b2 (ix1 c)) + b3 (ix1 c)) = _
  ac_rfl

end Cert.SageLayers

end
-- ==== Proof.Outputs.lean ====
/-
  The four results of the layer, each as one function of the argument arrays.

  Institutions, mutual funds and news items each have one incoming edge type, so their result is one stage
  (mean · Wl + b) + x · Wr over the neighbour mean of the ticker features along that edge type. Tickers have three
  incoming edge types (from news, from mutual funds, from institutions); their result is the sum of the three stages,
  each with its own mean, weights and bias, all three reading the tickers' own features on the right.
  These are the values both programs are shown to end with.
-/
import proofs.«137150_j26774826123587_1_alg».proof.Proof.AggTerms
import proofs.«137150_j26774826123587_1_alg».proof.Proof.LibSageTripleLaw

noncomputable section

namespace Cert.KernelIdeal.Whole

open Cert.KernelIdeal Idealize.ShloMosaic Cert.SageLayers

/-- A vector of 64 entries laid as one row. -/
theorem asRow : (⟨1, ![64]⟩ : Shape).BroadcastsInDim ⟨2, ![1, 64]⟩ ![1] := by decide
theorem down5000 : (⟨2, ![1, 64]⟩ : Shape).BroadcastsInDim ⟨2, ![5000, 64]⟩ ![0, 1] := by decide
theorem down20000 : (⟨2, ![1, 64]⟩ : Shape).BroadcastsInDim ⟨2, ![20000, 64]⟩ ![0, 1] := by decide
theorem down30000 : (⟨2, ![1, 64]⟩ : Shape).BroadcastsInDim ⟨2, ![30000, 64]⟩ ![0, 1] := by decide
theorem down100000 : (⟨2, ![1, 64]⟩ : Shape).BroadcastsInDim ⟨2, ![100000, 64]⟩ ![0, 1] := by decide

/-- The institutions' result: one stage over the mean of ticker rows along the edges of type hit. -/
def outInstitution (xT : FVec Ideal S5000x64 .f32) (xI : FVec Ideal S20000x64 .f32) (ei : IVec S2x1000000 32)
    (Wl Wr : FVec Ideal S64x64 .f32) (b : FVec Ideal S64 .f32) : FVec Ideal S20000x64 .f32 :=
  plainStage down20000 asRow (aggHit xT ei) xI Wl Wr b

/-- The mutual funds' result: one stage over the mean of ticker rows along the edges of type hmt. -/
def outFund (xT : FVec Ideal S5000x64 .f32) (xM : FVec Ideal S30000x64 .f32) (ei : IVec S2x1000000 32)
    (Wl Wr : FVec Ideal S64x64 .f32) (b : FVec Ideal S64 .f32) : FVec Ideal S30000x64 .f32 :=
  plainStage down30000 asRow (aggHmt xT ei) xM Wl Wr b

/-- The news items' result: one stage over the mean of ticker rows along the edges of type ran. -/
def outNews (xT : FVec Ideal S5000x64 .f32) (xN : FVec Ideal S100000x128 .f32) (ei : IVec S2x1000000 32)
    (Wl : FVec Ideal S64x64 .f32) (Wr : FVec Ideal S128x64 .f32) (b : FVec Ideal S64 .f32) : FVec Ideal S100000x64 .f32 :=
  plainStage down100000 asRow (aggRan xT ei) xN Wl Wr b

/-- The tickers' result: the sum of the three stages along the edges of type ant, rmt and rit. -/
def outTicker (xT : FVec Ideal S5000x64 .f32) (xI : FVec Ideal S20000x64 .f32) (xM : FVec Ideal S30000x64 .f32)
    (xN : FVec Ideal S100000x128 .f32) (eiAnt eiRmt eiRit : IVec S2x1000000 32)
    (WlAnt : FVec Ideal S128x64 .f32) (bAnt : FVec Ideal S64 .f32) (WrAnt : FVec Ideal S64x64 .f32)
    (WlRmt : FVec Ideal S64x64 .f32) (bRmt : FVec Ideal S64 .f32) (WrRmt : FVec Ideal S64x64 .f32)
    (WlRit : FVec Ideal S64x64 .f32) (bRit : FVec Ideal S64 .f32) (WrRit : FVec Ideal S64x64 .f32) :
    FVec Ideal S5000x64 .f32 :=
  addf (addf (plainStage down5000 asRow (aggAnt xN eiAnt) xT WlAnt WrAnt bAnt)
             (plainStage down5000 asRow (aggRmt xM eiRmt) xT WlRmt WrRmt bRmt))
       (plainStage down5000 asRow (aggRit xI eiRit) xT WlRit WrRit bRit)

end Cert.KernelIdeal.Whole

end
-- ==== Proof.KernelValues.lean ====
/-
  The idealized kernel program's four results as the output functions of its arguments.

  For each result: the buffer is untouched after its own region; the region leaves there the whole-array stage of
  the arrays it found at entry; those arrays are the arguments, a neighbour mean computed by the host operations
  before the region, or (for the tickers) the sums of three weight tables and three bias vectors; and the stage with
  a reshaped bias vector is the plain stage. For the tickers the last step is the three-edge-type law, which takes
  the ticker features and the three right-hand weight tables to have real entries.
-/
import proofs.«137150_j26774826123587_1_alg».proof.Proof.KernelRun
import proofs.«137150_j26774826123587_1_alg».proof.Proof.Region0
import proofs.«137150_j26774826123587_1_alg».proof.Proof.Region1
import proofs.«137150_j26774826123587_1_alg».proof.Proof.Region2
import proofs.«137150_j26774826123587_1_alg».proof.Proof.Region3
import proofs.«137150_j26774826123587_1_alg».proof.Proof.FoldReads
import proofs.«137150_j26774826123587_1_alg».proof.Proof.Outputs

set_option maxRecDepth 16384

noncomputable section

namespace Cert.KernelIdeal.Whole

open Cert.KernelIdeal Cert.KernelIdeal.Gen Cert.KernelIdeal.Fold
open Idealize.ShloMosaic Idealize.ShloMosaic.TcCoe Idealize.SL.Sem
open Cert.BlockRows Cert.RowLayers Cert.SageLayers Cert.LibRealEntries

variable (m : (ℓ : Loc nD τ sig) → Buf (Elt Ideal) ℓ) (ρ : Dev nD → PrngReg)

/-- The institutions' result buffer after the run. -/
theorem value_v24 (c : Dev nD) : W8 m ρ c (Proc.devRef .tc main_v24)
    = outInstitution (m ((c : Thread nD τ).loc main_arg0)) (m ((c : Thread nD τ).loc main_arg1)) (m ((c : Thread nD τ).loc main_arg4)) (m ((c : Thread nD τ).loc main_arg10)) (m ((c : Thread nD τ).loc main_arg12)) (m ((c : Thread nD τ).loc main_arg11)) := by
  rw [out_v24 m ρ c, final0 (V1 m ρ) c]
  unfold stage0 outInstitution
  rw [in0_0 m ρ c, in0_1 m ρ c, in0_2 m ρ c, in0_3 m ρ c, in0_4 m ρ c]
  exact single_eq_plainStage _ _ asRow _ _ _ _ _

/-- The mutual funds' result buffer after the run. -/
theorem value_v49 (c : Dev nD) : W8 m ρ c (Proc.devRef .tc main_v49)
    = outFund (m ((c : Thread nD τ).loc main_arg0)) (m ((c : Thread nD τ).loc main_arg2)) (m ((c : Thread nD τ).loc main_arg5)) (m ((c : Thread nD τ).loc main_arg13)) (m ((c : Thread nD τ).loc main_arg15)) (m ((c : Thread nD τ).loc main_arg14)) := by
  rw [out_v49 m ρ c, final1 (V3 m ρ) c]
  unfold stage1 outFund
  rw [in1_0 m ρ c, in1_1 m ρ c, in1_2 m ρ c, in1_3 m ρ c, in1_4 m ρ c]
  exact single_eq_plainStage _ _ asRow _ _ _ _ _

/-- The news items' result buffer after the run. -/
theorem value_v74 (c : Dev nD) : W8 m ρ c (Proc.devRef .tc main_v74)
    = outNews (m ((c : Thread nD τ).loc main_arg0)) (m ((c : Thread nD τ).loc main_arg3)) (m ((c : Thread nD τ).loc main_arg9)) (m ((c : Thread nD τ).loc main_arg25)) (m ((c : Thread nD τ).loc main_arg27)) (m ((c : Thread nD τ).loc main_arg26)) := by
  rw [out_v74 m ρ c, final2 (V5 m ρ) c]
  unfold stage2 outNews
  rw [in2_0 m ρ c, in2_1 m ρ c, in2_2 m ρ c, in2_3 m ρ c, in2_4 m ρ c]
  exact single_eq_plainStage _ _ asRow _ _ _ _ _

/-- The tickers' result buffer after the run, when the ticker features and the three right-hand weight tables
    have real entries. -/
theorem value_v149 (c : Dev nD)
    (hX : ∀ i, IsReal ((m ((c : Thread nD τ).loc main_arg0)) i)) (hR1 : ∀ i, IsReal ((m ((c : Thread nD τ).loc main_arg18)) i))
    (hR2 : ∀ i, IsReal ((m ((c : Thread nD τ).loc main_arg21)) i)) (hR3 : ∀ i, IsReal ((m ((c : Thread nD τ).loc main_arg24)) i)) :
    W8 m ρ c (Proc.devRef .tc main_v149)
    = outTicker (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))
        (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  rw [out_v149 m ρ c, final3 (V7 m ρ) c]
  unfold stage3 outTicker
  rw [in3_0 m ρ c, in3_1 m ρ c, in3_2 m ρ c, in3_3 m ρ c, in3_4 m ρ c, in3_5 m ρ c, in3_6 m ρ c, in3_7 m ρ c, in3_8 m ρ c]
  exact triple_eq_plain _ _ asRow _ _ _ _ _ _ _ _ _ _ _ _ _ hX hR1 hR2 hR3

end Cert.KernelIdeal.Whole

end
-- ==== Proof.RefValues.lean ====
/-
  The reference program's four results as the output functions of its arguments.

  The reference's run is read back operation by operation into one composed term per result. Each term is, literally,
  the plain stage (mean · Wl + bias) + x · Wr over the neighbour mean spelled out in full (for the tickers the sum of
  three such stages), so each equation below only folds the definitions back: nothing is computed and the gathers and
  scatters inside the means are never opened.
-/
import proofs.«137150_j26774826123587_1_alg».proof.Proof.Gen.ReferenceIdeal.Run
import proofs.«137150_j26774826123587_1_alg».proof.Proof.Outputs

set_option maxRecDepth 8192

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Cert.KernelIdeal.Whole Cert.SageLayers Cert.BlockRows

variable (V0 : Valuation τ sig (Elt Ideal))

/-- The institutions' result. -/
theorem institution : val4 V0 (Proc.devRef .tc main_v28)
    = outInstitution (V0 (Proc.devRef .tc main_arg0)) (V0 (Proc.devRef .tc main_arg1)) (V0 (Proc.devRef .tc main_arg4)) (V0 (Proc.devRef .tc main_arg10)) (V0 (Proc.devRef .tc main_arg12)) (V0 (Proc.devRef .tc main_arg11)) := by
  rw [val4_main_v28]
  unfold outInstitution plainStage propagate aggHit srcOf dstOf res_main_v1 res_main_v3
  rfl

/-- The mutual funds' result. -/
theorem fund : val4 V0 (Proc.devRef .tc main_v57)
    = outFund (V0 (Proc.devRef .tc main_arg0)) (V0 (Proc.devRef .tc main_arg2)) (V0 (Proc.devRef .tc main_arg5)) (V0 (Proc.devRef .tc main_arg13)) (V0 (Proc.devRef .tc main_arg15)) (V0 (Proc.devRef .tc main_arg14)) := by
  rw [val4_main_v57]
  unfold outFund plainStage propagate aggHmt srcOf dstOf res_main_v30 res_main_v32
  rfl

/-- The news items' result. -/
theorem news : val4 V0 (Proc.devRef .tc main_v175)
    = outNews (V0 (Proc.devRef .tc main_arg0)) (V0 (Proc.devRef .tc main_arg3)) (V0 (Proc.devRef .tc main_arg9)) (V0 (Proc.devRef .tc main_arg25)) (V0 (Proc.devRef .tc main_arg27)) (V0 (Proc.devRef .tc main_arg26)) := by
  rw [val4_main_v175]
  unfold outNews plainStage propagate aggRan srcOf dstOf res_main_v148 res_main_v150
  rfl

/-- The tickers' result. -/
theorem ticker : res_main_v146 V0
    = outTicker (V0 (Proc.devRef .tc main_arg0)) (V0 (Proc.devRef .tc main_arg1)) (V0 (Proc.devRef .tc main_arg2)) (V0 (Proc.devRef .tc main_arg3)) (V0 (Proc.devRef .tc main_arg6)) (V0 (Proc.devRef .tc main_arg7)) (V0 (Proc.devRef .tc main_arg8))
        (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) := by
  unfold outTicker plainStage propagate aggAnt aggRmt aggRit srcOf dstOf res_main_v146
    res_main_v59 res_main_v61 res_main_v88 res_main_v90 res_main_v118 res_main_v120
  rfl

section AtLaunch

variable (m : (ℓ : Loc nD τ sig) → Buf (Elt Ideal) ℓ) (c : Dev nD)

/-- The same four equations at the launch contents of a memory. -/
theorem institution_at : val4 (launchContents m c) (Proc.devRef .tc main_v28)
    = outInstitution (m ((c.tc : Thread nD τ).loc main_arg0)) (m ((c.tc : Thread nD τ).loc main_arg1)) (m ((c.tc : Thread nD τ).loc main_arg4)) (m ((c.tc : Thread nD τ).loc main_arg10)) (m ((c.tc : Thread nD τ).loc main_arg12)) (m ((c.tc : Thread nD τ).loc main_arg11)) := institution (launchContents m c)

theorem fund_at : val4 (launchContents m c) (Proc.devRef .tc main_v57)
    = outFund (m ((c.tc : Thread nD τ).loc main_arg0)) (m ((c.tc : Thread nD τ).loc main_arg2)) (m ((c.tc : Thread nD τ).loc main_arg5)) (m ((c.tc : Thread nD τ).loc main_arg13)) (m ((c.tc : Thread nD τ).loc main_arg15)) (m ((c.tc : Thread nD τ).loc main_arg14)) := fund (launchContents m c)

theorem news_at : val4 (launchContents m c) (Proc.devRef .tc main_v175)
    = outNews (m ((c.tc : Thread nD τ).loc main_arg0)) (m ((c.tc : Thread nD τ).loc main_arg3)) (m ((c.tc : Thread nD τ).loc main_arg9)) (m ((c.tc : Thread nD τ).loc main_arg25)) (m ((c.tc : Thread nD τ).loc main_arg27)) (m ((c.tc : Thread nD τ).loc main_arg26)) := news (launchContents m c)

theorem ticker_at : res_main_v146 (launchContents m c)
    = outTicker (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8))
        (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := ticker (launchContents m c)

end AtLaunch

end Cert.ReferenceIdeal.RefValue

end
-- ==== Proof.FiniteArgs.lean ====
/-
  Finite inputs are real entries.

  The precondition of the claim says that every float argument is finite: for each float array a it forms the truth value
  "|a i| < +∞ at every index i" (an all-reduction by "and" of the entrywise comparisons) and takes the conjunction of these
  truth values over the twenty-two float arguments, nested to the left. On the extended reals an entry x with
  max x (−x) < +∞ is neither +∞ nor −∞, hence a real number. A conjunction of one-bit words that is 1 has both conjuncts 1,
  so the truth value of each single argument is 1; an all-reduction by "and" that is 1 met a 1 at every index. This gives,
  for the arguments 0, 18, 21 and 24, that every entry is a real number.

  The conjunction is peeled from the outside in, one lemma per section of the chain; each lemma hands back the truth value
  that entered its section together with the facts about the arguments tested inside it.
-/
import proofs.«137150_j26774826123587_1_alg».proof.Pre_finite_inputs
import proofs.«137150_j26774826123587_1_alg».proof.Proof.LibRealEntries
import Idealize.ShloMosaic.PureOps.Ideal
import Idealize.ShloMosaic.PureOps.Ideal.Laws
import Idealize.ShloMosaic.Lib.ReduceAll
import Idealize.ShloMosaic.Lib.ValueIdx

noncomputable section

namespace Cert.Hetero.Finite

open Idealize.ShloMosaic Idealize.ShloMosaic.ValueIdx
open Cert.Pre_finite_inputs Cert.LibRealEntries

/-- The scalar shape has one index. -/
instance : Subsingleton S_.Idx := ⟨fun a b => funext fun d => d.elim0⟩

/-- An extended real whose absolute value max x (−x) lies strictly below +∞ is a real number. -/
theorem isReal_of_abs_lt_top (x : EReal) (h : max x (-x) < ⊤) : IsReal x := by
  refine isReal_of_ne ?_ ?_
  · rintro rfl
    simp at h
  · rintro rfl
    simp at h

/-- One entry: if the comparison |x| < +∞ answers 1, then x is a real number. The word 0x7F800000 denotes +∞. -/
theorem isReal_of_cmp (x : Ideal .f32)
    (h : FloatOps.cmpf .olt (FloatOps.hostAbsf x) (FloatOps.ofBits (F := Ideal) .f32 0x7F800000#32) = 1#1) : IsReal x := by
  have htop : FloatOps.ofBits (F := Ideal) .f32 0x7F800000#32 = (⊤ : EReal) := by
    show Ideal.ofBits .f32 0x7F800000#32 = ⊤
    simp [Ideal.ofBits, Ideal.ieee]
  rw [htop] at h
  apply isReal_of_abs_lt_top
  by_contra hn
  have h0 : FloatOps.cmpf .olt (FloatOps.hostAbsf x) (⊤ : Ideal .f32) = 0#1 := by
    show Ideal.cmp .olt (max x (-x)) ⊤ = 0#1
    simp [Ideal.cmp, hn]
  rw [h0] at h
  exact absurd h (by decide)

/-- A whole array, of any shape: if "|a i| < +∞ at every i" reduces to 1, then every entry of a is a real number. -/
theorem isReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf a) (broadcastInDim s ![] hb (constant S_ .f32 0x7F800000#32)))
        init hr hu ix0 = 1#1) (i : s.Idx) : IsReal (a i) :=
  isReal_of_cmp (a i) (Host.reduce_andi_all _ init hr hu ix0 e i)

/-- A conjunction of two scalar truth values that is 1 has both conjuncts 1. -/
theorem andi_split {a b : IVec S_ 1} (h : andi a b ix0 = 1#1) : a ix0 = 1#1 ∧ b ix0 = 1#1 :=
  IntOp.andi_eq_one.1 h

variable [Facts]

/-- Last section of the chain: the truth value entering it is 1. -/
theorem part6 (a27 : FVec Ideal S128x64 .f32) (v98 : IVec S_ 1) (v101 : IVec S64 1) (c39 : IVec S_ 1)
    (h : fn_part6 (F := Ideal) a27 v98 v101 c39 ix0 = 1#1) : v98 ix0 = 1#1 := by
  unfold fn_part6 at h
  dsimp only at h
  exact (andi_split (andi_split h).1).1

/-- Fifth section: the truth value entering it is 1, and argument 24, tested inside it, has real entries. -/
theorem part5 (a24 a25 : FVec Ideal S64x64 .f32) (a26 : FVec Ideal S64 .f32) (a27 : FVec Ideal S128x64 .f32)
    (v83 : IVec S_ 1) (v84 : FVec Ideal S64 .f32) (cst32 : FVec Ideal S_ .f32)
    (h : fn_part5 (F := Ideal) a24 a25 a26 a27 v83 v84 cst32 ix0 = 1#1) :
    v83 ix0 = 1#1 ∧ ∀ i, IsReal (a24 i) := by
  unfold fn_part5 at h
  dsimp only at h
  have h98 := part6 _ _ _ _ h
  obtain ⟨h93, -⟩ := andi_split h98
  obtain ⟨h88, h92⟩ := andi_split h93
  obtain ⟨h83, -⟩ := andi_split h88
  exact ⟨h83, isReal_of_all a24 _ _ _ _ h92⟩

/-- Fourth section: the truth value entering it is 1; arguments 21 (tested inside it) and 24 have real entries. -/
theorem part4 (a20 : FVec Ideal S64 .f32) (a21 a22 : FVec Ideal S64x64 .f32) (a23 : FVec Ideal S64 .f32)
    (a24 a25 : FVec Ideal S64x64 .f32) (a26 : FVec Ideal S64 .f32) (a27 : FVec Ideal S128x64 .f32)
    (v63 v67 : IVec S_ 1)
    (h : fn_part4 (F := Ideal) a20 a21 a22 a23 a24 a25 a26 a27 v63 v67 ix0 = 1#1) :
    v63 ix0 = 1#1 ∧ (∀ i, IsReal (a21 i)) ∧ ∀ i, IsReal (a24 i) := by
  unfold fn_part4 at h
  dsimp only at h
  obtain ⟨h83, r24⟩ := part5 _ _ _ _ _ _ _ h
  obtain ⟨h78, -⟩ := andi_split h83
  obtain ⟨h73, h77⟩ := andi_split h78
  obtain ⟨h68, -⟩ := andi_split h73
  obtain ⟨h63, -⟩ := andi_split h68
  exact ⟨h63, isReal_of_all a21 _ _ _ _ h77, r24⟩

/-- Third section: the truth value entering it is 1; arguments 18 (tested inside it), 21 and 24 have real entries. -/
theorem part3 (a17 : FVec Ideal S64 .f32) (a18 a19 : FVec Ideal S64x64 .f32) (a20 : FVec Ideal S64 .f32)
    (a21 a22 : FVec Ideal S64x64 .f32) (a23 : FVec Ideal S64 .f32) (a24 a25 : FVec Ideal S64x64 .f32)
    (a26 : FVec Ideal S64 .f32) (a27 : FVec Ideal S128x64 .f32) (v48 : IVec S_ 1) (v49 v50 : FVec Ideal S128x64 .f32)
    (h : fn_part3 (F := Ideal) a17 a18 a19 a20 a21 a22 a23 a24 a25 a26 a27 v48 v49 v50 ix0 = 1#1) :
    v48 ix0 = 1#1 ∧ (∀ i, IsReal (a18 i)) ∧ (∀ i, IsReal (a21 i)) ∧ ∀ i, IsReal (a24 i) := by
  unfold fn_part3 at h
  dsimp only at h
  obtain ⟨h63, r21, r24⟩ := part4 _ _ _ _ _ _ _ _ _ _ h
  obtain ⟨h58, h62⟩ := andi_split h63
  obtain ⟨h53, -⟩ := andi_split h58
  obtain ⟨h48, -⟩ := andi_split h53
  exact ⟨h48, isReal_of_all a18 _ _ _ _ h62, r21, r24⟩

/-- Second section: it tests none of the four arguments; the truth value entering it is 1. -/
theorem part2 (a13 : FVec Ideal S64x64 .f32) (a14 : FVec Ideal S64 .f32) (a15 : FVec Ideal S64x64 .f32)
    (a16 : FVec Ideal S128x64 .f32) (a17 : FVec Ideal S64 .f32) (a18 a19 : FVec Ideal S64x64 .f32)
    (a20 : FVec Ideal S64 .f32) (a21 a22 : FVec Ideal S64x64 .f32) (a23 : FVec Ideal S64 .f32)
    (a24 a25 : FVec Ideal S64x64 .f32) (a26 : FVec Ideal S64 .f32) (a27 : FVec Ideal S128x64 .f32) (v33 : IVec S_ 1)
    (h : fn_part2 (F := Ideal) a13 a14 a15 a16 a17 a18 a19 a20 a21 a22 a23 a24 a25 a26 a27 v33 ix0 = 1#1) :
    v33 ix0 = 1#1 ∧ (∀ i, IsReal (a18 i)) ∧ (∀ i, IsReal (a21 i)) ∧ ∀ i, IsReal (a24 i) := by
  unfold fn_part2 at h
  dsimp only at h
  obtain ⟨h48, r18, r21, r24⟩ := part3 _ _ _ _ _ _ _ _ _ _ _ _ _ _ h
  obtain ⟨h43, -⟩ := andi_split h48
  obtain ⟨h38, -⟩ := andi_split h43
  obtain ⟨h33, -⟩ := andi_split h38
  exact ⟨h33, r18, r21, r24⟩

/-- First section: it tests none of the four arguments; the truth value entering it is 1. -/
theorem part1 (a10 : FVec Ideal S64x64 .f32) (a11 : FVec Ideal S64 .f32) (a12 a13 : FVec Ideal S64x64 .f32)
    (a14 : FVec Ideal S64 .f32) (a15 : FVec Ideal S64x64 .f32) (a16 : FVec Ideal S128x64 .f32)
    (a17 : FVec Ideal S64 .f32) (a18 a19 : FVec Ideal S64x64 .f32) (a20 : FVec Ideal S64 .f32)
    (a21 a22 : FVec Ideal S64x64 .f32) (a23 : FVec Ideal S64 .f32) (a24 a25 : FVec Ideal S64x64 .f32)
    (a26 : FVec Ideal S64 .f32) (a27 : FVec Ideal S128x64 .f32) (v13 : IVec S_ 1) (v16 : IVec S100000x128 1)
    (h : fn_part1 (F := Ideal) a10 a11 a12 a13 a14 a15 a16 a17 a18 a19 a20 a21 a22 a23 a24 a25 a26 a27 v13 v16 ix0
      = 1#1) :
    v13 ix0 = 1#1 ∧ (∀ i, IsReal (a18 i)) ∧ (∀ i, IsReal (a21 i)) ∧ ∀ i, IsReal (a24 i) := by
  unfold fn_part1 at h
  dsimp only at h
  obtain ⟨h33, r18, r21, r24⟩ := part2 _ _ _ _ _ _ _ _ _ _ _ _ _ _ _ _ h
  obtain ⟨h28, -⟩ := andi_split h33
  obtain ⟨h23, -⟩ := andi_split h28
  obtain ⟨h18, -⟩ := andi_split h23
  obtain ⟨h13, -⟩ := andi_split h18
  exact ⟨h13, r18, r21, r24⟩

/-- Under the precondition "every float input is finite", the arguments 0, 18, 21 and 24 have real entries. -/
theorem real_of_finite_inputs [Cert.Pre_finite_inputs.Facts]
    (a0 : FVec Ideal S5000x64 .f32) (a1 : FVec Ideal S20000x64 .f32) (a2 : FVec Ideal S30000x64 .f32)
    (a3 : FVec Ideal S100000x128 .f32) (a4 a5 a6 a7 a8 a9 : IVec S2x1000000 32)
    (a10 : FVec Ideal S64x64 .f32) (a11 : FVec Ideal S64 .f32) (a12 a13 : FVec Ideal S64x64 .f32)
    (a14 : FVec Ideal S64 .f32) (a15 : FVec Ideal S64x64 .f32) (a16 : FVec Ideal S128x64 .f32)
    (a17 : FVec Ideal S64 .f32) (a18 a19 : FVec Ideal S64x64 .f32) (a20 : FVec Ideal S64 .f32)
    (a21 a22 : FVec Ideal S64x64 .f32) (a23 : FVec Ideal S64 .f32) (a24 a25 : FVec Ideal S64x64 .f32)
    (a26 : FVec Ideal S64 .f32) (a27 : FVec Ideal S128x64 .f32)
    (h : Cert.Pre_finite_inputs.fn (F := Ideal) a0 a1 a2 a3 a4 a5 a6 a7 a8 a9 a10 a11 a12 a13 a14 a15 a16 a17 a18 a19
      a20 a21 a22 a23 a24 a25 a26 a27 = fun _ => 1#1) :
    (∀ i, Cert.LibRealEntries.IsReal (a0 i)) ∧ (∀ i, Cert.LibRealEntries.IsReal (a18 i))
      ∧ (∀ i, Cert.LibRealEntries.IsReal (a21 i)) ∧ (∀ i, Cert.LibRealEntries.IsReal (a24 i)) := by
  have h0 : Cert.Pre_finite_inputs.fn (F := Ideal) a0 a1 a2 a3 a4 a5 a6 a7 a8 a9 a10 a11 a12 a13 a14 a15 a16 a17 a18
      a19 a20 a21 a22 a23 a24 a25 a26 a27 ix0 = 1#1 := congrFun h ix0
  unfold Cert.Pre_finite_inputs.fn at h0
  dsimp only at h0
  obtain ⟨h13, r18, r21, r24⟩ := part1 _ _ _ _ _ _ _ _ _ _ _ _ _ _ _ _ _ _ _ _ h0
  obtain ⟨h8, -⟩ := andi_split h13
  obtain ⟨h3, -⟩ := andi_split h8
  exact ⟨isReal_of_all a0 _ _ _ _ h3, r18, r21, r24⟩

end Cert.Hetero.Finite

end
-- ==== Proof.lean ====
/-
  A heterogeneous graph layer (four node types, six edge types, sum-aggregated mean convolutions) computed by a
  program of four tiled regions, against the same layer written with plain array operations.

  Both programs compute every neighbour mean with the same host operations (gather the source rows, add them up per
  destination, divide by the number of incoming edges or one). They differ in the dense part. For institutions,
  mutual funds and news items the tiled program computes (mean · Wl + x · Wr) + b on blocks of 1000 rows where the
  plain program computes (mean · Wl + b) + x · Wr on all rows at once: the same sum in another order. For tickers,
  which have three incoming edge types, the tiled program first adds the three right-hand weight tables and the three
  bias vectors and multiplies the ticker features once by the summed table, where the plain program adds three full
  stages; the two agree by distributivity of the product over the sum of the tables, which on the extended reals
  needs the ticker features and those three tables to be finite. That is the one place the precondition is used.

  The pieces: the tiled program's run with its result buffers kept (KernelRun), what each region leaves in its output
  array as a whole-array function of what it found (Region0 … Region3, over LibSageStages), the buffers read back through
  the run to the arguments (FoldReads, AggTerms), the results as functions of the arguments (Outputs, KernelValues,
  RefValues), the law for three edge types (LibSageTripleLaw) and finiteness of the four arrays it needs (FiniteArgs).
-/
import proofs.«137150_j26774826123587_1_alg».proof.Defs
import proofs.«137150_j26774826123587_1_alg».proof.Proof.Gen.Kernel
import proofs.«137150_j26774826123587_1_alg».proof.Proof.Gen.Kernel.Skeleton
import proofs.«137150_j26774826123587_1_alg».proof.Proof.Gen.Kernel.Launch
import proofs.«137150_j26774826123587_1_alg».proof.Proof.Gen.Kernel.Points
import proofs.«137150_j26774826123587_1_alg».proof.Proof.Gen.Kernel.Frame
import proofs.«137150_j26774826123587_1_alg».proof.Proof.Gen.KernelIdeal
import proofs.«137150_j26774826123587_1_alg».proof.Proof.Gen.KernelIdeal.Skeleton
import proofs.«137150_j26774826123587_1_alg».proof.Proof.Gen.KernelIdeal.Launch
import proofs.«137150_j26774826123587_1_alg».proof.Proof.Gen.KernelIdeal.Points
import proofs.«137150_j26774826123587_1_alg».proof.Proof.Gen.KernelIdeal.Frame
import proofs.«137150_j26774826123587_1_alg».proof.Proof.Gen.ReferenceIdeal
import proofs.«137150_j26774826123587_1_alg».proof.Proof.Gen.ReferenceIdeal.Run
import proofs.«137150_j26774826123587_1_alg».proof.Proof.Gen.Pre_finite_inputs
import proofs.«137150_j26774826123587_1_alg».proof.Proof.KernelValues
import proofs.«137150_j26774826123587_1_alg».proof.Proof.RefValues
import proofs.«137150_j26774826123587_1_alg».proof.Proof.FiniteArgs
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The plain array program runs and leaves its arguments as launched: its run with the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories that agree on the arguments both programs end with the four output functions of the arguments. -/
theorem algebraic : Cert.algebraic_KernelIdeal_ReferenceIdeal := by
  intro m ρ m' ρ' hpre hagree
  refine ⟨fun c => Cert.KernelIdeal.Whole.outTicker (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    fun c => Cert.KernelIdeal.Whole.outInstitution (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)),
    fun c => Cert.KernelIdeal.Whole.outFund (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg13)) (m ((c.tc : Thread Cert.KernelIdeal.nD Cert.KernelIdeal.τ).loc Cert.KernelIdeal.main_arg15)) (m ((c.tc : Thread Cert.KernelIdeal.nD Cert.KernelIdeal.τ).loc Cert.KernelIdeal.main_arg14)),
    fun c => Cert.KernelIdeal.Whole.outNews (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg25)) (m ((c.tc : Thread Cert.KernelIdeal.nD Cert.KernelIdeal.τ).loc Cert.KernelIdeal.main_arg27)) (m ((c.tc : Thread Cert.KernelIdeal.nD Cert.KernelIdeal.τ).loc Cert.KernelIdeal.main_arg26)), ?_, ?_⟩
  · refine (θ_run Cert.KernelIdeal.defs _ _).mono (fun r h c => ?_) (Cert.KernelIdeal.Whole.run_all m ρ)
    obtain ⟨hX, hR1, hR2, hR3⟩ := Cert.Hetero.Finite.real_of_finite_inputs _ _ _ _ _ _ _ _ _ _ _ _ _ _ _ _ _ _ _ _ _ _ _ _ _ _ _ _ (hpre c)
    exact ⟨(h c _ (Cert.KernelIdeal.Whole.mem_ucRefs Cert.KernelIdeal.main_v149 (by decide))).trans
        (Cert.KernelIdeal.Whole.value_v149 m ρ c hX hR1 hR2 hR3),
      (h c _ (Cert.KernelIdeal.Whole.mem_ucRefs Cert.KernelIdeal.main_v24 (by decide))).trans (Cert.KernelIdeal.Whole.value_v24 m ρ c),
      (h c _ (Cert.KernelIdeal.Whole.mem_ucRefs Cert.KernelIdeal.main_v49 (by decide))).trans (Cert.KernelIdeal.Whole.value_v49 m ρ c),
      (h c _ (Cert.KernelIdeal.Whole.mem_ucRefs Cert.KernelIdeal.main_v74 (by decide))).trans (Cert.KernelIdeal.Whole.value_v74 m ρ c),
      (h c _ (Cert.KernelIdeal.Whole.mem_ucRefs Cert.KernelIdeal.main_arg0 (by decide))).trans (Cert.KernelIdeal.Gen.W8_main_arg0 m ρ c),
      (h c _ (Cert.KernelIdeal.Whole.mem_ucRefs Cert.KernelIdeal.main_arg1 (by decide))).trans (Cert.KernelIdeal.Gen.W8_main_arg1 m ρ c),
      (h c _ (Cert.KernelIdeal.Whole.mem_ucRefs Cert.KernelIdeal.main_arg2 (by decide))).trans (Cert.KernelIdeal.Gen.W8_main_arg2 m ρ c),
      (h c _ (Cert.KernelIdeal.Whole.mem_ucRefs Cert.KernelIdeal.main_arg3 (by decide))).trans (Cert.KernelIdeal.Gen.W8_main_arg3 m ρ c),
      (h c _ (Cert.KernelIdeal.Whole.mem_ucRefs Cert.KernelIdeal.main_arg4 (by decide))).trans (Cert.KernelIdeal.Gen.W8_main_arg4 m ρ c),
      (h c _ (Cert.KernelIdeal.Whole.mem_ucRefs Cert.KernelIdeal.main_arg5 (by decide))).trans (Cert.KernelIdeal.Gen.W8_main_arg5 m ρ c),
      (h c _ (Cert.KernelIdeal.Whole.mem_ucRefs Cert.KernelIdeal.main_arg6 (by decide))).trans (Cert.KernelIdeal.Gen.W8_main_arg6 m ρ c),
      (h c _ (Cert.KernelIdeal.Whole.mem_ucRefs Cert.KernelIdeal.main_arg7 (by decide))).trans (Cert.KernelIdeal.Gen.W8_main_arg7 m ρ c),
      (h c _ (Cert.KernelIdeal.Whole.mem_ucRefs Cert.KernelIdeal.main_arg8 (by decide))).trans (Cert.KernelIdeal.Gen.W8_main_arg8 m ρ c),
      (h c _ (Cert.KernelIdeal.Whole.mem_ucRefs Cert.KernelIdeal.main_arg9 (by decide))).trans (Cert.KernelIdeal.Gen.W8_main_arg9 m ρ c),
      (h c _ (Cert.KernelIdeal.Whole.mem_ucRefs Cert.KernelIdeal.main_arg10 (by decide))).trans (Cert.KernelIdeal.Gen.W8_main_arg10 m ρ c),
      (h c _ (Cert.KernelIdeal.Whole.mem_ucRefs Cert.KernelIdeal.main_arg11 (by decide))).trans (Cert.KernelIdeal.Gen.W8_main_arg11 m ρ c),
      (h c _ (Cert.KernelIdeal.Whole.mem_ucRefs Cert.KernelIdeal.main_arg12 (by decide))).trans (Cert.KernelIdeal.Gen.W8_main_arg12 m ρ c),
      (h c _ (Cert.KernelIdeal.Whole.mem_ucRefs Cert.KernelIdeal.main_arg13 (by decide))).trans (Cert.KernelIdeal.Gen.W8_main_arg13 m ρ c),
      (h c _ (Cert.KernelIdeal.Whole.mem_ucRefs Cert.KernelIdeal.main_arg14 (by decide))).trans (Cert.KernelIdeal.Gen.W8_main_arg14 m ρ c),
      (h c _ (Cert.KernelIdeal.Whole.mem_ucRefs Cert.KernelIdeal.main_arg15 (by decide))).trans (Cert.KernelIdeal.Gen.W8_main_arg15 m ρ c),
      (h c _ (Cert.KernelIdeal.Whole.mem_ucRefs Cert.KernelIdeal.main_arg16 (by decide))).trans (Cert.KernelIdeal.Gen.W8_main_arg16 m ρ c),
      (h c _ (Cert.KernelIdeal.Whole.mem_ucRefs Cert.KernelIdeal.main_arg17 (by decide))).trans (Cert.KernelIdeal.Gen.W8_main_arg17 m ρ c),
      (h c _ (Cert.KernelIdeal.Whole.mem_ucRefs Cert.KernelIdeal.main_arg18 (by decide))).trans (Cert.KernelIdeal.Gen.W8_main_arg18 m ρ c),
      (h c _ (Cert.KernelIdeal.Whole.mem_ucRefs Cert.KernelIdeal.main_arg19 (by decide))).trans (Cert.KernelIdeal.Gen.W8_main_arg19 m ρ c),
      (h c _ (Cert.KernelIdeal.Whole.mem_ucRefs Cert.KernelIdeal.main_arg20 (by decide))).trans (Cert.KernelIdeal.Gen.W8_main_arg20 m ρ c),
      (h c _ (Cert.KernelIdeal.Whole.mem_ucRefs Cert.KernelIdeal.main_arg21 (by decide))).trans (Cert.KernelIdeal.Gen.W8_main_arg21 m ρ c),
      (h c _ (Cert.KernelIdeal.Whole.mem_ucRefs Cert.KernelIdeal.main_arg22 (by decide))).trans (Cert.KernelIdeal.Gen.W8_main_arg22 m ρ c),
      (h c _ (Cert.KernelIdeal.Whole.mem_ucRefs Cert.KernelIdeal.main_arg23 (by decide))).trans (Cert.KernelIdeal.Gen.W8_main_arg23 m ρ c),
      (h c _ (Cert.KernelIdeal.Whole.mem_ucRefs Cert.KernelIdeal.main_arg24 (by decide))).trans (Cert.KernelIdeal.Gen.W8_main_arg24 m ρ c),
      (h c _ (Cert.KernelIdeal.Whole.mem_ucRefs Cert.KernelIdeal.main_arg25 (by decide))).trans (Cert.KernelIdeal.Gen.W8_main_arg25 m ρ c),
      (h c _ (Cert.KernelIdeal.Whole.mem_ucRefs Cert.KernelIdeal.main_arg26 (by decide))).trans (Cert.KernelIdeal.Gen.W8_main_arg26 m ρ c),
      (h c _ (Cert.KernelIdeal.Whole.mem_ucRefs Cert.KernelIdeal.main_arg27 (by decide))).trans (Cert.KernelIdeal.Gen.W8_main_arg27 m ρ c)⟩
  · refine (θ_run Cert.ReferenceIdeal.defs _ _).mono (fun r h c => ?_) (Cert.ReferenceIdeal.Value.run (F := Ideal) m' ρ')
    obtain ⟨h0, h1, h2, h3, hargs⟩ := h c
    obtain ⟨g0, g1, g2, g3, g4, g5, g6, g7, g8, g9, g10, g11, g12, g13, g14, g15, g16, g17, g18, g19, g20, g21, g22, g23, g24, g25, g26, g27⟩ := hagree c
    refine ⟨h0.trans ?_, h1.trans ?_, h2.trans ?_, h3.trans ?_, hargs⟩
    · exact (Cert.ReferenceIdeal.RefValue.ticker_at m' c).trans
        (by rw [g0, g1, g2, g3, g6, g7, g8, g16, g17, g18, g19, g20, g21, g22, g23, g24])
    · exact ((Cert.ReferenceIdeal.Value.val4_main_v28 _).symm.trans (Cert.ReferenceIdeal.RefValue.institution_at m' c)).trans
        (by rw [g0, g1, g4, g10, g12, g11])
    · exact ((Cert.ReferenceIdeal.Value.val4_main_v57 _).symm.trans (Cert.ReferenceIdeal.RefValue.fund_at m' c)).trans
        (by rw [g0, g2, g5, g13, g15, g14])
    · exact ((Cert.ReferenceIdeal.Value.val4_main_v175 _).symm.trans (Cert.ReferenceIdeal.RefValue.news_at m' c)).trans
        (by rw [g0, g3, g9, g25, g27, g26])

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
